-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x128x128 : Shape := ⟨3, ![2, 128, 128]⟩
abbrev S2x128 : Shape := ⟨2, ![2, 128]⟩
abbrev S384x1 : Shape := ⟨2, ![384, 1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S384x1 : S_.BroadcastsInDim S384x1 (![] : Fin 0 → Fin S384x1.rank)
  reducesTo_S384x1_S_d0_1 : S384x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S2x128x128 .f32) (main_arg9 : FVec F S2x128 .f32) (main_arg10 : FVec F S384x1 .f32) (main_arg11 : FVec F S1 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S384x1 .f32 := Host.absf main_arg10
  let main_cst_16 : FVec F S_ .f32 := constant S_ .f32 0x7F800000#32
  let main_v45 : FVec F S384x1 .f32 := broadcastInDim S384x1 ![] bcast_S_S384x1 main_cst_16
  let main_v46 : IVec S384x1 1 := cmpf .olt main_v44 main_v45
  let main_c_17 : IVec S_ 1 := constantI S_ 1 1#1
  let main_v47 : IVec S_ 1 := (fun x v => Host.reduce IntOp.andi x v reducesTo_S384x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x1 .f32) (main_arg7 : FVec F S1 .f32) (main_arg8 : FVec F S2x128x128 .f32) (main_arg9 : FVec F S2x128 .f32) (main_arg10 : FVec F S384x1 .f32) (main_arg11 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x256 .f32) (main_arg1 : IVec S2x1600000 32) (main_arg2 : FVec F S256x128 .f32) (main_arg3 : FVec F S128 .f32) (main_arg4 : FVec F S128x64 .f32) (main_arg5 : FVec F S64 .f32) (main_arg6 : FVec F S64x1 .f32) (main_arg7 : FVec F S1 .f32) (main_arg8 : FVec F S2x128x128 .f32) (main_arg9 : FVec F S2x128 .f32) (main_arg10 : FVec F S384x1 .f32) (main_arg11 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x128x128 : Shape := ⟨3, ![2, 128, 128]⟩
abbrev S2x128 : Shape := ⟨2, ![2, 128]⟩
abbrev S384x1 : Shape := ⟨2, ![384, 1]⟩
abbrev S1x1600000 : Shape := ⟨2, ![1, 1600000]⟩
abbrev S1600000 : Shape := ⟨1, ![1600000]⟩
abbrev S50000x128 : Shape := ⟨2, ![50000, 128]⟩
abbrev S50000x1 : Shape := ⟨2, ![50000, 1]⟩
abbrev S5000x256 : Shape := ⟨2, ![5000, 256]⟩
abbrev S5000x128 : Shape := ⟨2, ![5000, 128]⟩
abbrev S5000x1 : Shape := ⟨2, ![5000, 1]⟩
abbrev S1x128 : Shape := ⟨2, ![1, 128]⟩
abbrev S5000x64 : Shape := ⟨2, ![5000, 64]⟩
abbrev S1x64 : Shape := ⟨2, ![1, 64]⟩
abbrev S1x1 : Shape := ⟨2, ![1, 1]⟩
abbrev S50000 : Shape := ⟨1, ![50000]⟩
abbrev S_ : Shape := ⟨0, ![]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S128x1 : Shape := ⟨2, ![128, 1]⟩

abbrev nBuf : Space → Nat
  | .hbm => 150
  | .vmem => 52
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S64x1, .f32⟩
  | 7 => ⟨S1, .f32⟩
  | 8 => ⟨S2x128x128, .f32⟩
  | 9 => ⟨S2x128, .f32⟩
  | 10 => ⟨S384x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S50000x128, .f32⟩
  | 17 => ⟨S50000x1, .f32⟩
  | 18 => ⟨S50000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .f32⟩
  | 39 => ⟨S1600000, .f32⟩
  | 40 => ⟨S1600000, .f32⟩
  | 41 => ⟨S_, .f32⟩
  | 42 => ⟨S_, .f32⟩
  | 43 => ⟨S_, .f32⟩
  | 44 => ⟨S_, .f32⟩
  | 45 => ⟨S_, .i32⟩
  | 46 => ⟨S_, .f32⟩
  | 47 => ⟨S_, .f32⟩
  | 48 => ⟨S1, .f32⟩
  | 49 => ⟨S_, .f32⟩
  | 50 => ⟨S1, .f32⟩
  | 51 => ⟨S1, .f32⟩
  | 52 => ⟨S1600000, .f32⟩
  | 53 => ⟨S1600000, .f32⟩
  | 54 => ⟨S1600000, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i1⟩
  | 63 => ⟨S_, .f32⟩
  | 64 => ⟨S_, .f32⟩
  | 65 => ⟨S_, .f32⟩
  | 66 => ⟨S_, .f32⟩
  | 67 => ⟨S_, .f32⟩
  | 68 => ⟨S1600000, .f32⟩
  | 69 => ⟨S1600000, .i1⟩
  | 70 => ⟨S1600000, .f32⟩
  | 71 => ⟨S_, .f32⟩
  | 72 => ⟨S50000, .f32⟩
  | 73 => ⟨S1600000x1, .i32⟩
  | 74 => ⟨S50000, .f32⟩
  | 75 => ⟨S_, .f32⟩
  | 76 => ⟨S50000, .f32⟩
  | 77 => ⟨S50000, .f32⟩
  | 78 => ⟨S50000, .f32⟩
  | 79 => ⟨S50000, .f32⟩
  | 80 => ⟨S50000x1, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S1600000, .f32⟩
  | 101 => ⟨S1x128x128, .f32⟩
  | 102 => ⟨S128x128, .f32⟩
  | 103 => ⟨S1x128, .f32⟩
  | 104 => ⟨S128, .f32⟩
  | 105 => ⟨S50000x128, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x128, .f32⟩
  | 117 => ⟨S1600000x128, .f32⟩
  | 118 => ⟨S_, .f32⟩
  | 119 => ⟨S50000x128, .f32⟩
  | 120 => ⟨S1600000x1, .i32⟩
  | 121 => ⟨S50000x128, .f32⟩
  | 122 => ⟨S50000x128, .f32⟩
  | 123 => ⟨S1x128x128, .f32⟩
  | 124 => ⟨S128x128, .f32⟩
  | 125 => ⟨S1x128, .f32⟩
  | 126 => ⟨S128, .f32⟩
  | 127 => ⟨S50000x128, .f32⟩
  | _ => ⟨S50000x256, .f32⟩

abbrev hbmTy0_1 (i : Nat) : BufTy := match i % 128 with
  | 0 => ⟨S1600000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S1600000x128, .f32⟩
  | 11 => ⟨S1600000x128, .f32⟩
  | 12 => ⟨S_, .f32⟩
  | 13 => ⟨S50000x128, .f32⟩
  | 14 => ⟨S1600000x1, .i32⟩
  | 15 => ⟨S50000x128, .f32⟩
  | 16 => ⟨S50000x128, .f32⟩
  | 17 => ⟨S128x1, .f32⟩
  | 18 => ⟨S128x1, .f32⟩
  | 19 => ⟨S128x1, .f32⟩
  | 20 => ⟨S50000x1, .f32⟩
  | 21 => ⟨S50000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S128x64, .f32⟩
  | .local _ .vmem, ⟨5, _⟩ => ⟨S64, .f32⟩
  | .local _ .vmem, ⟨6, _⟩ => ⟨S64x1, .f32⟩
  | .local _ .vmem, ⟨7, _⟩ => ⟨S1, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x1, .f32⟩
  | .local _ .vmem, ⟨47, _⟩ => ⟨S128x1, .f32⟩
  | .local _ .vmem, ⟨48, _⟩ => ⟨S128x1, .f32⟩
  | .local _ .vmem, ⟨49, _⟩ => ⟨S1, .f32⟩
  | .local _ .vmem, ⟨50, _⟩ => ⟨S5000x1, .f32⟩
  | .local _ .vmem, ⟨51, _⟩ => ⟨S5000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_c_5 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_cst_0 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_cst_1 : Ref sig .tc := ⟨.hbm, 56, rfl⟩
abbrev main_call0_call0_v8 : Ref sig .tc := ⟨.hbm, 57, rfl⟩
abbrev main_call0_call0_cst_2 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_cst_3 : Ref sig .tc := ⟨.hbm, 61, rfl⟩
abbrev main_call0_call0_v11 : Ref sig .tc := ⟨.hbm, 62, rfl⟩
abbrev main_call0_call0_cst_4 : Ref sig .tc := ⟨.hbm, 63, rfl⟩
abbrev main_call0_call0_call0_v0 : Ref sig .tc := ⟨.hbm, 64, rfl⟩
abbrev main_call0_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_6 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_7 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_c_8 : Ref sig .tc := ⟨.hbm, 81, rfl⟩
abbrev main_v38 : Ref sig .tc := ⟨.hbm, 82, rfl⟩
abbrev main_v39 : Ref sig .tc := ⟨.hbm, 83, rfl⟩
abbrev main_c_9 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_c_10 : Ref sig .tc := ⟨.hbm, 90, rfl⟩
abbrev main_v45 : Ref sig .tc := ⟨.hbm, 91, rfl⟩
abbrev main_v46 : Ref sig .tc := ⟨.hbm, 92, rfl⟩
abbrev main_c_11 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_c_12 : Ref sig .tc := ⟨.hbm, 107, rfl⟩
abbrev main_v60 : Ref sig .tc := ⟨.hbm, 108, rfl⟩
abbrev main_v61 : Ref sig .tc := ⟨.hbm, 109, rfl⟩
abbrev main_c_13 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_14 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_15 : Ref sig .tc := ⟨.hbm, 129, rfl⟩
abbrev main_v79 : Ref sig .tc := ⟨.hbm, 130, rfl⟩
abbrev main_v80 : Ref sig .tc := ⟨.hbm, 131, rfl⟩
abbrev main_c_16 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_17 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000_S_d0 : S1600000.ReducesTo [0] S_
  h_S_ : 0 < S_.numel
  bcast_S_S1 : S_.BroadcastsInDim S1 (![] : Fin 0 → Fin S1.rank)
  bcast_S1_S1600000_0 : S1.BroadcastsInDim S1600000 (![0] : Fin 1 → Fin S1600000.rank)
  bcast_S_S50000 : S_.BroadcastsInDim S50000 (![] : Fin 0 → Fin S50000.rank)
  bcast_S50000_S50000x1_0 : S50000.BroadcastsInDim S50000x1 (![0] : Fin 1 → Fin S50000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S5000x1_S5000x1 : S5000x1.ShapeCasts S5000x1
  shapeCasts_S128_S128 : S128.ShapeCasts S128
  broadcasts_S5000x1_S5000x128 : S5000x1.Broadcasts S5000x128
  slices_S2x128x128_S1x128x128_1_0_0 : S2x128x128.Slices ![1, 0, 0] S1x128x128
  slices_S2x128_S1x128_1_0 : S2x128.Slices ![1, 0] S1x128
  slices_S384x1_S128x1_0_0 : S384x1.Slices ![0, 0] S128x1
  slices_S384x1_S128x1_128_0 : S384x1.Slices ![128, 0] S128x1
  slices_S384x1_S128x1_256_0 : S384x1.Slices ![256, 0] S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  gather_S50000_S1600000x1_S1600000_n_0_n_n_0_1_1_wf : GatherDims.WF S50000 S1600000x1 S1600000 [] [0] [] [0] [] 1 ![1]
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x1.size a ≤ S50000x1.size a
  hwx0_8 : ∀ i : grid0.Coords, EltTy.bits .f32 = 32 ∨ (Rect.block (s := S50000x1) S5000x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x1.size a ≤ S128x1.size a
  hwx5_4 : ∀ i : grid5.Coords, EltTy.bits .f32 = 32 ∨ (Rect.block (s := S128x1) S128x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x1.size a ≤ S128x1.size a
  hwx5_5 : ∀ i : grid5.Coords, EltTy.bits .f32 = 32 ∨ (Rect.block (s := S128x1) S128x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1.size a ≤ S1.size a
  hwx5_6 : ∀ i : grid5.Coords, EltTy.bits .f32 = 32 ∨ (Rect.block (s := S1) S1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x1.size a ≤ S50000x1.size a
  hwx5_7 : ∀ i : grid5.Coords, EltTy.bits .f32 = 32 ∨ (Rect.block (s := S50000x1) S5000x1.size (cc5_transform_7 i) (hinb5_7 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S5000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v4_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v71) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v90) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v91) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v4_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v92) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S128x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v94) S128x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg11) S1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v95) S5000x1.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x128x128 : Shape := ⟨3, ![2, 128, 128]⟩
abbrev S2x128 : Shape := ⟨2, ![2, 128]⟩
abbrev S384x1 : Shape := ⟨2, ![384, 1]⟩
abbrev S1x1600000 : Shape := ⟨2, ![1, 1600000]⟩
abbrev S1600000 : Shape := ⟨1, ![1600000]⟩
abbrev S50000x128 : Shape := ⟨2, ![50000, 128]⟩
abbrev S1x128 : Shape := ⟨2, ![1, 128]⟩
abbrev S_ : Shape := ⟨0, ![]⟩
abbrev S50000x64 : Shape := ⟨2, ![50000, 64]⟩
abbrev S1x64 : Shape := ⟨2, ![1, 64]⟩
abbrev S50000x1 : Shape := ⟨2, ![50000, 1]⟩
abbrev S1x1 : Shape := ⟨2, ![1, 1]⟩
abbrev S50000 : Shape := ⟨1, ![50000]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S50000x384 : Shape := ⟨2, ![50000, 384]⟩

abbrev nBuf : Space → Nat
  | .hbm => 221
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S64x1, .f32⟩
  | 7 => ⟨S1, .f32⟩
  | 8 => ⟨S2x128x128, .f32⟩
  | 9 => ⟨S2x128, .f32⟩
  | 10 => ⟨S384x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S50000x1, .f32⟩
  | 31 => ⟨S1x1, .f32⟩
  | 32 => ⟨S50000x1, .f32⟩
  | 33 => ⟨S50000x1, .f32⟩
  | 34 => ⟨S50000x1, .f32⟩
  | 35 => ⟨S50000x1, .f32⟩
  | 36 => ⟨S_, .f32⟩
  | 37 => ⟨S50000x1, .f32⟩
  | 38 => ⟨S50000x1, .f32⟩
  | 39 => ⟨S_, .f32⟩
  | 40 => ⟨S50000x1, .f32⟩
  | 41 => ⟨S50000x1, .f32⟩
  | 42 => ⟨S50000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S_, .f32⟩
  | 63 => ⟨S1600000, .f32⟩
  | 64 => ⟨S1600000, .f32⟩
  | 65 => ⟨S_, .f32⟩
  | 66 => ⟨S_, .f32⟩
  | 67 => ⟨S_, .f32⟩
  | 68 => ⟨S_, .f32⟩
  | 69 => ⟨S_, .i32⟩
  | 70 => ⟨S_, .f32⟩
  | 71 => ⟨S_, .f32⟩
  | 72 => ⟨S1, .f32⟩
  | 73 => ⟨S_, .f32⟩
  | 74 => ⟨S1, .f32⟩
  | 75 => ⟨S1, .f32⟩
  | 76 => ⟨S1600000, .f32⟩
  | 77 => ⟨S1600000, .f32⟩
  | 78 => ⟨S1600000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .i1⟩
  | 87 => ⟨S_, .f32⟩
  | 88 => ⟨S_, .f32⟩
  | 89 => ⟨S_, .f32⟩
  | 90 => ⟨S_, .f32⟩
  | 91 => ⟨S_, .f32⟩
  | 92 => ⟨S1600000, .f32⟩
  | 93 => ⟨S1600000, .i1⟩
  | 94 => ⟨S1600000, .f32⟩
  | 95 => ⟨S1x128x128, .f32⟩
  | 96 => ⟨S128x128, .f32⟩
  | 97 => ⟨S1x128, .f32⟩
  | 98 => ⟨S128, .f32⟩
  | 99 => ⟨S50000x128, .f32⟩
  | 100 => ⟨S_, .f32⟩
  | 101 => ⟨S50000, .f32⟩
  | 102 => ⟨S1600000x1, .i32⟩
  | 103 => ⟨S50000, .f32⟩
  | 104 => ⟨S_, .f32⟩
  | 105 => ⟨S50000, .f32⟩
  | 106 => ⟨S50000, .f32⟩
  | 107 => ⟨S50000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S1600000, .f32⟩
  | 127 => ⟨S1600000, .f32⟩
  | _ => ⟨S50000x256, .f32⟩

abbrev hbmTy0_1 (i : Nat) : BufTy := match i % 128 with
  | 0 => ⟨S1600000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S1600000x128, .f32⟩
  | 11 => ⟨S1600000x128, .f32⟩
  | 12 => ⟨S_, .f32⟩
  | 13 => ⟨S50000x128, .f32⟩
  | 14 => ⟨S1600000x1, .i32⟩
  | 15 => ⟨S50000x128, .f32⟩
  | 16 => ⟨S50000, .f32⟩
  | 17 => ⟨S50000x1, .f32⟩
  | 18 => ⟨S50000x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S50000x128, .f32⟩
  | 32 => ⟨S_, .f32⟩
  | 33 => ⟨S50000, .f32⟩
  | 34 => ⟨S1600000x1, .i32⟩
  | 35 => ⟨S50000, .f32⟩
  | 36 => ⟨S_, .f32⟩
  | 37 => ⟨S50000, .f32⟩
  | 38 => ⟨S50000, .f32⟩
  | 39 => ⟨S50000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S1600000, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x128, .f32⟩
  | 71 => ⟨S1600000x128, .f32⟩
  | 72 => ⟨S_, .f32⟩
  | 73 => ⟨S50000x128, .f32⟩
  | 74 => ⟨S1600000x1, .i32⟩
  | 75 => ⟨S50000x128, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x384, .f32⟩
  | 88 => ⟨S50000x1, .f32⟩
  | 89 => ⟨S1x1, .f32⟩
  | 90 => ⟨S50000x1, .f32⟩
  | 91 => ⟨S50000x1, .f32⟩
  | 92 => ⟨S50000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_2 : Ref sig .tc := ⟨.hbm, 52, rfl⟩
abbrev main_v32 : Ref sig .tc := ⟨.hbm, 53, rfl⟩
abbrev main_v33 : Ref sig .tc := ⟨.hbm, 54, rfl⟩
abbrev main_c_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_c_7 : Ref sig .tc := ⟨.hbm, 69, rfl⟩
abbrev main_call2_call0_cst : Ref sig .tc := ⟨.hbm, 70, rfl⟩
abbrev main_call2_call0_v0 : Ref sig .tc := ⟨.hbm, 71, rfl⟩
abbrev main_call2_call0_v1 : Ref sig .tc := ⟨.hbm, 72, rfl⟩
abbrev main_call2_call0_cst_0 : Ref sig .tc := ⟨.hbm, 73, rfl⟩
abbrev main_call2_call0_v2 : Ref sig .tc := ⟨.hbm, 74, rfl⟩
abbrev main_call2_call0_v3 : Ref sig .tc := ⟨.hbm, 75, rfl⟩
abbrev main_call2_call0_v4 : Ref sig .tc := ⟨.hbm, 76, rfl⟩
abbrev main_call2_call0_v5 : Ref sig .tc := ⟨.hbm, 77, rfl⟩
abbrev main_call2_call0_v6 : Ref sig .tc := ⟨.hbm, 78, rfl⟩
abbrev main_call2_call0_v7 : Ref sig .tc := ⟨.hbm, 79, rfl⟩
abbrev main_call2_call0_cst_1 : Ref sig .tc := ⟨.hbm, 80, rfl⟩
abbrev main_call2_call0_v8 : Ref sig .tc := ⟨.hbm, 81, rfl⟩
abbrev main_call2_call0_cst_2 : Ref sig .tc := ⟨.hbm, 82, rfl⟩
abbrev main_call2_call0_v9 : Ref sig .tc := ⟨.hbm, 83, rfl⟩
abbrev main_call2_call0_v10 : Ref sig .tc := ⟨.hbm, 84, rfl⟩
abbrev main_call2_call0_cst_3 : Ref sig .tc := ⟨.hbm, 85, rfl⟩
abbrev main_call2_call0_v11 : Ref sig .tc := ⟨.hbm, 86, rfl⟩
abbrev main_call2_call0_cst_4 : Ref sig .tc := ⟨.hbm, 87, rfl⟩
abbrev main_call2_call0_call0_v0 : Ref sig .tc := ⟨.hbm, 88, rfl⟩
abbrev main_call2_v0 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_8 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_9 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_c_10 : Ref sig .tc := ⟨.hbm, 108, rfl⟩
abbrev main_v60 : Ref sig .tc := ⟨.hbm, 109, rfl⟩
abbrev main_v61 : Ref sig .tc := ⟨.hbm, 110, rfl⟩
abbrev main_c_11 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_12 : Ref sig .tc := ⟨.hbm, 117, rfl⟩
abbrev main_v67 : Ref sig .tc := ⟨.hbm, 118, rfl⟩
abbrev main_v68 : Ref sig .tc := ⟨.hbm, 119, rfl⟩
abbrev main_c_13 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_14 : Ref sig .tc := ⟨.hbm, 129, rfl⟩
abbrev main_v77 : Ref sig .tc := ⟨.hbm, 130, rfl⟩
abbrev main_v78 : Ref sig .tc := ⟨.hbm, 131, rfl⟩
abbrev main_c_15 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_16 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_call3_cst : Ref sig .tc := ⟨.hbm, 152, rfl⟩
abbrev main_call3_v0 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_17 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_18 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_c_19 : Ref sig .tc := ⟨.hbm, 168, rfl⟩
abbrev main_v109 : Ref sig .tc := ⟨.hbm, 169, rfl⟩
abbrev main_v110 : Ref sig .tc := ⟨.hbm, 170, rfl⟩
abbrev main_c_20 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_c_21 : Ref sig .tc := ⟨.hbm, 177, rfl⟩
abbrev main_v116 : Ref sig .tc := ⟨.hbm, 178, rfl⟩
abbrev main_v117 : Ref sig .tc := ⟨.hbm, 179, rfl⟩
abbrev main_c_22 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_c_23 : Ref sig .tc := ⟨.hbm, 189, rfl⟩
abbrev main_v126 : Ref sig .tc := ⟨.hbm, 190, rfl⟩
abbrev main_v127 : Ref sig .tc := ⟨.hbm, 191, rfl⟩
abbrev main_c_24 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_25 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_call4_cst : Ref sig .tc := ⟨.hbm, 212, rfl⟩
abbrev main_call4_v0 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000_S_d0 : S1600000.ReducesTo [0] S_
  h_S_ : 0 < S_.numel
  bcast_S_S1 : S_.BroadcastsInDim S1 (![] : Fin 0 → Fin S1.rank)
  bcast_S1_S1600000_0 : S1.BroadcastsInDim S1600000 (![0] : Fin 1 → Fin S1600000.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S50000 : S_.BroadcastsInDim S50000 (![] : Fin 0 → Fin S50000.rank)
  bcast_S1600000x1_S1600000x128_0_1 : S1600000x1.BroadcastsInDim S1600000x128 (![0, 1] : Fin 2 → Fin S1600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  concatenates_S50000x128_S50000x128_S50000x128_S50000x384_d1 : Shape.Concatenates [S50000x128, S50000x128, S50000x128] S50000x384 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []
  gather_S50000_S1600000x1_S1600000_n_0_n_n_0_1_1_wf : GatherDims.WF S50000 S1600000x1 S1600000 [] [0] [] [0] [] 1 ![1]
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x384_S384x1_S50000x1_1_0_0_1_n_n_wf : DotDims.WF S50000x384 S384x1 S50000x1 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x384_S384x1_S50000x1_1_0_0_1_n_n : DotDims S50000x384 S384x1 S50000x1 where
  lhsContracting := [1]
  rhsContracting := [0]
  lhsNonContracting := [0]
  rhsNonContracting := [1]
  lhsBatch := []
  rhsBatch := []
  wf := dot_S50000x384_S384x1_S50000x1_1_0_0_1_n_n_wf

class Facts : Prop extends Facts₀ where

variable [Facts]
-- ==== Proof.KRun.lean ====
/- The idealized kernel program's run with its RESULT named: every weakly fair execution of @main terminates, without a fault,
   the argument arrays unchanged, and the result buffer holds what the last boundary of the program's segments holds there —
   the fold of the host stretches and the regions' written-back arrays from the launch memory (`Gen.W15`). The run is the
   segments' launch, as for the frame claim, with the result buffer read off the last thread state beside the arguments. -/
import proofs.«155323_j59115929862451_1_alg».proof.Proof.Gen.KernelIdeal.Frame

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v96) = W15 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v96 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.KRun

end
-- ==== Proof.RefTerms.lean ====
/- The reference's computation as named whole-array functions of the twelve argument arrays, each stage spelt with the host
   operations the reference program applies, in its order: the edge endpoints (rows 0 and 1 of the edge table), the input
   projection h = relu(x·W_in + b_in), the node importance sigmoid(relu(h·W₁ + b₁)·W₂ + b₂), the edge weights (the mean of
   the two endpoints' importances), the keep-mask (weight above mean + unbiased standard deviation), the degree (kept edges
   into a node, plus one) and its inverse square root, the edge normalisation, one graph-convolution hop
   relu(scatter(norm · (cur·W)[row] → col) + dinv² · (cur·W) + b), and the read-out [h, c₁, c₂]·W_out + b_out. -/
import proofs.«155323_j59115929862451_1_alg».proof.ReferenceIdeal
import Idealize.ShloMosaic.PureOps.Ideal

noncomputable section

namespace Cert.ReferenceIdeal.T

open Cert.ReferenceIdeal Idealize.ShloMosaic

variable {F : FTy → Type} [FloatOps F] [Facts]
open Facts₀ Facts

/-- The contents of a buffer of shape `S` and element type `e`. -/
abbrev Arr (F : FTy → Type) (S : Shape) (e : EltTy) : Type := (⟨S, e⟩ : BufTy).Contents (Elt F)

/-- The twelve argument arrays. -/
structure Args (F : FTy → Type) where
  x : Arr F S50000x256 .f32
  e : Arr F S2x1600000 .i32
  Win : Arr F S256x128 .f32
  bin : Arr F S128 .f32
  W1 : Arr F S128x64 .f32
  b1 : Arr F S64 .f32
  W2 : Arr F S64x1 .f32
  b2 : Arr F S1 .f32
  Wc : Arr F S2x128x128 .f32
  bc : Arr F S2x128 .f32
  Wo : Arr F S384x1 .f32
  bo : Arr F S1 .f32

/-- Row `r` of the edge table as a vector of node numbers. -/
def endpoint0 (e : Arr F S2x1600000 .i32) : Arr F S1600000 .i32 :=
  shapeCast S1600000 (extractStridedSlice S1x1600000 ![0, 0] e slices_S2x1600000_S1x1600000_0_0) shapeCasts_S1x1600000_S1600000
def endpoint1 (e : Arr F S2x1600000 .i32) : Arr F S1600000 .i32 :=
  shapeCast S1600000 (extractStridedSlice S1x1600000 ![1, 0] e slices_S2x1600000_S1x1600000_1_0) shapeCasts_S1x1600000_S1600000

/-- A vector of node numbers as gather indices: a negative number counts from the end (50000 is added). -/
def wrapIdx (r : Arr F S1600000 .i32) : Arr F S1600000x1 .i32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 50000#32))) r)

/-- A per-node vector read at each edge's endpoint. -/
def atNodes (a : Arr F S50000 .f32) (r : Arr F S1600000 .i32) : Arr F S1600000 .f32 :=
  Host.gather gather_S50000_S1600000x1_S1600000_n_0_n_n_0_1_1 a (wrapIdx r)

/-- relu(x·W_in + b_in). -/
def proj (x : Arr F S50000x256 .f32) (W : Arr F S256x128 .f32) (b : Arr F S128 .f32) : Arr F S50000x128 .f32 :=
  maximumf (addf (Host.dotGeneral dot_S50000x256_S256x128_S50000x128_1_0_0_1_n_n none x W)
      (broadcastInDim S50000x128 ![0, 1] bcast_S1x128_S50000x128_0_1 (broadcastInDim S1x128 ![1] bcast_S128_S1x128_1 b)))
    (broadcastInDim S50000x128 ![] bcast_S_S50000x128 (constant (F := F) S_ .f32 0x00000000#32))

/-- sigmoid(relu(h·W₁ + b₁)·W₂ + b₂), a column. -/
def importance (h : Arr F S50000x128 .f32) (W1 : Arr F S128x64 .f32) (b1 : Arr F S64 .f32) (W2 : Arr F S64x1 .f32) (b2 : Arr F S1 .f32) :
    Arr F S50000x1 .f32 :=
  Host.divf (broadcastInDim S50000x1 ![] bcast_S_S50000x1 (constant (F := F) S_ .f32 0x3F800000#32))
    (addf (broadcastInDim S50000x1 ![] bcast_S_S50000x1 (constant (F := F) S_ .f32 0x3F800000#32))
      (Host.exp (Host.negf
        (addf (Host.dotGeneral dot_S50000x64_S64x1_S50000x1_1_0_0_1_n_n none
            (maximumf (addf (Host.dotGeneral dot_S50000x128_S128x64_S50000x64_1_0_0_1_n_n none h W1)
                (broadcastInDim S50000x64 ![0, 1] bcast_S1x64_S50000x64_0_1 (broadcastInDim S1x64 ![1] bcast_S64_S1x64_1 b1)))
              (broadcastInDim S50000x64 ![] bcast_S_S50000x64 (constant (F := F) S_ .f32 0x00000000#32))) W2)
          (broadcastInDim S50000x1 ![0, 1] bcast_S1x1_S50000x1_0_1 (broadcastInDim S1x1 ![1] bcast_S1_S1x1_1 b2))))))

/-- The importance column as a vector. -/
def flat (v : Arr F S50000x1 .f32) : Arr F S50000 .f32 := shapeCast S50000 v shapeCasts_S50000x1_S50000

/-- An edge's weight: the mean of its endpoints' importances. -/
def edgeWeight (imp : Arr F S50000 .f32) (row col : Arr F S1600000 .i32) : Arr F S1600000 .f32 :=
  mulf (addf (atNodes imp row) (atNodes imp col)) (broadcastInDim S1600000 ![] bcast_S_S1600000 (constant (F := F) S_ .f32 0x3F000000#32))

/-- The mean of the edge weights. -/
def meanW (ew : Arr F S1600000 .f32) : Arr F S_ .f32 :=
  Host.divf (Host.reduceAdd ew (constant (F := F) S_ .f32 0x00000000#32) reducesTo_S1600000_S_d0 h_S_) (constant (F := F) S_ .f32 0x49C35000#32)

/-- The unbiased standard deviation of the edge weights (jnp.std with one degree of freedom removed). -/
def stdW (ew : Arr F S1600000 .f32) : Arr F S_ .f32 :=
  Host.sqrt (select
    (cmpf .ogt (subf (constant (F := F) S_ .f32 0x49C35000#32) (sitofp (F := F) .f32 (constantI S_ 32 1#32))) (constant (F := F) S_ .f32 0x00000000#32))
    (Host.divf
      (Host.reduceAdd
        (mulf
          (subf ew (broadcastInDim S1600000 ![0] bcast_S1_S1600000_0
            (Host.divf (broadcastInDim S1 ![] bcast_S_S1 (Host.reduceAdd ew (constant (F := F) S_ .f32 0x00000000#32) reducesTo_S1600000_S_d0 h_S_))
              (broadcastInDim S1 ![] bcast_S_S1 (constant (F := F) S_ .f32 0x49C35000#32)))))
          (subf ew (broadcastInDim S1600000 ![0] bcast_S1_S1600000_0
            (Host.divf (broadcastInDim S1 ![] bcast_S_S1 (Host.reduceAdd ew (constant (F := F) S_ .f32 0x00000000#32) reducesTo_S1600000_S_d0 h_S_))
              (broadcastInDim S1 ![] bcast_S_S1 (constant (F := F) S_ .f32 0x49C35000#32))))))
        (constant (F := F) S_ .f32 0x00000000#32) reducesTo_S1600000_S_d0 h_S_)
      (subf (constant (F := F) S_ .f32 0x49C35000#32) (sitofp (F := F) .f32 (constantI S_ 32 1#32))))
    (id (constant (F := F) S_ .f32 0x7FC00000#32)))

/-- The keep-mask: 1 where an edge's weight exceeds mean + standard deviation, else 0. -/
def keep (ew : Arr F S1600000 .f32) : Arr F S1600000 .f32 :=
  uitofp (F := F) .f32 (cmpf .ogt ew (broadcastInDim S1600000 ![] bcast_S_S1600000 (addf (meanW ew) (stdW ew))))

/-- (1 + the kept edges into each node)^(-1/2). -/
def invSqrtDeg (em : Arr F S1600000 .f32) (col : Arr F S1600000 .i32) : Arr F S50000 .f32 :=
  Host.rsqrt (addf
    (Host.scatterAdd scatter_S50000_S1600000x1_S1600000_n_0_0_1 (broadcastInDim S50000 ![] bcast_S_S50000 (constant (F := F) S_ .f32 0x00000000#32))
      (broadcastInDim S1600000x1 ![0] bcast_S1600000_S1600000x1_0 col) em)
    (broadcastInDim S50000 ![] bcast_S_S50000 (constant (F := F) S_ .f32 0x3F800000#32)))

/-- An edge's normalisation: the two endpoints' inverse square-root degrees, times the mask. -/
def edgeNorm (dinv : Arr F S50000 .f32) (em : Arr F S1600000 .f32) (row col : Arr F S1600000 .i32) : Arr F S1600000 .f32 :=
  mulf (mulf (atNodes dinv row) (atNodes dinv col)) em

/-- cur·W for one hop. -/
def lin (cur : Arr F S50000x128 .f32) (W : Arr F S128x128 .f32) : Arr F S50000x128 .f32 :=
  Host.dotGeneral dot_S50000x128_S128x128_S50000x128_1_0_0_1_n_n none cur W

/-- The aggregation: each edge's normalised source row added into its target node's row. -/
def aggregate (nrm : Arr F S1600000 .f32) (hl : Arr F S50000x128 .f32) (row col : Arr F S1600000 .i32) : Arr F S50000x128 .f32 :=
  Host.scatterAdd scatter_S50000x128_S1600000x1_S1600000x128_1_0_0_1
    (broadcastInDim S50000x128 ![] bcast_S_S50000x128 (constant (F := F) S_ .f32 0x00000000#32))
    (broadcastInDim S1600000x1 ![0] bcast_S1600000_S1600000x1_0 col)
    (mulf (broadcastInDim S1600000x128 ![0, 1] bcast_S1600000x1_S1600000x128_0_1 (broadcastInDim S1600000x1 ![0] bcast_S1600000_S1600000x1_0 nrm))
      (Host.gather gather_S50000x128_S1600000x1_S1600000x128_1_0_n_n_0_1_1128 hl (wrapIdx row)))

/-- dinv² as a column (the self-loop's weight). -/
def selfWeight (dinv : Arr F S50000 .f32) : Arr F S50000x1 .f32 :=
  broadcastInDim S50000x1 ![0] bcast_S50000_S50000x1_0 (mulf dinv dinv)

/-- relu(agg + dinv²·hl + b). -/
def combine (agg : Arr F S50000x128 .f32) (d2 : Arr F S50000x1 .f32) (hl : Arr F S50000x128 .f32) (b : Arr F S128 .f32) : Arr F S50000x128 .f32 :=
  maximumf
    (addf (addf agg (mulf (broadcastInDim S50000x128 ![0, 1] bcast_S50000x1_S50000x128_0_1 d2) hl))
      (broadcastInDim S50000x128 ![0, 1] bcast_S1x128_S50000x128_0_1 (broadcastInDim S1x128 ![1] bcast_S128_S1x128_1 b)))
    (broadcastInDim S50000x128 ![] bcast_S_S50000x128 (constant (F := F) S_ .f32 0x00000000#32))

/-- Hop `k`'s weight matrix and bias. -/
def hopW0 (Wc : Arr F S2x128x128 .f32) : Arr F S128x128 .f32 :=
  shapeCast S128x128 (extractStridedSlice S1x128x128 ![0, 0, 0] Wc slices_S2x128x128_S1x128x128_0_0_0) shapeCasts_S1x128x128_S128x128
def hopW1 (Wc : Arr F S2x128x128 .f32) : Arr F S128x128 .f32 :=
  shapeCast S128x128 (extractStridedSlice S1x128x128 ![1, 0, 0] Wc slices_S2x128x128_S1x128x128_1_0_0) shapeCasts_S1x128x128_S128x128
def hopB0 (bc : Arr F S2x128 .f32) : Arr F S128 .f32 :=
  shapeCast S128 (extractStridedSlice S1x128 ![0, 0] bc slices_S2x128_S1x128_0_0) shapeCasts_S1x128_S128
def hopB1 (bc : Arr F S2x128 .f32) : Arr F S128 .f32 :=
  shapeCast S128 (extractStridedSlice S1x128 ![1, 0] bc slices_S2x128_S1x128_1_0) shapeCasts_S1x128_S128

/-- [h, c₁, c₂]·W_out + b_out, a column. -/
def readout (h c1 c2 : Arr F S50000x128 .f32) (Wo : Arr F S384x1 .f32) (bo : Arr F S1 .f32) : Arr F S50000x1 .f32 :=
  addf (Host.dotGeneral dot_S50000x384_S384x1_S50000x1_1_0_0_1_n_n none
      (concatenate S50000x384 1 [⟨S50000x128, h⟩, ⟨S50000x128, c1⟩, ⟨S50000x128, c2⟩] concatenates_S50000x128_S50000x128_S50000x128_S50000x384_d1) Wo)
    (broadcastInDim S50000x1 ![0, 1] bcast_S1x1_S50000x1_0_1 (broadcastInDim S1x1 ![1] bcast_S1_S1x1_1 bo))

namespace Args

variable (A : Args F)

def row : Arr F S1600000 .i32 := endpoint0 A.e
def col : Arr F S1600000 .i32 := endpoint1 A.e
def h : Arr F S50000x128 .f32 := proj A.x A.Win A.bin
def impCol : Arr F S50000x1 .f32 := importance A.h A.W1 A.b1 A.W2 A.b2
def imp : Arr F S50000 .f32 := flat A.impCol
def ew : Arr F S1600000 .f32 := edgeWeight A.imp A.row A.col
def em : Arr F S1600000 .f32 := keep A.ew
def dinv : Arr F S50000 .f32 := invSqrtDeg A.em A.col
def nrm : Arr F S1600000 .f32 := edgeNorm A.dinv A.em A.row A.col
def d2 : Arr F S50000x1 .f32 := selfWeight A.dinv
def hl1 : Arr F S50000x128 .f32 := lin A.h (hopW0 A.Wc)
def agg1 : Arr F S50000x128 .f32 := aggregate A.nrm A.hl1 A.row A.col
def c1 : Arr F S50000x128 .f32 := combine A.agg1 A.d2 A.hl1 (hopB0 A.bc)
def hl2 : Arr F S50000x128 .f32 := lin A.c1 (hopW1 A.Wc)
def agg2 : Arr F S50000x128 .f32 := aggregate A.nrm A.hl2 A.row A.col
def c2 : Arr F S50000x128 .f32 := combine A.agg2 A.d2 A.hl2 (hopB1 A.bc)
def outCol : Arr F S50000x1 .f32 := readout A.h A.c1 A.c2 A.Wo A.bo
/-- The program's result. -/
def out : Arr F S50000 .f32 := flat A.outCol

end Args

end Cert.ReferenceIdeal.T

end
-- ==== Proof.IdxLaws.lean ====
/- Reading whole-vector operations at one index, over the extended reals.

   A plain matrix product (contract the left operand's columns with the right operand's rows, no batch axes) read at
   entry (a, b) is the sum over the shared coordinate c of left(a, c) · right(c, b): this holds for the product
   accumulated into the zero matrix and for the host's dot product alike, so the two agree entry by entry. The
   contraction index of such a product has one axis; summing over it is summing over its one coordinate.

   A bias row of n entries, viewed as a 1 × n matrix and repeated down m rows, reads at (p, q) the bias entry q; this
   holds for the vector broadcast and for the host's two-step broadcast alike. A scalar repeated over any shape reads the
   scalar. -/
import Idealize.ShloMosaic.PureOps.Ideal.Laws
import Idealize.ShloMosaic.Lib.ValueIdx
import Idealize.ShloMosaic.Lib.Pipeline.Value

noncomputable section

namespace Cert.IdxLaws

open Idealize.ShloMosaic Idealize.ShloMosaic.ValueIdx
open scoped BigOperators

/-- A plain product into the zero accumulator, read at an index. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The host's plain product, read at an index. -/
theorem dotGeneral_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (F := Ideal) (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row vector [n] viewed [1, n] and repeated down m rows reads its entry at the column. -/
theorem bcast_row_apply {m n : Nat} (x : (⟨1, ![n]⟩ : Shape).Idx → Ideal .f32)
    (h1 : (⟨1, ![n]⟩ : Shape).ShapeCasts ⟨2, ![1, n]⟩) (h2 : (⟨2, ![1, n]⟩ : Shape).Broadcasts ⟨2, ![m, n]⟩) (p : Fin m) (q : Fin n) :
    broadcastTo ⟨2, ![m, n]⟩ (shapeCast ⟨2, ![1, n]⟩ x h1) h2 (ix2 p q) = x (ix1 q) := by
  rw [broadcastTo_apply _ h2 (ix2 p q) (ix2 (0 : Fin 1) q) (fun a => by
    match a with
    | ⟨0, _⟩ => rfl
    | ⟨1, _⟩ =>
      show q.val = if n = 1 then 0 else q.val
      split_ifs with h
      · have := q.isLt; omega
      · rfl)]
  refine (shapeCast_addUnit_apply ![n] x h1 (ix2 (0 : Fin 1) q)).trans (congrArg x (funext fun a => ?_))
  match a with
  | ⟨0, _⟩ => rfl

/-- A row vector [n] placed on axis 1 of [1, n] and then repeated down m rows reads its entry at the column. -/
theorem bid_row_apply {m n : Nat} (x : (⟨1, ![n]⟩ : Shape).Idx → Ideal .f32)
    (h1 : (⟨1, ![n]⟩ : Shape).BroadcastsInDim ⟨2, ![1, n]⟩ ![1]) (h2 : (⟨2, ![1, n]⟩ : Shape).BroadcastsInDim ⟨2, ![m, n]⟩ ![0, 1])
    (p : Fin m) (q : Fin n) :
    broadcastInDim ⟨2, ![m, n]⟩ ![0, 1] h2 (broadcastInDim ⟨2, ![1, n]⟩ ![1] h1 x) (ix2 p q) = x (ix1 q) := by
  rw [broadcastInDim_apply ![0, 1] h2 _ (ix2 p q) (ix2 (0 : Fin 1) q) (fun a => by
    match a with
    | ⟨0, _⟩ => rfl
    | ⟨1, _⟩ =>
      show q.val = if n = 1 then 0 else q.val
      split_ifs with h
      · have := q.isLt; omega
      · rfl)]
  exact broadcastInDim_apply ![1] h1 x (ix2 (0 : Fin 1) q) (ix1 q) (fun a => by
    match a with
    | ⟨0, _⟩ =>
      show q.val = if n = 1 then 0 else q.val
      split_ifs with h
      · have := q.isLt; omega
      · rfl)

/-- A scalar repeated over any shape reads the scalar. -/
theorem bid_scalar_apply {α : Type} {s : Shape} (x : (⟨0, ![]⟩ : Shape).Idx → α)
    (h : (⟨0, ![]⟩ : Shape).BroadcastsInDim s ![]) (j : s.Idx) :
    broadcastInDim s ![] h x j = x ix0 :=
  broadcastInDim_apply ![] h x j ix0 (fun a => a.elim0)

end Cert.IdxLaws

end
-- ==== Proof.Region0.lean ====
/- The first region: the input projection and the node importance, block by block.

   The grid has ten points. At point t the region reads rows 5000·t … 5000·t + 4999 of x (a 5000 × 256 block) and the
   whole of every weight and bias, and writes back rows 5000·t … 5000·t + 4999 of its two results. So entry (r, q) of a
   result is written at the one point t = r / 5000, from row r of x alone: row p = r − 5000·t of the block IS row r of
   the array, and a whole-array window's block is the array.

   Projection: the block's entry (p, q) is max(Σ_k x(r, k) · W_in(k, q) + b_in(q), 0), the product being accumulated
   into zero and the narrowing of the operands being the identity on the extended reals. The reference's entry (r, q) is
   the same maximum with the host's dot product, which is the same sum. The ten blocks tile the 50000 rows, so the array
   after the ten write-backs is the reference's projection of the three input arrays. -/
import proofs.«155323_j59115929862451_1_alg».proof.Proof.Gen.KernelIdeal.Frame
import proofs.«155323_j59115929862451_1_alg».proof.Proof.Gen.ReferenceIdeal
import proofs.«155323_j59115929862451_1_alg».proof.Proof.RefTerms
import proofs.«155323_j59115929862451_1_alg».proof.Proof.IdxLaws
import Idealize.ShloMosaic.PureOps.Ideal.Laws
import Idealize.ShloMosaic.Lib.ValueIdx
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.IdxLaws
open scoped BigOperators

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a <;> rfl

set_option maxHeartbeats 400000 in
theorem idx_facts0 : ∀ t : Fin cfg0.N, win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

set_option maxHeartbeats 400000 in
theorem pay1_apply (x0 : Vec Ideal S5000x256 .f32) (x1 : Vec Ideal S256x128 .f32) (x2 : Vec Ideal S128 .f32) (p : Fin 5000) (q : Fin 128) :
    k0_pay1 x0 x1 x2 (ix2 p q) = max ((∑ k : Fin 256, x0 (ix2 p k) * x1 (ix2 k q)) + x2 (ix1 q)) (Ideal.ofBits .f32 0x00000000#32) := by
  unfold k0_pay1
  rw [maximumf_apply, addf_apply]
  refine congrArg₂ max (congrArg₂ (· + ·) ?_ ?_) rfl
  · exact matmul_zero_ix2 _ none _ _ p q
  · exact bcast_row_apply x2 _ _ p q

set_option maxHeartbeats 400000 in
theorem proj_apply (X : Cert.ReferenceIdeal.T.Arr Ideal Cert.ReferenceIdeal.S50000x256 .f32) (W : Cert.ReferenceIdeal.T.Arr Ideal Cert.ReferenceIdeal.S256x128 .f32)
    (b : Cert.ReferenceIdeal.T.Arr Ideal Cert.ReferenceIdeal.S128 .f32) (r : Fin 50000) (q : Fin 128) :
    Cert.ReferenceIdeal.T.proj X W b (ix2 r q) = max ((∑ k : Fin 256, X (ix2 r k) * W (ix2 k q)) + b (ix1 q)) (Ideal.ofBits .f32 0x00000000#32) := by
  unfold Cert.ReferenceIdeal.T.proj
  rw [maximumf_apply, addf_apply]
  refine congrArg₂ max (congrArg₂ (· + ·) ?_ ?_) ?_
  · exact dotGeneral_ix2 _ none X W r q
  · exact bid_row_apply b _ _ r q
  · exact bid_scalar_apply _ _ _

set_option maxHeartbeats 400000 in
theorem blk0_0 (t : Fin cfg0.N) (p : Fin 5000) (k : Fin 256) (r : Fin 50000) (hr : r.val = t.val * 5000 + p.val) :
    (iblk0 V c 0 t : Vec Ideal S5000x256 .f32) (ix2 p k) = (V c main_arg0 : S50000x256.Idx → Ideal .f32) (ix2 r k) := by
  unfold iblk0
  rw [View.read_apply]
  show V c main_arg0 _ = V c main_arg0 _
  refine congrArg _ (funext fun a => Fin.ext ?_)
  match a with
  | ⟨0, _⟩ => show win0_0.index t (0 : Fin 2) * 5000 + 1 * p.val = r.val; rw [(idx_facts0 t).1, hr]; omega
  | ⟨1, _⟩ => show win0_0.index t (1 : Fin 2) * 256 + 1 * k.val = k.val; rw [(idx_facts0 t).2.1]; omega

set_option maxHeartbeats 400000 in
theorem blk0_1 (t : Fin cfg0.N) (k : Fin 256) (q : Fin 128) :
    (iblk0 V c 1 t : Vec Ideal S256x128 .f32) (ix2 k q) = (V c main_arg2 : S256x128.Idx → Ideal .f32) (ix2 k q) := by
  obtain ⟨_, _, _, _, _, _, e0, e1, _⟩ := idx_facts0 t
  unfold iblk0
  rw [View.read_apply]
  show V c main_arg2 _ = V c main_arg2 _
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 128 + 1 * q.val = q.val; rw [e1]; omega

set_option maxHeartbeats 400000 in
theorem blk0_2 (t : Fin cfg0.N) (q : Fin 128) :
    (iblk0 V c 2 t : Vec Ideal S128 .f32) (ix1 q) = (V c main_arg3 : S128.Idx → Ideal .f32) (ix1 q) := by
  obtain ⟨_, _, _, _, _, _, _, _, e0, _⟩ := idx_facts0 t
  unfold iblk0
  rw [View.read_apply]
  show V c main_arg3 _ = V c main_arg3 _
  refine congrArg _ (funext fun a => Fin.ext ?_)
  match a with
  | ⟨0, _⟩ => show win0_2.index t (0 : Fin 1) * 128 + 1 * q.val = q.val; rw [e0]; omega

set_option maxHeartbeats 400000 in
theorem flushed0_7 (t : Fin cfg0.N) :
    (dat0 (F := Ideal) V c).flushed 7 t = ((cfg0.win 7).blk t).view.read (Elt Ideal)
      (Cert.ReferenceIdeal.T.proj (V c main_arg0) (V c main_arg2) (V c main_arg3)) := by
  show (cfg0.win 7).cut (grid0.coords t) ((dat0 (F := Ideal) V c).after 7 t) = _
  rw [after0_7]
  unfold out0_7
  rw [View.canon_unit_zero hz2]
  simp only [View.ld_unit_zero (S := S5000x256) hz2, View.ld_unit_zero (S := S256x128) hz2, View.ld_unit_zero (S := S128) hz1]
  funext j
  obtain ⟨p, q, rfl⟩ : ∃ (p : Fin 5000) (q : Fin 128), j = ix2 p q := ⟨j 0, j 1, eq_ix2 j⟩
  have ht : t.val < 10 := t.isLt
  let r : Fin 50000 := ⟨t.val * 5000 + p.val, by omega⟩
  have hemb : ((cfg0.win 7).blk t).view.emb (ix2 p q) = (ix2 r q : S50000x128.Idx) := by
    funext a; apply Fin.ext
    match a with
    | ⟨0, _⟩ => show win0_7.index t (0 : Fin 2) * 5000 + 1 * p.val = t.val * 5000 + p.val; rw [(idx_facts0 t).2.2.1]; omega
    | ⟨1, _⟩ => show win0_7.index t (1 : Fin 2) * 128 + 1 * q.val = q.val; rw [(idx_facts0 t).2.2.2.1]; omega
  refine (pay1_apply _ _ _ p q).trans ?_
  rw [View.read_apply, hemb]
  refine Eq.trans ?_ (proj_apply _ _ _ r q).symm
  refine congrArg₂ max (congrArg₂ (· + ·) (Finset.sum_congr rfl fun k _ => ?_) ?_) rfl
  · rw [blk0_0 V c t p k r rfl, blk0_1 V c t k q]
  · exact blk0_2 V c t q

theorem mem_blk0_7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v4_0).slice (win0_7.rect t)).set ↔ _
  rw [View.set_slice_whole, Rect.mem_set_unit]
  exact Iff.rfl

set_option maxHeartbeats 400000 in
theorem cover0_7' (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := ⟨(i 0).val / 5000, by show _ < 10; omega⟩
  have htv : t.val = (i 0).val / 5000 := rfl
  refine ⟨t, flush0_7 t, ?_⟩
  rw [mem_blk0_7]
  intro a
  match a with
  | ⟨0, _⟩ => show win0_7.index t (0 : Fin 2) * 5000 ≤ (i 0).val ∧ (i 0).val < win0_7.index t (0 : Fin 2) * 5000 + 5000; rw [(idx_facts0 t).2.2.1]; omega
  | ⟨1, _⟩ => show win0_7.index t (1 : Fin 2) * 128 ≤ (i 1).val ∧ (i 1).val < win0_7.index t (1 : Fin 2) * 128 + 128; rw [(idx_facts0 t).2.2.2.1]; omega

theorem final0_7 : (dat0 (F := Ideal) V c).arrAt 7 cfg0.N = Cert.ReferenceIdeal.T.proj (V c main_arg0) (V c main_arg2) (V c main_arg3) :=
  (dat0 (F := Ideal) V c).arrAt_eq_of_cover 7 _ (fun t _ => flushed0_7 V c t) cover0_7'

end Cert.KernelIdeal.Reg
end
-- ==== Proof.Region0b.lean ====
/- The node importance of the first region, block by block. The 50000 x 256 array of inputs is cut into ten blocks of
   5000 consecutive rows; grid point t works on block t, sees every weight and bias whole, and writes back rows
   5000 * t ... 5000 * t + 4999 of the importance column. Entry (p, 0) of the stored block is
   sigma(sum over k2 of max(sum over k1 of h(p, k1) * W1(k1, k2) + b1(k2), 0) * W2(k2, 0) + b2(0)), where h(p, k1) is the
   projection the body computes first, max(sum over k of x(p, k) * W_in(k, k1) + b_in(k1), 0), and sigma(u) is
   1 / (1 + exp(-u)): each product is accumulated into zero, so it is the bare sum; narrowing the operands is the identity
   on extended reals; a bias viewed as one row and repeated down the rows reads its column's entry. The host's importance
   at (r, 0) is the same expression over row r of the host's projection, with the sigmoid spelt as a quotient whose
   numerator and first summand are the float word of one, which is the extended real 1; and row p of block t is row
   5000 * t + p of the array, where the body's projection and the host's agree entry by entry. The ten blocks are written
   back at the ten points and between them cover every row (row r lies in block r / 5000), so after the last point the
   column is the host's importance of the host's projection everywhere. -/
import proofs.«155323_j59115929862451_1_alg».proof.Proof.Gen.KernelIdeal.Frame
import proofs.«155323_j59115929862451_1_alg».proof.Proof.Gen.ReferenceIdeal
import proofs.«155323_j59115929862451_1_alg».proof.Proof.RefTerms
import proofs.«155323_j59115929862451_1_alg».proof.Proof.IdxLaws
import Idealize.ShloMosaic.PureOps.Ideal.Laws
import Idealize.ShloMosaic.Lib.ValueIdx
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat Cfg Window)
open Idealize.ShloMosaic.ValueIdx (ix1 ix2)
open scoped BigOperators

/-! The auxiliary lemmas of this result live in a namespace of their own; the result is stated after it. -/
namespace Imp0

/-- The float word of one is the extended real 1. -/
theorem one_f32 : Ideal.ofBits .f32 0x3F800000#32 = 1 := by
  simp [Ideal.ofBits, Ideal.ieee, -EReal.coe_mul]; norm_num

theorem logistic_at {s : Shape} (a : FVec Ideal s .f32) (i : s.Idx) : logistic a i = Ideal.logistic (a i) := rfl
theorem hostDivf_at {s : Shape} (a b : FVec Ideal s .f32) (i : s.Idx) : Host.divf a b i = Ideal.div (a i) (b i) := rfl
theorem hostExp_at {s : Shape} (a : FVec Ideal s .f32) (i : s.Idx) : Host.exp a i = Ideal.exp (a i) := rfl
theorem hostNegf_at {s : Shape} (a : FVec Ideal s .f32) (i : s.Idx) : Host.negf a i = -(a i) := rfl

/-- The projection's stored value at (p, q): max(sum over k of x(p, k) * W(k, q) + b(q), 0). -/
theorem hidden_apply (x0 : Vec Ideal S5000x256 .f32) (x1 : Vec Ideal S256x128 .f32) (x2 : Vec Ideal S128 .f32) (p : Fin 5000) (q : Fin 128) :
    k0_pay1 x0 x1 x2 (ix2 p q)
      = max ((∑ k : Fin 256, x0 (ix2 p k) * x1 (ix2 k q)) + x2 (ix1 q)) (Ideal.ofBits .f32 0x00000000#32) := by
  unfold k0_pay1
  rw [ValueIdx.maximumf_apply, ValueIdx.addf_apply]
  refine congrArg₂ max (congrArg₂ (· + ·) ?_ ?_) rfl
  · exact Cert.IdxLaws.matmul_zero_ix2 _ none _ _ p q
  · exact Cert.IdxLaws.bcast_row_apply x2 _ _ p q

/-- The host's projection at (r, q). -/
theorem proj_at (X : Cert.ReferenceIdeal.T.Arr Ideal Cert.ReferenceIdeal.S50000x256 .f32) (W : Cert.ReferenceIdeal.T.Arr Ideal Cert.ReferenceIdeal.S256x128 .f32)
    (b : Cert.ReferenceIdeal.T.Arr Ideal Cert.ReferenceIdeal.S128 .f32) (r : Fin 50000) (q : Fin 128) :
    Cert.ReferenceIdeal.T.proj X W b (ix2 r q)
      = max ((∑ k : Fin 256, X (ix2 r k) * W (ix2 k q)) + b (ix1 q)) (Ideal.ofBits .f32 0x00000000#32) := by
  unfold Cert.ReferenceIdeal.T.proj
  rw [ValueIdx.maximumf_apply, ValueIdx.addf_apply]
  refine congrArg₂ max (congrArg₂ (· + ·) ?_ ?_) ?_
  · exact Cert.IdxLaws.dotGeneral_ix2 _ none X W r q
  · exact Cert.IdxLaws.bid_row_apply b _ _ r q
  · exact Cert.IdxLaws.bid_scalar_apply _ _ _

set_option maxHeartbeats 400000 in
/-- The importance's stored value at (p, z), over the projection's stored row p. -/
theorem impPay_apply (x0 : Vec Ideal S5000x256 .f32) (x1 : Vec Ideal S256x128 .f32) (x2 : Vec Ideal S128 .f32)
    (x3 : Vec Ideal S128x64 .f32) (x4 : Vec Ideal S64 .f32) (x5 : Vec Ideal S64x1 .f32) (x6 : Vec Ideal S1 .f32)
    (p : Fin 5000) (z : Fin 1) :
    k0_pay2 x0 x1 x2 x3 x4 x5 x6 (ix2 p z)
      = Ideal.logistic ((∑ k2 : Fin 64,
          max ((∑ k1 : Fin 128, k0_pay1 x0 x1 x2 (ix2 p k1) * x3 (ix2 k1 k2)) + x4 (ix1 k2)) (Ideal.ofBits .f32 0x00000000#32)
            * x5 (ix2 k2 z)) + x6 (ix1 z)) := by
  unfold k0_pay2
  rw [logistic_at, ValueIdx.addf_apply]
  refine congrArg Ideal.logistic (congrArg₂ (· + ·) ?_ ?_)
  · refine (Cert.IdxLaws.matmul_zero_ix2 _ none _ _ p z).trans (Finset.sum_congr rfl fun k2 _ => ?_)
    rw [ValueIdx.truncf_apply, ValueIdx.truncf_apply, ValueIdx.maximumf_apply, ValueIdx.addf_apply, ValueIdx.broadcast_apply]
    refine congrArg₂ (· * ·) (congrArg₂ max (congrArg₂ (· + ·) ?_ ?_) rfl) rfl
    · refine (Cert.IdxLaws.matmul_zero_ix2 _ none _ _ p k2).trans (Finset.sum_congr rfl fun k1 _ => ?_)
      rw [ValueIdx.truncf_apply, ValueIdx.truncf_apply]
    · exact Cert.IdxLaws.bcast_row_apply x4 _ _ p k2
  · exact Cert.IdxLaws.bcast_row_apply x6 _ _ p z

set_option maxHeartbeats 400000 in
/-- The host's importance at (r, z), over row r of the hidden features. -/
theorem importance_at (h : Cert.ReferenceIdeal.T.Arr Ideal Cert.ReferenceIdeal.S50000x128 .f32)
    (W1 : Cert.ReferenceIdeal.T.Arr Ideal Cert.ReferenceIdeal.S128x64 .f32) (b1 : Cert.ReferenceIdeal.T.Arr Ideal Cert.ReferenceIdeal.S64 .f32)
    (W2 : Cert.ReferenceIdeal.T.Arr Ideal Cert.ReferenceIdeal.S64x1 .f32) (b2 : Cert.ReferenceIdeal.T.Arr Ideal Cert.ReferenceIdeal.S1 .f32)
    (r : Fin 50000) (z : Fin 1) :
    Cert.ReferenceIdeal.T.importance h W1 b1 W2 b2 (ix2 r z)
      = Ideal.logistic ((∑ k2 : Fin 64,
          max ((∑ k1 : Fin 128, h (ix2 r k1) * W1 (ix2 k1 k2)) + b1 (ix1 k2)) (Ideal.ofBits .f32 0x00000000#32)
            * W2 (ix2 k2 z)) + b2 (ix1 z)) := by
  unfold Cert.ReferenceIdeal.T.importance
  rw [hostDivf_at, ValueIdx.addf_apply, hostExp_at, hostNegf_at, Cert.IdxLaws.bid_scalar_apply, ValueIdx.constant_apply, one_f32,
    ValueIdx.addf_apply]
  unfold Ideal.logistic
  refine congrArg (fun u => Ideal.div 1 (1 + Ideal.exp (-u))) (congrArg₂ (· + ·) ?_ ?_)
  · refine (Cert.IdxLaws.dotGeneral_ix2 _ none _ W2 r z).trans (Finset.sum_congr rfl fun k2 _ => ?_)
    rw [ValueIdx.maximumf_apply, ValueIdx.addf_apply]
    refine congrArg₂ (· * ·) (congrArg₂ max (congrArg₂ (· + ·) ?_ ?_) ?_) rfl
    · exact Cert.IdxLaws.dotGeneral_ix2 _ none h W1 r k2
    · exact Cert.IdxLaws.bid_row_apply b1 _ _ r k2
    · exact Cert.IdxLaws.bid_scalar_apply _ _ _
  · exact Cert.IdxLaws.bid_row_apply b2 _ _ r z

theorem zeroOffsets : (![0, 0] : Fin 2 → Nat) = fun _ => 0 := funext fun a => by fin_cases a <;> rfl
theorem zeroOffset : (![0] : Fin 1 → Nat) = fun _ => 0 := funext fun a => by fin_cases a; rfl

set_option maxHeartbeats 400000 in
/-- The block indices over the grid: the rows of x and of the importance column move with the point; every weight and
    bias is seen whole. -/
theorem blockIdx : ∀ t : Fin cfg0.N, win0_0.index t (0 : Fin 2) = win0_8.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_8.index t (0 : Fin 2) ≤ 9 ∧ win0_8.index t (1 : Fin 2) = 0 :=
  (by decide +kernel : ∀ t : Fin grid0.N, _)

/-- Every one of the ten row blocks is some point's. -/
theorem blockOnto : ∀ (q0 : Fin 10), ∃ t : Fin cfg0.N, win0_8.index t = ![q0.val, 0] :=
  (by decide +kernel : ∀ (q0 : Fin 10), ∃ t : Fin grid0.N, win0_8.index t = ![q0.val, 0])

variable (V : (c : Dev nD) → (b : Ref sig .tc) → Buf (Elt Ideal) ((c : Thread nD τ).loc b)) (c : Dev nD)

/-! ### Each input block read at an index is its array read at the index's place in the array -/

theorem blk_x (t : Fin cfg0.N) (p : Fin 5000) (k : Fin 256) (r : Fin 50000) (hr : r.val = win0_8.index t (0 : Fin 2) * 5000 + p.val) :
    (iblk0 V c 0 t : Vec Ideal S5000x256 .f32) (ix2 p k) = (V c main_arg0 : S50000x256.Idx → Ideal .f32) (ix2 r k) := by
  obtain ⟨e0, e1, _⟩ := blockIdx t
  show (V c main_arg0 : S50000x256.Idx → Ideal .f32) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

theorem blk_Win (t : Fin cfg0.N) (k : Fin 256) (q : Fin 128) :
    (iblk0 V c 1 t : Vec Ideal S256x128 .f32) (ix2 k q) = (V c main_arg2 : S256x128.Idx → Ideal .f32) (ix2 k q) := by
  obtain ⟨_, _, e0, e1, _⟩ := blockIdx t
  show (V c main_arg2 : S256x128.Idx → Ideal .f32) (((cfg0.win 1).blk t).view.emb (ix2 k q)) = _
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

theorem blk_bin (t : Fin cfg0.N) (q : Fin 128) :
    (iblk0 V c 2 t : Vec Ideal S128 .f32) (ix1 q) = (V c main_arg3 : S128.Idx → Ideal .f32) (ix1 q) := by
  obtain ⟨_, _, _, _, e0, _⟩ := blockIdx t
  show (V c main_arg3 : S128.Idx → Ideal .f32) (((cfg0.win 2).blk t).view.emb (ix1 q)) = _
  refine congrArg _ (funext fun a => Fin.ext ?_)
  match a with
  | ⟨0, _⟩ => show win0_2.index t (0 : Fin 1) * 128 + 1 * q.val = q.val; omega

theorem blk_W1 (t : Fin cfg0.N) (k : Fin 128) (q : Fin 64) :
    (iblk0 V c 3 t : Vec Ideal S128x64 .f32) (ix2 k q) = (V c main_arg4 : S128x64.Idx → Ideal .f32) (ix2 k q) := by
  obtain ⟨_, _, _, _, _, e0, e1, _⟩ := blockIdx t
  show (V c main_arg4 : S128x64.Idx → Ideal .f32) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 64 + 1 * q.val = q.val; omega

theorem blk_b1 (t : Fin cfg0.N) (q : Fin 64) :
    (iblk0 V c 4 t : Vec Ideal S64 .f32) (ix1 q) = (V c main_arg5 : S64.Idx → Ideal .f32) (ix1 q) := by
  obtain ⟨_, _, _, _, _, _, _, e0, _⟩ := blockIdx t
  show (V c main_arg5 : S64.Idx → Ideal .f32) (((cfg0.win 4).blk t).view.emb (ix1 q)) = _
  refine congrArg _ (funext fun a => Fin.ext ?_)
  match a with
  | ⟨0, _⟩ => show win0_4.index t (0 : Fin 1) * 64 + 1 * q.val = q.val; omega

theorem blk_W2 (t : Fin cfg0.N) (k : Fin 64) (z : Fin 1) :
    (iblk0 V c 5 t : Vec Ideal S64x1 .f32) (ix2 k z) = (V c main_arg6 : S64x1.Idx → Ideal .f32) (ix2 k z) := by
  obtain ⟨_, _, _, _, _, _, _, _, e0, e1, _⟩ := blockIdx t
  show (V c main_arg6 : S64x1.Idx → Ideal .f32) (((cfg0.win 5).blk t).view.emb (ix2 k z)) = _
  refine congrArg _ (funext fun a => Fin.ext ?_)
  match a with
  | ⟨0, _⟩ => show win0_5.index t (0 : Fin 2) * 64 + 1 * k.val = k.val; omega
  | ⟨1, _⟩ => show win0_5.index t (1 : Fin 2) * 1 + 1 * z.val = z.val; omega

theorem blk_b2 (t : Fin cfg0.N) (z : Fin 1) :
    (iblk0 V c 6 t : Vec Ideal S1 .f32) (ix1 z) = (V c main_arg7 : S1.Idx → Ideal .f32) (ix1 z) := by
  obtain ⟨_, _, _, _, _, _, _, _, _, _, e0, _⟩ := blockIdx t
  show (V c main_arg7 : S1.Idx → Ideal .f32) (((cfg0.win 6).blk t).view.emb (ix1 z)) = _
  refine congrArg _ (funext fun a => Fin.ext ?_)
  match a with
  | ⟨0, _⟩ => show win0_6.index t (0 : Fin 1) * 1 + 1 * z.val = z.val; omega

set_option maxHeartbeats 400000 in
/-- Row p of the projection the body computes at point t is row 5000 * t + p of the host's projection. -/
theorem hidden_row (t : Fin cfg0.N) (p : Fin 5000) (k1 : Fin 128) (r : Fin 50000) (hr : r.val = win0_8.index t (0 : Fin 2) * 5000 + p.val) :
    k0_pay1 (iblk0 V c 0 t) (iblk0 V c 1 t) (iblk0 V c 2 t) (ix2 p k1)
      = Cert.ReferenceIdeal.T.proj (V c main_arg0) (V c main_arg2) (V c main_arg3) (ix2 r k1) := by
  refine (hidden_apply _ _ _ p k1).trans ((proj_at _ _ _ r k1).trans ?_).symm
  refine congrArg₂ max (congrArg₂ (· + ·) (Finset.sum_congr rfl fun k _ => ?_) ?_) rfl
  · rw [blk_x V c t p k r hr, blk_Win V c t k k1]
  · exact (blk_bin V c t k1).symm

set_option maxHeartbeats 400000 in
/-- What point t writes back is block t of the host's importance column. -/
theorem flushed_eq (t : Fin cfg0.N) :
    (dat0 (F := Ideal) V c).flushed 8 t = ((cfg0.win 8).blk t).view.read (Elt Ideal)
      (Cert.ReferenceIdeal.T.importance (Cert.ReferenceIdeal.T.proj (V c main_arg0) (V c main_arg2) (V c main_arg3))
        (V c main_arg4) (V c main_arg5) (V c main_arg6) (V c main_arg7)) := by
  show (cfg0.win 8).cut (grid0.coords t) ((dat0 (F := Ideal) V c).after 8 t) = _
  rw [after0_8]
  unfold out0_8
  rw [View.canon_unit_zero zeroOffsets]
  simp only [View.ld_unit_zero (S := S5000x256) zeroOffsets, View.ld_unit_zero (S := S256x128) zeroOffsets,
    View.ld_unit_zero (S := S128) zeroOffset, View.ld_unit_zero (S := S128x64) zeroOffsets, View.ld_unit_zero (S := S64) zeroOffset,
    View.ld_unit_zero (S := S64x1) zeroOffsets, View.ld_unit_zero (S := S1) zeroOffset]
  have e11 := (blockIdx t).2.2.2.2.2.2.2.2.2.2.2.1
  have e12 := (blockIdx t).2.2.2.2.2.2.2.2.2.2.2.2
  funext j
  obtain ⟨p, z, rfl⟩ : ∃ (p : Fin 5000) (z : Fin 1), j = ix2 p z := ⟨j 0, j 1, ValueIdx.eq_ix2 j⟩
  have hemb : ((cfg0.win 8).blk t).view.emb (ix2 p z)
      = ix2 (⟨win0_8.index t (0 : Fin 2) * 5000 + p.val, by have := p.isLt; omega⟩ : Fin 50000) z := by
    funext a; apply Fin.ext
    match a with
    | ⟨0, _⟩ => show win0_8.index t (0 : Fin 2) * 5000 + 1 * p.val = win0_8.index t (0 : Fin 2) * 5000 + p.val; omega
    | ⟨1, _⟩ => show win0_8.index t (1 : Fin 2) * 1 + 1 * z.val = z.val; omega
  show k0_pay2 (iblk0 V c 0 t) (iblk0 V c 1 t) (iblk0 V c 2 t) (iblk0 V c 3 t) (iblk0 V c 4 t) (iblk0 V c 5 t) (iblk0 V c 6 t) (ix2 p z)
      = Cert.ReferenceIdeal.T.importance (Cert.ReferenceIdeal.T.proj (V c main_arg0) (V c main_arg2) (V c main_arg3))
          (V c main_arg4) (V c main_arg5) (V c main_arg6) (V c main_arg7) (((cfg0.win 8).blk t).view.emb (ix2 p z))
  rw [hemb]
  refine (impPay_apply _ _ _ _ _ _ _ p z).trans ((importance_at _ _ _ _ _ _ z).trans ?_).symm
  refine congrArg Ideal.logistic (congrArg₂ (· + ·) (Finset.sum_congr rfl fun k2 _ =>
    congrArg₂ (· * ·) (congrArg₂ max (congrArg₂ (· + ·) (Finset.sum_congr rfl fun k1 _ => congrArg₂ (· * ·) ?_ ?_) ?_) rfl) ?_) ?_)
  · exact (hidden_row V c t p k1 _ rfl).symm
  · exact (blk_W1 V c t k1 k2).symm
  · exact (blk_b1 V c t k2).symm
  · exact (blk_W2 V c t k2 z).symm
  · exact (blk_b2 V c t z).symm

/-- An index of the column is in point t's block iff each coordinate is in the block's range on its axis. -/
theorem memBlock (t : Fin cfg0.N) (i : S50000x1.Idx) :
    i ∈ ((cfg0.win 8).blk t).view.set ↔ ∀ a : Fin 2, win0_8.index t a * S5000x1.size a ≤ (i a).val
      ∧ (i a).val < win0_8.index t a * S5000x1.size a + S5000x1.size a := by
  show i ∈ ((View.whole main_v4_1).slice (win0_8.rect t)).set ↔ _
  rw [View.set_slice_whole, Rect.mem_set_unit]
  exact Iff.rfl

/-- Every index of the column is in some point's block: row r is in block r / 5000. -/
theorem cover (i : S50000x1.Idx) :
    ∃ t : Fin cfg0.N, (cfg0.win 8).flush t = true ∧ i ∈ ((cfg0.win 8).blk t).view.set := by
  have hi0 : (i 0).val < 50000 := (i 0).isLt
  have hi1 : (i 1).val < 1 := (i 1).isLt
  obtain ⟨t, ht⟩ := blockOnto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [memBlock]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 1 ≤ (i 1).val ∧ (i 1).val < win0_8.index t (1 : Fin 2) * 1 + 1; omega

end Imp0

variable (V : (c : Dev nD) → (b : Ref sig .tc) → Buf (Elt Ideal) ((c : Thread nD τ).loc b)) (c : Dev nD)

/-- The importance column after the ten write-backs is the host's importance of the host's projection. -/
theorem final0_8 : (dat0 (F := Ideal) V c).arrAt 8 cfg0.N = Cert.ReferenceIdeal.T.importance (Cert.ReferenceIdeal.T.proj (V c main_arg0) (V c main_arg2) (V c main_arg3)) (V c main_arg4) (V c main_arg5) (V c main_arg6) (V c main_arg7) :=
  (dat0 (F := Ideal) V c).arrAt_eq_of_cover 8 _ (fun t _ => Imp0.flushed_eq V c t) Imp0.cover

end Cert.KernelIdeal.Reg

end
-- ==== Proof.KV0.lean ====
/- The idealized kernel program's result buffer, read back through the program's segments: the vocabulary (the launched
   arguments as a record; the contents at each boundary after a host stretch, named so that a later reading stops there; a
   buffer that is none of a region's arrays is as the region found it), and the boundaries up to the first region's exit: the
   edge endpoints, h = relu(x·W_in + b_in) and the importance column. -/
import proofs.«155323_j59115929862451_1_alg».proof.Proof.Gen.KernelIdeal.Frame
import proofs.«155323_j59115929862451_1_alg».proof.Proof.Gen.ReferenceIdeal
import proofs.«155323_j59115929862451_1_alg».proof.Proof.RefTerms
import proofs.«155323_j59115929862451_1_alg».proof.Proof.Region0
import proofs.«155323_j59115929862451_1_alg».proof.Proof.Region0b
import Idealize.ShloMosaic.Lib.ValueIdx
import Idealize.ShloMosaic.Lib.Pipeline.Value

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-- The twelve argument arrays as launched on core c. -/
def kargs : Cert.ReferenceIdeal.T.Args Ideal where
  x := m ((c : Thread nD τ).loc main_arg0)
  e := m ((c : Thread nD τ).loc main_arg1)
  Win := m ((c : Thread nD τ).loc main_arg2)
  bin := m ((c : Thread nD τ).loc main_arg3)
  W1 := m ((c : Thread nD τ).loc main_arg4)
  b1 := m ((c : Thread nD τ).loc main_arg5)
  W2 := m ((c : Thread nD τ).loc main_arg6)
  b2 := m ((c : Thread nD τ).loc main_arg7)
  Wc := m ((c : Thread nD τ).loc main_arg8)
  bc := m ((c : Thread nD τ).loc main_arg9)
  Wo := m ((c : Thread nD τ).loc main_arg10)
  bo := m ((c : Thread nD τ).loc main_arg11)

/-! ## The contents at the boundaries that end a host stretch -/
def U1 : Valuation τ sig (Elt Ideal) := W1 m ρ c
def U3 : Valuation τ sig (Elt Ideal) := W3 m ρ c
def U4 : Valuation τ sig (Elt Ideal) := W4 m ρ c
def U5 : Valuation τ sig (Elt Ideal) := W5 m ρ c
def U7 : Valuation τ sig (Elt Ideal) := W7 m ρ c
def U9 : Valuation τ sig (Elt Ideal) := W9 m ρ c
def U11 : Valuation τ sig (Elt Ideal) := W11 m ρ c
def U13 : Valuation τ sig (Elt Ideal) := W13 m ρ c

/-! ## Through a region: a buffer that is none of its arrays is as the region found it -/
theorem W2_pass (b : Ref sig .tc) (hb : ∀ w, Pipeline.arrRef spec0 w ≠ b) :
    W2 m ρ c (no_index (Proc.devRef .tc b)) = U1 m ρ c (Proc.devRef .tc b) := W2_of_ne m ρ c b hb
theorem W6_pass (b : Ref sig .tc) (hb : ∀ w, Pipeline.arrRef spec1 w ≠ b) :
    W6 m ρ c (no_index (Proc.devRef .tc b)) = U5 m ρ c (Proc.devRef .tc b) := W6_of_ne m ρ c b hb
theorem W8_pass (b : Ref sig .tc) (hb : ∀ w, Pipeline.arrRef spec2 w ≠ b) :
    W8 m ρ c (no_index (Proc.devRef .tc b)) = U7 m ρ c (Proc.devRef .tc b) := W8_of_ne m ρ c b hb
theorem W10_pass (b : Ref sig .tc) (hb : ∀ w, Pipeline.arrRef spec3 w ≠ b) :
    W10 m ρ c (no_index (Proc.devRef .tc b)) = U9 m ρ c (Proc.devRef .tc b) := W10_of_ne m ρ c b hb
theorem W12_pass (b : Ref sig .tc) (hb : ∀ w, Pipeline.arrRef spec4 w ≠ b) :
    W12 m ρ c (no_index (Proc.devRef .tc b)) = U11 m ρ c (Proc.devRef .tc b) := W12_of_ne m ρ c b hb
theorem W14_pass (b : Ref sig .tc) (hb : ∀ w, Pipeline.arrRef spec5 w ≠ b) :
    W14 m ρ c (no_index (Proc.devRef .tc b)) = U13 m ρ c (Proc.devRef .tc b) := W14_of_ne m ρ c b hb

/-- Reads a buffer after a host stretch from the contents the stretch starts from (each operation's result, or "writes another
    buffer"), and those at the named values given. -/
macro "hread" ops:ident "with" "[" ls:Lean.Parser.Tactic.simpLemma,* "]" : tactic =>
  `(tactic| (simp (disch := decide) only [$ops:ident, StableHlo.after_cons, StableHlo.after_nil,
      StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', $ls,*]))

/-! ## Boundary 0: the launch contents -/
theorem K0_arg0 : W0 m ρ c (no_index (Proc.devRef .tc main_arg0)) = (kargs m c).x := rfl
theorem K0_arg1 : W0 m ρ c (no_index (Proc.devRef .tc main_arg1)) = (kargs m c).e := rfl
theorem K0_arg2 : W0 m ρ c (no_index (Proc.devRef .tc main_arg2)) = (kargs m c).Win := rfl
theorem K0_arg3 : W0 m ρ c (no_index (Proc.devRef .tc main_arg3)) = (kargs m c).bin := rfl
theorem K0_arg4 : W0 m ρ c (no_index (Proc.devRef .tc main_arg4)) = (kargs m c).W1 := rfl
theorem K0_arg5 : W0 m ρ c (no_index (Proc.devRef .tc main_arg5)) = (kargs m c).b1 := rfl
theorem K0_arg6 : W0 m ρ c (no_index (Proc.devRef .tc main_arg6)) = (kargs m c).W2 := rfl
theorem K0_arg7 : W0 m ρ c (no_index (Proc.devRef .tc main_arg7)) = (kargs m c).b2 := rfl
theorem K0_arg8 : W0 m ρ c (no_index (Proc.devRef .tc main_arg8)) = (kargs m c).Wc := rfl
theorem K0_arg9 : W0 m ρ c (no_index (Proc.devRef .tc main_arg9)) = (kargs m c).bc := rfl
theorem K0_arg10 : W0 m ρ c (no_index (Proc.devRef .tc main_arg10)) = (kargs m c).Wo := rfl
theorem K0_arg11 : W0 m ρ c (no_index (Proc.devRef .tc main_arg11)) = (kargs m c).bo := rfl

/-! ## Boundary 1: after the host stretch hostOps0 -/
set_option maxHeartbeats 1000000 in
theorem K1_v1 : U1 m ρ c (no_index (Proc.devRef .tc main_v1)) = (kargs m c).row := by
  show StableHlo.after hostOps0 (W0 m ρ c) _ = _
  hread hostOps0 with [K0_arg1]
  try rfl
set_option maxHeartbeats 1000000 in
theorem K1_v3 : U1 m ρ c (no_index (Proc.devRef .tc main_v3)) = (kargs m c).col := by
  show StableHlo.after hostOps0 (W0 m ρ c) _ = _
  hread hostOps0 with [K0_arg1]
  try rfl
theorem K1_arg0 : U1 m ρ c (no_index (Proc.devRef .tc main_arg0)) = (kargs m c).x := by
  show StableHlo.after hostOps0 (W0 m ρ c) _ = _
  hread hostOps0 with [K0_arg0]
theorem K1_arg2 : U1 m ρ c (no_index (Proc.devRef .tc main_arg2)) = (kargs m c).Win := by
  show StableHlo.after hostOps0 (W0 m ρ c) _ = _
  hread hostOps0 with [K0_arg2]
theorem K1_arg3 : U1 m ρ c (no_index (Proc.devRef .tc main_arg3)) = (kargs m c).bin := by
  show StableHlo.after hostOps0 (W0 m ρ c) _ = _
  hread hostOps0 with [K0_arg3]
theorem K1_arg4 : U1 m ρ c (no_index (Proc.devRef .tc main_arg4)) = (kargs m c).W1 := by
  show StableHlo.after hostOps0 (W0 m ρ c) _ = _
  hread hostOps0 with [K0_arg4]
theorem K1_arg5 : U1 m ρ c (no_index (Proc.devRef .tc main_arg5)) = (kargs m c).b1 := by
  show StableHlo.after hostOps0 (W0 m ρ c) _ = _
  hread hostOps0 with [K0_arg5]
theorem K1_arg6 : U1 m ρ c (no_index (Proc.devRef .tc main_arg6)) = (kargs m c).W2 := by
  show StableHlo.after hostOps0 (W0 m ρ c) _ = _
  hread hostOps0 with [K0_arg6]
theorem K1_arg7 : U1 m ρ c (no_index (Proc.devRef .tc main_arg7)) = (kargs m c).b2 := by
  show StableHlo.after hostOps0 (W0 m ρ c) _ = _
  hread hostOps0 with [K0_arg7]
theorem K1_arg8 : U1 m ρ c (no_index (Proc.devRef .tc main_arg8)) = (kargs m c).Wc := by
  show StableHlo.after hostOps0 (W0 m ρ c) _ = _
  hread hostOps0 with [K0_arg8]
theorem K1_arg9 : U1 m ρ c (no_index (Proc.devRef .tc main_arg9)) = (kargs m c).bc := by
  show StableHlo.after hostOps0 (W0 m ρ c) _ = _
  hread hostOps0 with [K0_arg9]
theorem K1_arg10 : U1 m ρ c (no_index (Proc.devRef .tc main_arg10)) = (kargs m c).Wo := by
  show StableHlo.after hostOps0 (W0 m ρ c) _ = _
  hread hostOps0 with [K0_arg10]
theorem K1_arg11 : U1 m ρ c (no_index (Proc.devRef .tc main_arg11)) = (kargs m c).bo := by
  show StableHlo.after hostOps0 (W0 m ρ c) _ = _
  hread hostOps0 with [K0_arg11]

/-! ## Boundary 2: region 0's exit -/
set_option maxHeartbeats 1000000 in
theorem K2_v4_0 : W2 m ρ c (no_index (Proc.devRef .tc main_v4_0)) = (kargs m c).h := by
  refine (W2_arr m ρ c 7).trans ?_
  rw [final0_7 (V1 m ρ) c]
  show Cert.ReferenceIdeal.T.proj (U1 m ρ c (Proc.devRef .tc main_arg0)) (U1 m ρ c (Proc.devRef .tc main_arg2)) (U1 m ρ c (Proc.devRef .tc main_arg3)) = _
  rw [K1_arg0 m ρ c, K1_arg2 m ρ c, K1_arg3 m ρ c]
  rfl
set_option maxHeartbeats 1000000 in
theorem K2_v4_1 : W2 m ρ c (no_index (Proc.devRef .tc main_v4_1)) = (kargs m c).impCol := by
  refine (W2_arr m ρ c 8).trans ?_
  rw [final0_8 (V1 m ρ) c]
  show Cert.ReferenceIdeal.T.importance (Cert.ReferenceIdeal.T.proj (U1 m ρ c (Proc.devRef .tc main_arg0)) (U1 m ρ c (Proc.devRef .tc main_arg2)) (U1 m ρ c (Proc.devRef .tc main_arg3))) (U1 m ρ c (Proc.devRef .tc main_arg4)) (U1 m ρ c (Proc.devRef .tc main_arg5)) (U1 m ρ c (Proc.devRef .tc main_arg6)) (U1 m ρ c (Proc.devRef .tc main_arg7)) = _
  rw [K1_arg0 m ρ c, K1_arg2 m ρ c, K1_arg3 m ρ c, K1_arg4 m ρ c, K1_arg5 m ρ c, K1_arg6 m ρ c, K1_arg7 m ρ c]
  rfl
theorem K2_v1 : W2 m ρ c (no_index (Proc.devRef .tc main_v1)) = (kargs m c).row := (W2_pass m ρ c main_v1 (by decide)).trans (K1_v1 m ρ c)
theorem K2_v3 : W2 m ρ c (no_index (Proc.devRef .tc main_v3)) = (kargs m c).col := (W2_pass m ρ c main_v3 (by decide)).trans (K1_v3 m ρ c)
theorem K2_arg8 : W2 m ρ c (no_index (Proc.devRef .tc main_arg8)) = (kargs m c).Wc := (W2_pass m ρ c main_arg8 (by decide)).trans (K1_arg8 m ρ c)
theorem K2_arg9 : W2 m ρ c (no_index (Proc.devRef .tc main_arg9)) = (kargs m c).bc := (W2_pass m ρ c main_arg9 (by decide)).trans (K1_arg9 m ρ c)
theorem K2_arg10 : W2 m ρ c (no_index (Proc.devRef .tc main_arg10)) = (kargs m c).Wo := (W2_pass m ρ c main_arg10 (by decide)).trans (K1_arg10 m ρ c)
theorem K2_arg11 : W2 m ρ c (no_index (Proc.devRef .tc main_arg11)) = (kargs m c).bo := (W2_pass m ρ c main_arg11 (by decide)).trans (K1_arg11 m ρ c)

end Cert.KernelIdeal.KV

end
-- ==== Proof.KV3.lean ====
/- The idealized kernel program's result buffer, read back through the program's segments: the boundaries up to the standard
   deviation: the edge weights (the mean of the two endpoints' importances), their mean, and their unbiased standard deviation. -/
import proofs.«155323_j59115929862451_1_alg».proof.Proof.KV0

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-! ## Boundary 3: after the host stretch hostOps1 -/
set_option maxHeartbeats 1000000 in
theorem K3_v22 : U3 m ρ c (no_index (Proc.devRef .tc main_v22)) = (kargs m c).ew := by
  show StableHlo.after hostOps1 (W2 m ρ c) _ = _
  hread hostOps1 with [K2_v4_1, K2_v1, K2_v3]
  try rfl
set_option maxHeartbeats 1000000 in
theorem K3_v24 : U3 m ρ c (no_index (Proc.devRef .tc main_v24)) = Cert.ReferenceIdeal.T.meanW (kargs m c).ew := by
  show StableHlo.after hostOps1 (W2 m ρ c) _ = _
  hread hostOps1 with [K2_v4_1, K2_v1, K2_v3]
  try rfl
set_option maxHeartbeats 1000000 in
theorem K3_c_5 : U3 m ρ c (no_index (Proc.devRef .tc main_c_5)) = constantI S_ 32 1#32 := by
  show StableHlo.after hostOps1 (W2 m ρ c) _ = _
  hread hostOps1 with []
  try rfl
theorem K3_v1 : U3 m ρ c (no_index (Proc.devRef .tc main_v1)) = (kargs m c).row := by
  show StableHlo.after hostOps1 (W2 m ρ c) _ = _
  hread hostOps1 with [K2_v1]
theorem K3_v3 : U3 m ρ c (no_index (Proc.devRef .tc main_v3)) = (kargs m c).col := by
  show StableHlo.after hostOps1 (W2 m ρ c) _ = _
  hread hostOps1 with [K2_v3]
theorem K3_v4_0 : U3 m ρ c (no_index (Proc.devRef .tc main_v4_0)) = (kargs m c).h := by
  show StableHlo.after hostOps1 (W2 m ρ c) _ = _
  hread hostOps1 with [K2_v4_0]
theorem K3_arg8 : U3 m ρ c (no_index (Proc.devRef .tc main_arg8)) = (kargs m c).Wc := by
  show StableHlo.after hostOps1 (W2 m ρ c) _ = _
  hread hostOps1 with [K2_arg8]
theorem K3_arg9 : U3 m ρ c (no_index (Proc.devRef .tc main_arg9)) = (kargs m c).bc := by
  show StableHlo.after hostOps1 (W2 m ρ c) _ = _
  hread hostOps1 with [K2_arg9]
theorem K3_arg10 : U3 m ρ c (no_index (Proc.devRef .tc main_arg10)) = (kargs m c).Wo := by
  show StableHlo.after hostOps1 (W2 m ρ c) _ = _
  hread hostOps1 with [K2_arg10]
theorem K3_arg11 : U3 m ρ c (no_index (Proc.devRef .tc main_arg11)) = (kargs m c).bo := by
  show StableHlo.after hostOps1 (W2 m ρ c) _ = _
  hread hostOps1 with [K2_arg11]

set_option maxHeartbeats 1000000 in
/-- The standard-deviation stretch at ANY float values: from contents holding the constant 1 at its count operand, the result
    buffer ends at the unbiased standard deviation of the weights it starts from. -/
theorem std_stretch {F : FTy → Type} [FloatOps F] (U : Valuation τ sig (Elt F))
    (hc : U (Proc.devRef .tc main_c_5) = constantI S_ 32 1#32) :
    StableHlo.after hostOps1_1 U (Proc.devRef .tc main_v25) = Cert.ReferenceIdeal.T.stdW (U (Proc.devRef .tc main_v22)) := by
  hread hostOps1_1 with []
  rw [hc]
  rfl

/-! ## Boundary 4: after the host stretch hostOps1_1 -/
theorem K4_v25 : U4 m ρ c (no_index (Proc.devRef .tc main_v25)) = Cert.ReferenceIdeal.T.stdW (kargs m c).ew := by
  show StableHlo.after hostOps1_1 (U3 m ρ c) _ = _
  rw [std_stretch (U3 m ρ c) (K3_c_5 m ρ c), K3_v22 m ρ c]
theorem K4_v22 : U4 m ρ c (no_index (Proc.devRef .tc main_v22)) = (kargs m c).ew := by
  show StableHlo.after hostOps1_1 (U3 m ρ c) _ = _
  hread hostOps1_1 with [K3_v22]
theorem K4_v24 : U4 m ρ c (no_index (Proc.devRef .tc main_v24)) = Cert.ReferenceIdeal.T.meanW (kargs m c).ew := by
  show StableHlo.after hostOps1_1 (U3 m ρ c) _ = _
  hread hostOps1_1 with [K3_v24]
theorem K4_v1 : U4 m ρ c (no_index (Proc.devRef .tc main_v1)) = (kargs m c).row := by
  show StableHlo.after hostOps1_1 (U3 m ρ c) _ = _
  hread hostOps1_1 with [K3_v1]
theorem K4_v3 : U4 m ρ c (no_index (Proc.devRef .tc main_v3)) = (kargs m c).col := by
  show StableHlo.after hostOps1_1 (U3 m ρ c) _ = _
  hread hostOps1_1 with [K3_v3]
theorem K4_v4_0 : U4 m ρ c (no_index (Proc.devRef .tc main_v4_0)) = (kargs m c).h := by
  show StableHlo.after hostOps1_1 (U3 m ρ c) _ = _
  hread hostOps1_1 with [K3_v4_0]
theorem K4_arg8 : U4 m ρ c (no_index (Proc.devRef .tc main_arg8)) = (kargs m c).Wc := by
  show StableHlo.after hostOps1_1 (U3 m ρ c) _ = _
  hread hostOps1_1 with [K3_arg8]
theorem K4_arg9 : U4 m ρ c (no_index (Proc.devRef .tc main_arg9)) = (kargs m c).bc := by
  show StableHlo.after hostOps1_1 (U3 m ρ c) _ = _
  hread hostOps1_1 with [K3_arg9]
theorem K4_arg10 : U4 m ρ c (no_index (Proc.devRef .tc main_arg10)) = (kargs m c).Wo := by
  show StableHlo.after hostOps1_1 (U3 m ρ c) _ = _
  hread hostOps1_1 with [K3_arg10]
theorem K4_arg11 : U4 m ρ c (no_index (Proc.devRef .tc main_arg11)) = (kargs m c).bo := by
  show StableHlo.after hostOps1_1 (U3 m ρ c) _ = _
  hread hostOps1_1 with [K3_arg11]

end Cert.KernelIdeal.KV

end
-- ==== Proof.KV5a.lean ====
/- The idealized kernel program's result buffer, read back through the program's segments: before the first hop's region: the
   keep-mask (weight above mean + standard deviation) and the degrees' inverse square roots. -/
import proofs.«155323_j59115929862451_1_alg».proof.Proof.KV3

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-! ## Boundary 5: after the host stretch hostOps1_2 -/
set_option maxHeartbeats 1000000 in
theorem K5_v29 : U5 m ρ c (no_index (Proc.devRef .tc main_v29)) = (kargs m c).em := by
  show StableHlo.after hostOps1_2 (U4 m ρ c) _ = _
  hread hostOps1_2 with [K4_v22, K4_v24, K4_v25]
  try rfl
set_option maxHeartbeats 1000000 in
theorem K5_v35 : U5 m ρ c (no_index (Proc.devRef .tc main_v35)) = (kargs m c).dinv := by
  show StableHlo.after hostOps1_2 (U4 m ρ c) _ = _
  hread hostOps1_2 with [K4_v22, K4_v24, K4_v25, K4_v3]
  try rfl

end Cert.KernelIdeal.KV

end
-- ==== Proof.KV5b.lean ====
/- The idealized kernel program's result buffer, read back through the program's segments: before the first hop's region: the
   self-loop weight dinv² and the edge normalisation. -/
import proofs.«155323_j59115929862451_1_alg».proof.Proof.KV3

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-! ## Boundary 5: after the host stretch hostOps1_2 -/
set_option maxHeartbeats 1000000 in
theorem K5_v37 : U5 m ρ c (no_index (Proc.devRef .tc main_v37)) = (kargs m c).d2 := by
  show StableHlo.after hostOps1_2 (U4 m ρ c) _ = _
  hread hostOps1_2 with [K4_v22, K4_v24, K4_v25, K4_v3]
  try rfl
set_option maxHeartbeats 1000000 in
theorem K5_v53 : U5 m ρ c (no_index (Proc.devRef .tc main_v53)) = (kargs m c).nrm := by
  show StableHlo.after hostOps1_2 (U4 m ρ c) _ = _
  hread hostOps1_2 with [K4_v22, K4_v24, K4_v25, K4_v3, K4_v1]
  try rfl

end Cert.KernelIdeal.KV

end
-- ==== Proof.KV5c.lean ====
/- The idealized kernel program's result buffer, read back through the program's segments: before the first hop's region: hop 0's
   weight matrix and bias, and the values carried on. -/
import proofs.«155323_j59115929862451_1_alg».proof.Proof.KV3

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-! ## Boundary 5: after the host stretch hostOps1_2 -/
set_option maxHeartbeats 1000000 in
theorem K5_v55 : U5 m ρ c (no_index (Proc.devRef .tc main_v55)) = Cert.ReferenceIdeal.T.hopW0 (kargs m c).Wc := by
  show StableHlo.after hostOps1_2 (U4 m ρ c) _ = _
  hread hostOps1_2 with [K4_arg8]
  try rfl
set_option maxHeartbeats 1000000 in
theorem K5_v57 : U5 m ρ c (no_index (Proc.devRef .tc main_v57)) = Cert.ReferenceIdeal.T.hopB0 (kargs m c).bc := by
  show StableHlo.after hostOps1_2 (U4 m ρ c) _ = _
  hread hostOps1_2 with [K4_arg9]
  try rfl
theorem K5_v1 : U5 m ρ c (no_index (Proc.devRef .tc main_v1)) = (kargs m c).row := by
  show StableHlo.after hostOps1_2 (U4 m ρ c) _ = _
  hread hostOps1_2 with [K4_v1]
theorem K5_v3 : U5 m ρ c (no_index (Proc.devRef .tc main_v3)) = (kargs m c).col := by
  show StableHlo.after hostOps1_2 (U4 m ρ c) _ = _
  hread hostOps1_2 with [K4_v3]
theorem K5_v4_0 : U5 m ρ c (no_index (Proc.devRef .tc main_v4_0)) = (kargs m c).h := by
  show StableHlo.after hostOps1_2 (U4 m ρ c) _ = _
  hread hostOps1_2 with [K4_v4_0]
theorem K5_arg8 : U5 m ρ c (no_index (Proc.devRef .tc main_arg8)) = (kargs m c).Wc := by
  show StableHlo.after hostOps1_2 (U4 m ρ c) _ = _
  hread hostOps1_2 with [K4_arg8]
theorem K5_arg9 : U5 m ρ c (no_index (Proc.devRef .tc main_arg9)) = (kargs m c).bc := by
  show StableHlo.after hostOps1_2 (U4 m ρ c) _ = _
  hread hostOps1_2 with [K4_arg9]
theorem K5_arg10 : U5 m ρ c (no_index (Proc.devRef .tc main_arg10)) = (kargs m c).Wo := by
  show StableHlo.after hostOps1_2 (U4 m ρ c) _ = _
  hread hostOps1_2 with [K4_arg10]
theorem K5_arg11 : U5 m ρ c (no_index (Proc.devRef .tc main_arg11)) = (kargs m c).bo := by
  show StableHlo.after hostOps1_2 (U4 m ρ c) _ = _
  hread hostOps1_2 with [K4_arg11]

end Cert.KernelIdeal.KV

end
-- ==== Proof.Region1.lean ====
/- One hop's linear map, block by block. The 50000 x 128 array of node features is cut into ten blocks of 5000 consecutive
   rows; grid point t works on block t, and the 128 x 128 weight matrix is seen whole at every point. Entry (p, q) of the
   block the body stores is the sum over k of x(p, k) * W(k, q), where x is the block of features: the conversions to the
   narrower float type are the identity on extended reals, the two casts keep the shape, and a product accumulated into
   the zero matrix is the bare sum. Row p of block t is row 5000 * t + p of the array, so the stored entry is
   the sum over k of cur(5000 * t + p, k) * W(k, q), which is entry (5000 * t + p, q) of the host's contraction of cur
   with W over the feature axis: the same finite sum, over the same index, of the same products. The ten blocks are
   written back at the ten points and between them cover every row (row r lies in block r / 5000), so after the last
   point the output array is cur * W everywhere. -/
import proofs.«155323_j59115929862451_1_alg».proof.Proof.Gen.KernelIdeal.Frame
import proofs.«155323_j59115929862451_1_alg».proof.Proof.Gen.ReferenceIdeal
import proofs.«155323_j59115929862451_1_alg».proof.Proof.RefTerms
import Idealize.ShloMosaic.PureOps.Ideal.Laws
import Idealize.ShloMosaic.Lib.ValueIdx
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat Cfg Window)
open Idealize.ShloMosaic.ValueIdx (ix1 ix2)

/-! The auxiliary lemmas of this region live in a namespace of their own; the region's result is stated after it. -/
namespace Lin1

/-- The contraction the kernel's body applies to a block: rows of the block against the whole weight matrix. -/
abbrev kdot1 : DotDims S5000x128 S128x128 S5000x128 := dot_S5000x128_S128x128_S5000x128_1_0_0_1_n_n
/-- The contraction the host applies to the whole array. -/
abbrev rdot1 : DotDims Cert.ReferenceIdeal.S50000x128 Cert.ReferenceIdeal.S128x128 Cert.ReferenceIdeal.S50000x128 :=
  Cert.ReferenceIdeal.dot_S50000x128_S128x128_S50000x128_1_0_0_1_n_n

/-! ## The operand indices of the two contractions: the left operand is read at (row, k), the right at (k, column) -/

theorem klhs1_0 (i : S5000x128.Idx) (q : kdot1.contr.Idx) : (kdot1.lhsIdx i q 0).val = (i 0).val := by
  unfold DotDims.lhsIdx
  rw [dif_neg (show ¬(0 : Fin S5000x128.rank) ∈ kdot1.lhsBatch by decide), dif_pos (show (0 : Fin S5000x128.rank) ∈ kdot1.lhsNonContracting by decide)]
  rfl
theorem klhs1_1 (i : S5000x128.Idx) (q : kdot1.contr.Idx) : (kdot1.lhsIdx i q 1).val = (q ⟨0, by decide⟩).val :=
  kdot1.lhsIdx_val_of_single rfl i q
theorem krhs1_0 (i : S5000x128.Idx) (q : kdot1.contr.Idx) : (kdot1.rhsIdx i q 0).val = (q ⟨0, by decide⟩).val :=
  kdot1.rhsIdx_val_of_single rfl i q
theorem krhs1_1 (i : S5000x128.Idx) (q : kdot1.contr.Idx) : (kdot1.rhsIdx i q 1).val = (i 1).val := by
  unfold DotDims.rhsIdx
  rw [dif_neg (show ¬(1 : Fin S128x128.rank) ∈ kdot1.rhsBatch by decide), dif_pos (show (1 : Fin S128x128.rank) ∈ kdot1.rhsNonContracting by decide)]
  rfl

theorem rlhs1_0 (i : Cert.ReferenceIdeal.S50000x128.Idx) (q : rdot1.contr.Idx) : (rdot1.lhsIdx i q 0).val = (i 0).val := by
  unfold DotDims.lhsIdx
  rw [dif_neg (show ¬(0 : Fin Cert.ReferenceIdeal.S50000x128.rank) ∈ rdot1.lhsBatch by decide), dif_pos (show (0 : Fin Cert.ReferenceIdeal.S50000x128.rank) ∈ rdot1.lhsNonContracting by decide)]
  rfl
theorem rlhs1_1 (i : Cert.ReferenceIdeal.S50000x128.Idx) (q : rdot1.contr.Idx) : (rdot1.lhsIdx i q 1).val = (q ⟨0, by decide⟩).val :=
  rdot1.lhsIdx_val_of_single rfl i q
theorem rrhs1_0 (i : Cert.ReferenceIdeal.S50000x128.Idx) (q : rdot1.contr.Idx) : (rdot1.rhsIdx i q 0).val = (q ⟨0, by decide⟩).val :=
  rdot1.rhsIdx_val_of_single rfl i q
theorem rrhs1_1 (i : Cert.ReferenceIdeal.S50000x128.Idx) (q : rdot1.contr.Idx) : (rdot1.rhsIdx i q 1).val = (i 1).val := by
  unfold DotDims.rhsIdx
  rw [dif_neg (show ¬(1 : Fin Cert.ReferenceIdeal.S128x128.rank) ∈ rdot1.rhsBatch by decide), dif_pos (show (1 : Fin Cert.ReferenceIdeal.S128x128.rank) ∈ rdot1.rhsNonContracting by decide)]
  rfl

/-! ## Both sides at an index: the same sum of products -/

/-- The body's stored value at (p, q): the sum over k of x(p, k) * W(k, q). -/
theorem pay1_apply (x : Vec Ideal S5000x128 .f32) (W : Vec Ideal S128x128 .f32) (p : Fin 5000) (q : Fin 128) :
    k1_pay1 x W (ix2 p q) = ∑ k : Fin 128, x (ix2 p k) * W (ix2 k q) := by
  unfold k1_pay1
  simp only [matmul]
  rw [Ideal.matmul_constant_zero_apply, ← Equiv.sum_comp (ValueIdx.contrEquiv1 kdot1 128 rfl rfl).symm]
  refine Finset.sum_congr rfl fun k _ => ?_
  have hk := ValueIdx.contrEquiv1_symm_val kdot1 128 rfl rfl k
  have el : kdot1.lhsIdx (ix2 p q) ((ValueIdx.contrEquiv1 kdot1 128 rfl rfl).symm k) = ix2 p k := funext fun a => Fin.ext (by
    match a with
    | ⟨0, _⟩ => exact klhs1_0 _ _
    | ⟨1, _⟩ => exact (klhs1_1 _ _).trans hk)
  have er : kdot1.rhsIdx (ix2 p q) ((ValueIdx.contrEquiv1 kdot1 128 rfl rfl).symm k) = ix2 k q := funext fun a => Fin.ext (by
    match a with
    | ⟨0, _⟩ => exact (krhs1_0 _ _).trans hk
    | ⟨1, _⟩ => exact krhs1_1 _ _)
  rw [el, er, ValueIdx.truncf_apply, ValueIdx.truncf_apply, shapeCast_self, shapeCast_self]

/-- The host's contraction at (r, q): the sum over k of cur(r, k) * W(k, q). -/
theorem lin1_apply (cur : Cert.ReferenceIdeal.T.Arr Ideal Cert.ReferenceIdeal.S50000x128 .f32)
    (W : Cert.ReferenceIdeal.T.Arr Ideal Cert.ReferenceIdeal.S128x128 .f32) (r : Fin 50000) (q : Fin 128) :
    Cert.ReferenceIdeal.T.lin cur W (ix2 r q) = ∑ k : Fin 128, cur (ix2 r k) * W (ix2 k q) := by
  unfold Cert.ReferenceIdeal.T.lin
  simp only [Host.dotGeneral]
  rw [Ideal.dotGeneral_apply, ← Equiv.sum_comp (ValueIdx.contrEquiv1 rdot1 128 rfl rfl).symm]
  refine Finset.sum_congr rfl fun k _ => ?_
  have hk := ValueIdx.contrEquiv1_symm_val rdot1 128 rfl rfl k
  have el : rdot1.lhsIdx (ix2 r q) ((ValueIdx.contrEquiv1 rdot1 128 rfl rfl).symm k) = ix2 r k := funext fun a => Fin.ext (by
    match a with
    | ⟨0, _⟩ => exact rlhs1_0 _ _
    | ⟨1, _⟩ => exact (rlhs1_1 _ _).trans hk)
  have er : rdot1.rhsIdx (ix2 r q) ((ValueIdx.contrEquiv1 rdot1 128 rfl rfl).symm k) = ix2 k q := funext fun a => Fin.ext (by
    match a with
    | ⟨0, _⟩ => exact (rrhs1_0 _ _).trans hk
    | ⟨1, _⟩ => exact rrhs1_1 _ _)
  rw [el, er]

/-! ## From the blocks to the array -/

theorem zeroOffsets1 : (![0, 0] : Fin 2 → Nat) = fun _ => 0 := funext fun a => by fin_cases a <;> rfl

/-- The block indices over the grid: the feature block moves with the output block down the rows and stays in column
    block 0; the weight matrix's block is (0, 0) throughout; the output's row block is at most 9. -/
theorem blockIdx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the ten row blocks is some point's. -/
theorem blockOnto1 : ∀ (q0 : Fin 10), ∃ t : Fin cfg1.N, win1_2.index t = ![q0.val, 0] :=
  (by decide +kernel : ∀ (q0 : Fin 10), ∃ t : Fin grid1.N, win1_2.index t = ![q0.val, 0])

variable (V : (c : Dev nD) → (b : Ref sig .tc) → Buf (Elt Ideal) ((c : Thread nD τ).loc b)) (c : Dev nD)

/-- What point t writes back is block t of cur * W. -/
theorem flushed1_eq (t : Fin cfg1.N) :
    (dat1 (F := Ideal) V c).flushed 2 t
      = ((cfg1.win 2).blk t).view.read (Elt Ideal) (Cert.ReferenceIdeal.T.lin (V c main_v4_0) (V c main_v55)) := by
  show (cfg1.win 2).cut (grid1.coords t) ((dat1 V c).after 2 t) = _
  rw [after1_2]
  unfold out1_2
  rw [View.canon_unit_zero zeroOffsets1]
  simp only [View.ld_unit_zero (S := S5000x128) zeroOffsets1, View.ld_unit_zero (S := S128x128) zeroOffsets1]
  obtain ⟨e0, e1, e2, e3, e4, e5⟩ := blockIdx1 t
  funext j
  obtain ⟨p, q, rfl⟩ : ∃ (p : Fin 5000) (q : Fin 128), j = ix2 p q := ⟨j 0, j 1, ValueIdx.eq_ix2 j⟩
  have hi : ((cfg1.win 2).blk t).view.emb (ix2 p q)
      = ix2 (⟨win1_2.index t (0 : Fin 2) * 5000 + p.val, by have := p.isLt; omega⟩ : Fin 50000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  show k1_pay1 (iblk1 V c 0 t) (iblk1 V c 1 t) (ix2 p q)
      = Cert.ReferenceIdeal.T.lin (V c main_v4_0) (V c main_v55) (((cfg1.win 2).blk t).view.emb (ix2 p q))
  rw [hi]
  refine (pay1_apply _ _ p q).trans ((lin1_apply _ _ _ q).trans ?_).symm
  refine Finset.sum_congr rfl fun k _ => ?_
  have h0 : ((cfg1.win 0).blk t).view.emb (ix2 p k)
      = ix2 (⟨win1_2.index t (0 : Fin 2) * 5000 + p.val, by have := p.isLt; omega⟩ : Fin 50000) k := by
    funext a; apply Fin.ext
    match a with
    | ⟨0, _⟩ => show win1_0.index t (0 : Fin 2) * 5000 + 1 * p.val = win1_2.index t (0 : Fin 2) * 5000 + p.val; omega
    | ⟨1, _⟩ => show win1_0.index t (1 : Fin 2) * 128 + 1 * k.val = k.val; omega
  have h1 : ((cfg1.win 1).blk t).view.emb (ix2 k q) = ix2 k q := by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have a0 : iblk1 V c 0 t (ix2 p k) = (V c main_v4_0 : S50000x128.Idx → Elt Ideal .f32)
      (ix2 (⟨win1_2.index t (0 : Fin 2) * 5000 + p.val, by have := p.isLt; omega⟩ : Fin 50000) k) := by
    show (V c main_v4_0 : S50000x128.Idx → Elt Ideal .f32) (((cfg1.win 0).blk t).view.emb (ix2 p k)) = _
    rw [h0]
  have a1 : iblk1 V c 1 t (ix2 k q) = (V c main_v55 : S128x128.Idx → Elt Ideal .f32) (ix2 k q) := by
    show (V c main_v55 : S128x128.Idx → Elt Ideal .f32) (((cfg1.win 1).blk t).view.emb (ix2 k q)) = _
    rw [h1]
  rw [a0, a1]

/-- An index of the array is in point t's block iff each coordinate is in the block's range on its axis. -/
theorem memBlock1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v58).slice (win1_2.rect t)).set ↔ _
  rw [View.set_slice_whole, Rect.mem_set_unit]
  exact Iff.rfl

/-- Every index of the array is in some point's block: row r is in block r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := blockOnto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [memBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

end Lin1

variable (V : (c : Dev nD) → (b : Ref sig .tc) → Buf (Elt Ideal) ((c : Thread nD τ).loc b)) (c : Dev nD)

/-- The output array after the ten write-backs is cur * W. -/
theorem final1_2 : (dat1 (F := Ideal) V c).arrAt 2 cfg1.N = Cert.ReferenceIdeal.T.lin (V c main_v4_0) (V c main_v55) :=
  (dat1 V c).arrAt_eq_of_cover 2 _ (fun t _ => Lin1.flushed1_eq V c t) Lin1.cover1

end Cert.KernelIdeal.Reg

end
-- ==== Proof.KV6.lean ====
/- The idealized kernel program's result buffer, read back through the program's segments: the first hop's linear map cur·W and its
   aggregate over the edges. -/
import proofs.«155323_j59115929862451_1_alg».proof.Proof.KV5a
import proofs.«155323_j59115929862451_1_alg».proof.Proof.KV5b
import proofs.«155323_j59115929862451_1_alg».proof.Proof.KV5c
import proofs.«155323_j59115929862451_1_alg».proof.Proof.Region1

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-! ## Boundary 6: region 1's exit -/
set_option maxHeartbeats 1000000 in
theorem K6_v58 : W6 m ρ c (no_index (Proc.devRef .tc main_v58)) = (kargs m c).hl1 := by
  refine (W6_arr m ρ c 2).trans ?_
  rw [final1_2 (V5 m ρ) c]
  show Cert.ReferenceIdeal.T.lin (U5 m ρ c (Proc.devRef .tc main_v4_0)) (U5 m ρ c (Proc.devRef .tc main_v55)) = _
  rw [K5_v4_0 m ρ c, K5_v55 m ρ c]
  rfl
theorem K6_v53 : W6 m ρ c (no_index (Proc.devRef .tc main_v53)) = (kargs m c).nrm := (W6_pass m ρ c main_v53 (by decide)).trans (K5_v53 m ρ c)
theorem K6_v1 : W6 m ρ c (no_index (Proc.devRef .tc main_v1)) = (kargs m c).row := (W6_pass m ρ c main_v1 (by decide)).trans (K5_v1 m ρ c)
theorem K6_v3 : W6 m ρ c (no_index (Proc.devRef .tc main_v3)) = (kargs m c).col := (W6_pass m ρ c main_v3 (by decide)).trans (K5_v3 m ρ c)
theorem K6_v37 : W6 m ρ c (no_index (Proc.devRef .tc main_v37)) = (kargs m c).d2 := (W6_pass m ρ c main_v37 (by decide)).trans (K5_v37 m ρ c)
theorem K6_v57 : W6 m ρ c (no_index (Proc.devRef .tc main_v57)) = Cert.ReferenceIdeal.T.hopB0 (kargs m c).bc := (W6_pass m ρ c main_v57 (by decide)).trans (K5_v57 m ρ c)
theorem K6_arg8 : W6 m ρ c (no_index (Proc.devRef .tc main_arg8)) = (kargs m c).Wc := (W6_pass m ρ c main_arg8 (by decide)).trans (K5_arg8 m ρ c)
theorem K6_arg9 : W6 m ρ c (no_index (Proc.devRef .tc main_arg9)) = (kargs m c).bc := (W6_pass m ρ c main_arg9 (by decide)).trans (K5_arg9 m ρ c)
theorem K6_arg10 : W6 m ρ c (no_index (Proc.devRef .tc main_arg10)) = (kargs m c).Wo := (W6_pass m ρ c main_arg10 (by decide)).trans (K5_arg10 m ρ c)
theorem K6_arg11 : W6 m ρ c (no_index (Proc.devRef .tc main_arg11)) = (kargs m c).bo := (W6_pass m ρ c main_arg11 (by decide)).trans (K5_arg11 m ρ c)
theorem K6_v4_0 : W6 m ρ c (no_index (Proc.devRef .tc main_v4_0)) = (kargs m c).h :=
  ((W6_arr m ρ c 0).trans (((dat1 (V5 m ρ) c).arrAt_in 0 rfl _).trans (A_eq1 (V5 m ρ) c 0))).trans (K5_v4_0 m ρ c)

/-! ## Boundary 7: after the host stretch hostOps2 -/
set_option maxHeartbeats 1000000 in
theorem K7_v71 : U7 m ρ c (no_index (Proc.devRef .tc main_v71)) = (kargs m c).agg1 := by
  show StableHlo.after hostOps2 (W6 m ρ c) _ = _
  hread hostOps2 with [K6_v53, K6_v58, K6_v1, K6_v3]
  try rfl
theorem K7_v58 : U7 m ρ c (no_index (Proc.devRef .tc main_v58)) = (kargs m c).hl1 := by
  show StableHlo.after hostOps2 (W6 m ρ c) _ = _
  hread hostOps2 with [K6_v58]
theorem K7_v37 : U7 m ρ c (no_index (Proc.devRef .tc main_v37)) = (kargs m c).d2 := by
  show StableHlo.after hostOps2 (W6 m ρ c) _ = _
  hread hostOps2 with [K6_v37]
theorem K7_v57 : U7 m ρ c (no_index (Proc.devRef .tc main_v57)) = Cert.ReferenceIdeal.T.hopB0 (kargs m c).bc := by
  show StableHlo.after hostOps2 (W6 m ρ c) _ = _
  hread hostOps2 with [K6_v57]
theorem K7_v4_0 : U7 m ρ c (no_index (Proc.devRef .tc main_v4_0)) = (kargs m c).h := by
  show StableHlo.after hostOps2 (W6 m ρ c) _ = _
  hread hostOps2 with [K6_v4_0]
theorem K7_v53 : U7 m ρ c (no_index (Proc.devRef .tc main_v53)) = (kargs m c).nrm := by
  show StableHlo.after hostOps2 (W6 m ρ c) _ = _
  hread hostOps2 with [K6_v53]
theorem K7_v1 : U7 m ρ c (no_index (Proc.devRef .tc main_v1)) = (kargs m c).row := by
  show StableHlo.after hostOps2 (W6 m ρ c) _ = _
  hread hostOps2 with [K6_v1]
theorem K7_v3 : U7 m ρ c (no_index (Proc.devRef .tc main_v3)) = (kargs m c).col := by
  show StableHlo.after hostOps2 (W6 m ρ c) _ = _
  hread hostOps2 with [K6_v3]
theorem K7_arg8 : U7 m ρ c (no_index (Proc.devRef .tc main_arg8)) = (kargs m c).Wc := by
  show StableHlo.after hostOps2 (W6 m ρ c) _ = _
  hread hostOps2 with [K6_arg8]
theorem K7_arg9 : U7 m ρ c (no_index (Proc.devRef .tc main_arg9)) = (kargs m c).bc := by
  show StableHlo.after hostOps2 (W6 m ρ c) _ = _
  hread hostOps2 with [K6_arg9]
theorem K7_arg10 : U7 m ρ c (no_index (Proc.devRef .tc main_arg10)) = (kargs m c).Wo := by
  show StableHlo.after hostOps2 (W6 m ρ c) _ = _
  hread hostOps2 with [K6_arg10]
theorem K7_arg11 : U7 m ρ c (no_index (Proc.devRef .tc main_arg11)) = (kargs m c).bo := by
  show StableHlo.after hostOps2 (W6 m ρ c) _ = _
  hread hostOps2 with [K6_arg11]

end Cert.KernelIdeal.KV

end
-- ==== Proof.Region2.lean ====
/- One hop's combination, block by block. The 50000 x 128 arrays (the aggregate and the linear image of the current
   features) and the 50000 x 1 column of self-loop weights are cut into ten blocks of 5000 consecutive rows; grid point t
   works on block t of each, and the bias vector of 128 entries is seen whole at every point. Entry (p, q) of the block
   the body stores is max(agg(p, q) + d(p, 0) * hl(p, q) + b(q), 0): the casts keep the shape, the column repeated along
   the 128 columns reads its row's entry, the bias viewed as one row and repeated down the rows reads its column's
   entry, and the splat of zero reads zero. The host's expression at (r, q) is max(agg(r, q) + d(r, 0) * hl(r, q) + b(q), 0)
   by the same readings of its broadcasts. Row p of block t is row 5000 * t + p of each array, so the stored entry is the
   host's entry (5000 * t + p, q). The ten blocks are written back at the ten points and between them cover every row
   (row r lies in block r / 5000), so after the last point the output array is the host's combination everywhere. -/
import proofs.«155323_j59115929862451_1_alg».proof.Proof.Gen.KernelIdeal.Frame
import proofs.«155323_j59115929862451_1_alg».proof.Proof.Gen.ReferenceIdeal
import proofs.«155323_j59115929862451_1_alg».proof.Proof.RefTerms
import proofs.«155323_j59115929862451_1_alg».proof.Proof.IdxLaws
import Idealize.ShloMosaic.PureOps.Ideal.Laws
import Idealize.ShloMosaic.Lib.ValueIdx
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat Cfg Window)
open Idealize.ShloMosaic.ValueIdx (ix1 ix2)

/-! The auxiliary lemmas of this region live in a namespace of their own; the region's result is stated after it. -/
namespace Comb2

/-! ## A column repeated along the columns, read at an index -/

/-- A column [m, 1] repeated along n columns reads its entry at the row. -/
theorem colTo2_apply {m n : Nat} (x : (⟨2, ![m, 1]⟩ : Shape).Idx → Ideal .f32)
    (h : (⟨2, ![m, 1]⟩ : Shape).Broadcasts ⟨2, ![m, n]⟩) (p : Fin m) (q : Fin n) :
    broadcastTo ⟨2, ![m, n]⟩ x h (ix2 p q) = x (ix2 p (0 : Fin 1)) :=
  broadcastTo_apply x h (ix2 p q) (ix2 p (0 : Fin 1)) (fun a => by
    match a with
    | ⟨0, _⟩ =>
      show p.val = if m = 1 then 0 else p.val
      split_ifs with hm
      · have := p.isLt; omega
      · rfl
    | ⟨1, _⟩ => rfl)

/-- The host's form of the same: a column [m, 1] placed on axes (0, 1) of [m, n]. -/
theorem colIn2_apply {m n : Nat} (x : (⟨2, ![m, 1]⟩ : Shape).Idx → Ideal .f32)
    (h : (⟨2, ![m, 1]⟩ : Shape).BroadcastsInDim ⟨2, ![m, n]⟩ ![0, 1]) (p : Fin m) (q : Fin n) :
    broadcastInDim ⟨2, ![m, n]⟩ ![0, 1] h x (ix2 p q) = x (ix2 p (0 : Fin 1)) :=
  broadcastInDim_apply ![0, 1] h x (ix2 p q) (ix2 p (0 : Fin 1)) (fun a => by
    match a with
    | ⟨0, _⟩ =>
      show p.val = if m = 1 then 0 else p.val
      split_ifs with hm
      · have := p.isLt; omega
      · rfl
    | ⟨1, _⟩ => rfl)

/-! ## Both sides at an index: the same expression of the same entries -/

/-- The body's stored value at (p, q). -/
theorem pay2_apply (x0 x1 : Vec Ideal S5000x128 .f32) (x2 : Vec Ideal S5000x1 .f32) (x3 : Vec Ideal S128 .f32)
    (p : Fin 5000) (q : Fin 128) :
    k2_pay1 x0 x1 x2 x3 (ix2 p q)
      = max (x0 (ix2 p q) + x2 (ix2 p (0 : Fin 1)) * x1 (ix2 p q) + x3 (ix1 q)) (Ideal.ofBits .f32 0x00000000#32) := by
  unfold k2_pay1
  rw [ValueIdx.maximumf_apply, ValueIdx.addf_apply, ValueIdx.addf_apply, ValueIdx.mulf_apply, ValueIdx.broadcast_apply,
    shapeCast_self, shapeCast_self, shapeCast_self, shapeCast_self, Cert.IdxLaws.bcast_row_apply, colTo2_apply]
  rfl

/-- The host's combination at (r, q). -/
theorem combine2_apply (agg hl : Cert.ReferenceIdeal.T.Arr Ideal Cert.ReferenceIdeal.S50000x128 .f32)
    (d2 : Cert.ReferenceIdeal.T.Arr Ideal Cert.ReferenceIdeal.S50000x1 .f32)
    (b : Cert.ReferenceIdeal.T.Arr Ideal Cert.ReferenceIdeal.S128 .f32) (r : Fin 50000) (q : Fin 128) :
    Cert.ReferenceIdeal.T.combine agg d2 hl b (ix2 r q)
      = max (agg (ix2 r q) + d2 (ix2 r (0 : Fin 1)) * hl (ix2 r q) + b (ix1 q)) (Ideal.ofBits .f32 0x00000000#32) := by
  unfold Cert.ReferenceIdeal.T.combine
  rw [ValueIdx.maximumf_apply, ValueIdx.addf_apply, ValueIdx.addf_apply, ValueIdx.mulf_apply,
    Cert.IdxLaws.bid_scalar_apply, Cert.IdxLaws.bid_row_apply, colIn2_apply]
  rfl

/-! ## From the blocks to the array -/

theorem zeroOffsets2 : (![0, 0] : Fin 2 → Nat) = fun _ => 0 := funext fun a => by fin_cases a <;> rfl
theorem zeroOffset2 : (![0] : Fin 1 → Nat) = fun _ => 0 := funext fun a => by fin_cases a; rfl

/-- The block indices over the grid: the three row-blocked inputs move with the output block down the rows and stay in
    column block 0; the bias vector's block is 0 throughout; the output's row block is at most 9. -/
theorem blockIdx2 : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = win2_4.index t (0 : Fin 2)
    ∧ win2_2.index t (1 : Fin 2) = 0
    ∧ win2_3.index t (0 : Fin 1) = 0
    ∧ win2_4.index t (0 : Fin 2) ≤ 9
    ∧ win2_4.index t (1 : Fin 2) = 0 :=
  (by decide +kernel : ∀ t : Fin grid2.N, _)

/-- Every one of the ten row blocks is some point's. -/
theorem blockOnto2 : ∀ (q0 : Fin 10), ∃ t : Fin cfg2.N, win2_4.index t = ![q0.val, 0] :=
  (by decide +kernel : ∀ (q0 : Fin 10), ∃ t : Fin grid2.N, win2_4.index t = ![q0.val, 0])

variable (V : (c : Dev nD) → (b : Ref sig .tc) → Buf (Elt Ideal) ((c : Thread nD τ).loc b)) (c : Dev nD)

/-- What point t writes back is block t of the host's combination. -/
theorem flushed2_eq (t : Fin cfg2.N) :
    (dat2 (F := Ideal) V c).flushed 4 t
      = ((cfg2.win 4).blk t).view.read (Elt Ideal)
          (Cert.ReferenceIdeal.T.combine (V c main_v71) (V c main_v37) (V c main_v58) (V c main_v57)) := by
  show (cfg2.win 4).cut (grid2.coords t) ((dat2 V c).after 4 t) = _
  rw [after2_4]
  unfold out2_4
  rw [View.canon_unit_zero zeroOffsets2]
  simp only [View.ld_unit_zero (S := S5000x128) zeroOffsets2, View.ld_unit_zero (S := S5000x1) zeroOffsets2,
    View.ld_unit_zero (S := S128) zeroOffset2]
  obtain ⟨e0, e1, e2, e3, e4, e5, e6, e7, e8⟩ := blockIdx2 t
  funext j
  obtain ⟨p, q, rfl⟩ : ∃ (p : Fin 5000) (q : Fin 128), j = ix2 p q := ⟨j 0, j 1, ValueIdx.eq_ix2 j⟩
  have hi : ((cfg2.win 4).blk t).view.emb (ix2 p q)
      = ix2 (⟨win2_4.index t (0 : Fin 2) * 5000 + p.val, by have := p.isLt; omega⟩ : Fin 50000) q := by
    funext a; apply Fin.ext
    match a with
    | ⟨0, _⟩ => show win2_4.index t (0 : Fin 2) * 5000 + 1 * p.val = win2_4.index t (0 : Fin 2) * 5000 + p.val; omega
    | ⟨1, _⟩ => show win2_4.index t (1 : Fin 2) * 128 + 1 * q.val = q.val; omega
  show k2_pay1 (iblk2 V c 0 t) (iblk2 V c 1 t) (iblk2 V c 2 t) (iblk2 V c 3 t) (ix2 p q)
      = Cert.ReferenceIdeal.T.combine (V c main_v71) (V c main_v37) (V c main_v58) (V c main_v57) (((cfg2.win 4).blk t).view.emb (ix2 p q))
  rw [hi]
  refine (pay2_apply _ _ _ _ p q).trans ((combine2_apply _ _ _ _ _ q).trans ?_).symm
  have h0 : ((cfg2.win 0).blk t).view.emb (ix2 p q)
      = ix2 (⟨win2_4.index t (0 : Fin 2) * 5000 + p.val, by have := p.isLt; omega⟩ : Fin 50000) q := by
    funext a; apply Fin.ext
    match a with
    | ⟨0, _⟩ => show win2_0.index t (0 : Fin 2) * 5000 + 1 * p.val = win2_4.index t (0 : Fin 2) * 5000 + p.val; omega
    | ⟨1, _⟩ => show win2_0.index t (1 : Fin 2) * 128 + 1 * q.val = q.val; omega
  have h1 : ((cfg2.win 1).blk t).view.emb (ix2 p q)
      = ix2 (⟨win2_4.index t (0 : Fin 2) * 5000 + p.val, by have := p.isLt; omega⟩ : Fin 50000) q := by
    funext a; apply Fin.ext
    match a with
    | ⟨0, _⟩ => show win2_1.index t (0 : Fin 2) * 5000 + 1 * p.val = win2_4.index t (0 : Fin 2) * 5000 + p.val; omega
    | ⟨1, _⟩ => show win2_1.index t (1 : Fin 2) * 128 + 1 * q.val = q.val; omega
  have h2 : ((cfg2.win 2).blk t).view.emb (ix2 p (0 : Fin 1))
      = ix2 (⟨win2_4.index t (0 : Fin 2) * 5000 + p.val, by have := p.isLt; omega⟩ : Fin 50000) (0 : Fin 1) := by
    funext a; apply Fin.ext
    match a with
    | ⟨0, _⟩ => show win2_2.index t (0 : Fin 2) * 5000 + 1 * p.val = win2_4.index t (0 : Fin 2) * 5000 + p.val; omega
    | ⟨1, _⟩ => show win2_2.index t (1 : Fin 2) * 1 + 1 * 0 = 0; omega
  have h3 : ((cfg2.win 3).blk t).view.emb (ix1 q) = ix1 q := by
    funext a; apply Fin.ext
    match a with
    | ⟨0, _⟩ => show win2_3.index t (0 : Fin 1) * 128 + 1 * q.val = q.val; omega
  have a0 : iblk2 V c 0 t (ix2 p q) = (V c main_v71 : S50000x128.Idx → Elt Ideal .f32)
      (ix2 (⟨win2_4.index t (0 : Fin 2) * 5000 + p.val, by have := p.isLt; omega⟩ : Fin 50000) q) := by
    show (V c main_v71 : S50000x128.Idx → Elt Ideal .f32) (((cfg2.win 0).blk t).view.emb (ix2 p q)) = _
    rw [h0]
  have a1 : iblk2 V c 1 t (ix2 p q) = (V c main_v58 : S50000x128.Idx → Elt Ideal .f32)
      (ix2 (⟨win2_4.index t (0 : Fin 2) * 5000 + p.val, by have := p.isLt; omega⟩ : Fin 50000) q) := by
    show (V c main_v58 : S50000x128.Idx → Elt Ideal .f32) (((cfg2.win 1).blk t).view.emb (ix2 p q)) = _
    rw [h1]
  have a2 : iblk2 V c 2 t (ix2 p (0 : Fin 1)) = (V c main_v37 : S50000x1.Idx → Elt Ideal .f32)
      (ix2 (⟨win2_4.index t (0 : Fin 2) * 5000 + p.val, by have := p.isLt; omega⟩ : Fin 50000) (0 : Fin 1)) := by
    show (V c main_v37 : S50000x1.Idx → Elt Ideal .f32) (((cfg2.win 2).blk t).view.emb (ix2 p (0 : Fin 1))) = _
    rw [h2]
  have a3 : iblk2 V c 3 t (ix1 q) = (V c main_v57 : S128.Idx → Elt Ideal .f32) (ix1 q) := by
    show (V c main_v57 : S128.Idx → Elt Ideal .f32) (((cfg2.win 3).blk t).view.emb (ix1 q)) = _
    rw [h3]
  rw [a0, a1, a2, a3]

/-- An index of the array is in point t's block iff each coordinate is in the block's range on its axis. -/
theorem memBlock2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v72).slice (win2_4.rect t)).set ↔ _
  rw [View.set_slice_whole, Rect.mem_set_unit]
  exact Iff.rfl

/-- Every index of the array is in some point's block: row r is in block r / 5000. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := blockOnto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [memBlock2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

end Comb2

variable (V : (c : Dev nD) → (b : Ref sig .tc) → Buf (Elt Ideal) ((c : Thread nD τ).loc b)) (c : Dev nD)

/-- The output array after the ten write-backs is the host's combination. -/
theorem final2_4 : (dat2 (F := Ideal) V c).arrAt 4 cfg2.N
    = Cert.ReferenceIdeal.T.combine (V c main_v71) (V c main_v37) (V c main_v58) (V c main_v57) :=
  (dat2 V c).arrAt_eq_of_cover 4 _ (fun t _ => Comb2.flushed2_eq V c t) Comb2.cover2

end Cert.KernelIdeal.Reg

end
-- ==== Proof.KV8.lean ====
/- The idealized kernel program's result buffer, read back through the program's segments: the first hop's combination c₁ and hop 1's
   weight matrix and bias. -/
import proofs.«155323_j59115929862451_1_alg».proof.Proof.KV6
import proofs.«155323_j59115929862451_1_alg».proof.Proof.Region2

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-! ## Boundary 8: region 2's exit -/
set_option maxHeartbeats 1000000 in
theorem K8_v72 : W8 m ρ c (no_index (Proc.devRef .tc main_v72)) = (kargs m c).c1 := by
  refine (W8_arr m ρ c 4).trans ?_
  rw [final2_4 (V7 m ρ) c]
  show Cert.ReferenceIdeal.T.combine (U7 m ρ c (Proc.devRef .tc main_v71)) (U7 m ρ c (Proc.devRef .tc main_v37)) (U7 m ρ c (Proc.devRef .tc main_v58)) (U7 m ρ c (Proc.devRef .tc main_v57)) = _
  rw [K7_v71 m ρ c, K7_v37 m ρ c, K7_v58 m ρ c, K7_v57 m ρ c]
  rfl
theorem K8_v4_0 : W8 m ρ c (no_index (Proc.devRef .tc main_v4_0)) = (kargs m c).h := (W8_pass m ρ c main_v4_0 (by decide)).trans (K7_v4_0 m ρ c)
theorem K8_v53 : W8 m ρ c (no_index (Proc.devRef .tc main_v53)) = (kargs m c).nrm := (W8_pass m ρ c main_v53 (by decide)).trans (K7_v53 m ρ c)
theorem K8_v1 : W8 m ρ c (no_index (Proc.devRef .tc main_v1)) = (kargs m c).row := (W8_pass m ρ c main_v1 (by decide)).trans (K7_v1 m ρ c)
theorem K8_v3 : W8 m ρ c (no_index (Proc.devRef .tc main_v3)) = (kargs m c).col := (W8_pass m ρ c main_v3 (by decide)).trans (K7_v3 m ρ c)
theorem K8_arg8 : W8 m ρ c (no_index (Proc.devRef .tc main_arg8)) = (kargs m c).Wc := (W8_pass m ρ c main_arg8 (by decide)).trans (K7_arg8 m ρ c)
theorem K8_arg9 : W8 m ρ c (no_index (Proc.devRef .tc main_arg9)) = (kargs m c).bc := (W8_pass m ρ c main_arg9 (by decide)).trans (K7_arg9 m ρ c)
theorem K8_arg10 : W8 m ρ c (no_index (Proc.devRef .tc main_arg10)) = (kargs m c).Wo := (W8_pass m ρ c main_arg10 (by decide)).trans (K7_arg10 m ρ c)
theorem K8_arg11 : W8 m ρ c (no_index (Proc.devRef .tc main_arg11)) = (kargs m c).bo := (W8_pass m ρ c main_arg11 (by decide)).trans (K7_arg11 m ρ c)
theorem K8_v37 : W8 m ρ c (no_index (Proc.devRef .tc main_v37)) = (kargs m c).d2 :=
  ((W8_arr m ρ c 2).trans (((dat2 (V7 m ρ) c).arrAt_in 2 rfl _).trans (A_eq2 (V7 m ρ) c 2))).trans (K7_v37 m ρ c)

/-! ## Boundary 9: after the host stretch hostOps3 -/
set_option maxHeartbeats 1000000 in
theorem K9_v74 : U9 m ρ c (no_index (Proc.devRef .tc main_v74)) = Cert.ReferenceIdeal.T.hopW1 (kargs m c).Wc := by
  show StableHlo.after hostOps3 (W8 m ρ c) _ = _
  hread hostOps3 with [K8_arg8]
  try rfl
set_option maxHeartbeats 1000000 in
theorem K9_v76 : U9 m ρ c (no_index (Proc.devRef .tc main_v76)) = Cert.ReferenceIdeal.T.hopB1 (kargs m c).bc := by
  show StableHlo.after hostOps3 (W8 m ρ c) _ = _
  hread hostOps3 with [K8_arg9]
  try rfl
theorem K9_v72 : U9 m ρ c (no_index (Proc.devRef .tc main_v72)) = (kargs m c).c1 := by
  show StableHlo.after hostOps3 (W8 m ρ c) _ = _
  hread hostOps3 with [K8_v72]
theorem K9_v4_0 : U9 m ρ c (no_index (Proc.devRef .tc main_v4_0)) = (kargs m c).h := by
  show StableHlo.after hostOps3 (W8 m ρ c) _ = _
  hread hostOps3 with [K8_v4_0]
theorem K9_v53 : U9 m ρ c (no_index (Proc.devRef .tc main_v53)) = (kargs m c).nrm := by
  show StableHlo.after hostOps3 (W8 m ρ c) _ = _
  hread hostOps3 with [K8_v53]
theorem K9_v1 : U9 m ρ c (no_index (Proc.devRef .tc main_v1)) = (kargs m c).row := by
  show StableHlo.after hostOps3 (W8 m ρ c) _ = _
  hread hostOps3 with [K8_v1]
theorem K9_v3 : U9 m ρ c (no_index (Proc.devRef .tc main_v3)) = (kargs m c).col := by
  show StableHlo.after hostOps3 (W8 m ρ c) _ = _
  hread hostOps3 with [K8_v3]
theorem K9_v37 : U9 m ρ c (no_index (Proc.devRef .tc main_v37)) = (kargs m c).d2 := by
  show StableHlo.after hostOps3 (W8 m ρ c) _ = _
  hread hostOps3 with [K8_v37]
theorem K9_arg10 : U9 m ρ c (no_index (Proc.devRef .tc main_arg10)) = (kargs m c).Wo := by
  show StableHlo.after hostOps3 (W8 m ρ c) _ = _
  hread hostOps3 with [K8_arg10]
theorem K9_arg11 : U9 m ρ c (no_index (Proc.devRef .tc main_arg11)) = (kargs m c).bo := by
  show StableHlo.after hostOps3 (W8 m ρ c) _ = _
  hread hostOps3 with [K8_arg11]

end Cert.KernelIdeal.KV

end
-- ==== Proof.Region3.lean ====
/- One hop's linear map, block by block. The 50000 x 128 array of node features is cut into ten blocks of 5000 consecutive
   rows; grid point t works on block t, and the 128 x 128 weight matrix is seen whole at every point. Entry (p, q) of the
   block the body stores is the sum over k of x(p, k) * W(k, q), where x is the block of features: the conversions to the
   narrower float type are the identity on extended reals, the two casts keep the shape, and a product accumulated into
   the zero matrix is the bare sum. Row p of block t is row 5000 * t + p of the array, so the stored entry is
   the sum over k of cur(5000 * t + p, k) * W(k, q), which is entry (5000 * t + p, q) of the host's contraction of cur
   with W over the feature axis: the same finite sum, over the same index, of the same products. The ten blocks are
   written back at the ten points and between them cover every row (row r lies in block r / 5000), so after the last
   point the output array is cur * W everywhere. -/
import proofs.«155323_j59115929862451_1_alg».proof.Proof.Gen.KernelIdeal.Frame
import proofs.«155323_j59115929862451_1_alg».proof.Proof.Gen.ReferenceIdeal
import proofs.«155323_j59115929862451_1_alg».proof.Proof.RefTerms
import Idealize.ShloMosaic.PureOps.Ideal.Laws
import Idealize.ShloMosaic.Lib.ValueIdx
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat Cfg Window)
open Idealize.ShloMosaic.ValueIdx (ix1 ix2)

/-! The auxiliary lemmas of this region live in a namespace of their own; the region's result is stated after it. -/
namespace Lin3

/-- The contraction the kernel's body applies to a block: rows of the block against the whole weight matrix. -/
abbrev kdot3 : DotDims S5000x128 S128x128 S5000x128 := dot_S5000x128_S128x128_S5000x128_1_0_0_1_n_n
/-- The contraction the host applies to the whole array. -/
abbrev rdot3 : DotDims Cert.ReferenceIdeal.S50000x128 Cert.ReferenceIdeal.S128x128 Cert.ReferenceIdeal.S50000x128 :=
  Cert.ReferenceIdeal.dot_S50000x128_S128x128_S50000x128_1_0_0_1_n_n

/-! ## The operand indices of the two contractions: the left operand is read at (row, k), the right at (k, column) -/

theorem klhs3_0 (i : S5000x128.Idx) (q : kdot3.contr.Idx) : (kdot3.lhsIdx i q 0).val = (i 0).val := by
  unfold DotDims.lhsIdx
  rw [dif_neg (show ¬(0 : Fin S5000x128.rank) ∈ kdot3.lhsBatch by decide), dif_pos (show (0 : Fin S5000x128.rank) ∈ kdot3.lhsNonContracting by decide)]
  rfl
theorem klhs3_1 (i : S5000x128.Idx) (q : kdot3.contr.Idx) : (kdot3.lhsIdx i q 1).val = (q ⟨0, by decide⟩).val :=
  kdot3.lhsIdx_val_of_single rfl i q
theorem krhs3_0 (i : S5000x128.Idx) (q : kdot3.contr.Idx) : (kdot3.rhsIdx i q 0).val = (q ⟨0, by decide⟩).val :=
  kdot3.rhsIdx_val_of_single rfl i q
theorem krhs3_1 (i : S5000x128.Idx) (q : kdot3.contr.Idx) : (kdot3.rhsIdx i q 1).val = (i 1).val := by
  unfold DotDims.rhsIdx
  rw [dif_neg (show ¬(1 : Fin S128x128.rank) ∈ kdot3.rhsBatch by decide), dif_pos (show (1 : Fin S128x128.rank) ∈ kdot3.rhsNonContracting by decide)]
  rfl

theorem rlhs3_0 (i : Cert.ReferenceIdeal.S50000x128.Idx) (q : rdot3.contr.Idx) : (rdot3.lhsIdx i q 0).val = (i 0).val := by
  unfold DotDims.lhsIdx
  rw [dif_neg (show ¬(0 : Fin Cert.ReferenceIdeal.S50000x128.rank) ∈ rdot3.lhsBatch by decide), dif_pos (show (0 : Fin Cert.ReferenceIdeal.S50000x128.rank) ∈ rdot3.lhsNonContracting by decide)]
  rfl
theorem rlhs3_1 (i : Cert.ReferenceIdeal.S50000x128.Idx) (q : rdot3.contr.Idx) : (rdot3.lhsIdx i q 1).val = (q ⟨0, by decide⟩).val :=
  rdot3.lhsIdx_val_of_single rfl i q
theorem rrhs3_0 (i : Cert.ReferenceIdeal.S50000x128.Idx) (q : rdot3.contr.Idx) : (rdot3.rhsIdx i q 0).val = (q ⟨0, by decide⟩).val :=
  rdot3.rhsIdx_val_of_single rfl i q
theorem rrhs3_1 (i : Cert.ReferenceIdeal.S50000x128.Idx) (q : rdot3.contr.Idx) : (rdot3.rhsIdx i q 1).val = (i 1).val := by
  unfold DotDims.rhsIdx
  rw [dif_neg (show ¬(1 : Fin Cert.ReferenceIdeal.S128x128.rank) ∈ rdot3.rhsBatch by decide), dif_pos (show (1 : Fin Cert.ReferenceIdeal.S128x128.rank) ∈ rdot3.rhsNonContracting by decide)]
  rfl

/-! ## Both sides at an index: the same sum of products -/

/-- The body's stored value at (p, q): the sum over k of x(p, k) * W(k, q). -/
theorem pay3_apply (x : Vec Ideal S5000x128 .f32) (W : Vec Ideal S128x128 .f32) (p : Fin 5000) (q : Fin 128) :
    k3_pay1 x W (ix2 p q) = ∑ k : Fin 128, x (ix2 p k) * W (ix2 k q) := by
  unfold k3_pay1
  simp only [matmul]
  rw [Ideal.matmul_constant_zero_apply, ← Equiv.sum_comp (ValueIdx.contrEquiv1 kdot3 128 rfl rfl).symm]
  refine Finset.sum_congr rfl fun k _ => ?_
  have hk := ValueIdx.contrEquiv1_symm_val kdot3 128 rfl rfl k
  have el : kdot3.lhsIdx (ix2 p q) ((ValueIdx.contrEquiv1 kdot3 128 rfl rfl).symm k) = ix2 p k := funext fun a => Fin.ext (by
    match a with
    | ⟨0, _⟩ => exact klhs3_0 _ _
    | ⟨1, _⟩ => exact (klhs3_1 _ _).trans hk)
  have er : kdot3.rhsIdx (ix2 p q) ((ValueIdx.contrEquiv1 kdot3 128 rfl rfl).symm k) = ix2 k q := funext fun a => Fin.ext (by
    match a with
    | ⟨0, _⟩ => exact (krhs3_0 _ _).trans hk
    | ⟨1, _⟩ => exact krhs3_1 _ _)
  rw [el, er, ValueIdx.truncf_apply, ValueIdx.truncf_apply, shapeCast_self, shapeCast_self]

/-- The host's contraction at (r, q): the sum over k of cur(r, k) * W(k, q). -/
theorem lin3_apply (cur : Cert.ReferenceIdeal.T.Arr Ideal Cert.ReferenceIdeal.S50000x128 .f32)
    (W : Cert.ReferenceIdeal.T.Arr Ideal Cert.ReferenceIdeal.S128x128 .f32) (r : Fin 50000) (q : Fin 128) :
    Cert.ReferenceIdeal.T.lin cur W (ix2 r q) = ∑ k : Fin 128, cur (ix2 r k) * W (ix2 k q) := by
  unfold Cert.ReferenceIdeal.T.lin
  simp only [Host.dotGeneral]
  rw [Ideal.dotGeneral_apply, ← Equiv.sum_comp (ValueIdx.contrEquiv1 rdot3 128 rfl rfl).symm]
  refine Finset.sum_congr rfl fun k _ => ?_
  have hk := ValueIdx.contrEquiv1_symm_val rdot3 128 rfl rfl k
  have el : rdot3.lhsIdx (ix2 r q) ((ValueIdx.contrEquiv1 rdot3 128 rfl rfl).symm k) = ix2 r k := funext fun a => Fin.ext (by
    match a with
    | ⟨0, _⟩ => exact rlhs3_0 _ _
    | ⟨1, _⟩ => exact (rlhs3_1 _ _).trans hk)
  have er : rdot3.rhsIdx (ix2 r q) ((ValueIdx.contrEquiv1 rdot3 128 rfl rfl).symm k) = ix2 k q := funext fun a => Fin.ext (by
    match a with
    | ⟨0, _⟩ => exact (rrhs3_0 _ _).trans hk
    | ⟨1, _⟩ => exact rrhs3_1 _ _)
  rw [el, er]

/-! ## From the blocks to the array -/

theorem zeroOffsets3 : (![0, 0] : Fin 2 → Nat) = fun _ => 0 := funext fun a => by fin_cases a <;> rfl

/-- The block indices over the grid: the feature block moves with the output block down the rows and stays in column
    block 0; the weight matrix's block is (0, 0) throughout; the output's row block is at most 9. -/
theorem blockIdx3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every one of the ten row blocks is some point's. -/
theorem blockOnto3 : ∀ (q0 : Fin 10), ∃ t : Fin cfg3.N, win3_2.index t = ![q0.val, 0] :=
  (by decide +kernel : ∀ (q0 : Fin 10), ∃ t : Fin grid3.N, win3_2.index t = ![q0.val, 0])

variable (V : (c : Dev nD) → (b : Ref sig .tc) → Buf (Elt Ideal) ((c : Thread nD τ).loc b)) (c : Dev nD)

/-- What point t writes back is block t of cur * W. -/
theorem flushed3_eq (t : Fin cfg3.N) :
    (dat3 (F := Ideal) V c).flushed 2 t
      = ((cfg3.win 2).blk t).view.read (Elt Ideal) (Cert.ReferenceIdeal.T.lin (V c main_v72) (V c main_v74)) := by
  show (cfg3.win 2).cut (grid3.coords t) ((dat3 V c).after 2 t) = _
  rw [after3_2]
  unfold out3_2
  rw [View.canon_unit_zero zeroOffsets3]
  simp only [View.ld_unit_zero (S := S5000x128) zeroOffsets3, View.ld_unit_zero (S := S128x128) zeroOffsets3]
  obtain ⟨e0, e1, e2, e3, e4, e5⟩ := blockIdx3 t
  funext j
  obtain ⟨p, q, rfl⟩ : ∃ (p : Fin 5000) (q : Fin 128), j = ix2 p q := ⟨j 0, j 1, ValueIdx.eq_ix2 j⟩
  have hi : ((cfg3.win 2).blk t).view.emb (ix2 p q)
      = ix2 (⟨win3_2.index t (0 : Fin 2) * 5000 + p.val, by have := p.isLt; omega⟩ : Fin 50000) q := by
    funext a; apply Fin.ext
    match a with
    | ⟨0, _⟩ => show win3_2.index t (0 : Fin 2) * 5000 + 1 * p.val = win3_2.index t (0 : Fin 2) * 5000 + p.val; omega
    | ⟨1, _⟩ => show win3_2.index t (1 : Fin 2) * 128 + 1 * q.val = q.val; omega
  show k3_pay1 (iblk3 V c 0 t) (iblk3 V c 1 t) (ix2 p q)
      = Cert.ReferenceIdeal.T.lin (V c main_v72) (V c main_v74) (((cfg3.win 2).blk t).view.emb (ix2 p q))
  rw [hi]
  refine (pay3_apply _ _ p q).trans ((lin3_apply _ _ _ q).trans ?_).symm
  refine Finset.sum_congr rfl fun k _ => ?_
  have h0 : ((cfg3.win 0).blk t).view.emb (ix2 p k)
      = ix2 (⟨win3_2.index t (0 : Fin 2) * 5000 + p.val, by have := p.isLt; omega⟩ : Fin 50000) k := by
    funext a; apply Fin.ext
    match a with
    | ⟨0, _⟩ => show win3_0.index t (0 : Fin 2) * 5000 + 1 * p.val = win3_2.index t (0 : Fin 2) * 5000 + p.val; omega
    | ⟨1, _⟩ => show win3_0.index t (1 : Fin 2) * 128 + 1 * k.val = k.val; omega
  have h1 : ((cfg3.win 1).blk t).view.emb (ix2 k q) = ix2 k q := by
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  have a0 : iblk3 V c 0 t (ix2 p k) = (V c main_v72 : S50000x128.Idx → Elt Ideal .f32)
      (ix2 (⟨win3_2.index t (0 : Fin 2) * 5000 + p.val, by have := p.isLt; omega⟩ : Fin 50000) k) := by
    show (V c main_v72 : S50000x128.Idx → Elt Ideal .f32) (((cfg3.win 0).blk t).view.emb (ix2 p k)) = _
    rw [h0]
  have a1 : iblk3 V c 1 t (ix2 k q) = (V c main_v74 : S128x128.Idx → Elt Ideal .f32) (ix2 k q) := by
    show (V c main_v74 : S128x128.Idx → Elt Ideal .f32) (((cfg3.win 1).blk t).view.emb (ix2 k q)) = _
    rw [h1]
  rw [a0, a1]

/-- An index of the array is in point t's block iff each coordinate is in the block's range on its axis. -/
theorem memBlock3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v77).slice (win3_2.rect t)).set ↔ _
  rw [View.set_slice_whole, Rect.mem_set_unit]
  exact Iff.rfl

/-- Every index of the array is in some point's block: row r is in block r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := blockOnto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [memBlock3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

end Lin3

variable (V : (c : Dev nD) → (b : Ref sig .tc) → Buf (Elt Ideal) ((c : Thread nD τ).loc b)) (c : Dev nD)

/-- The output array after the ten write-backs is cur * W. -/
theorem final3_2 : (dat3 (F := Ideal) V c).arrAt 2 cfg3.N = Cert.ReferenceIdeal.T.lin (V c main_v72) (V c main_v74) :=
  (dat3 V c).arrAt_eq_of_cover 2 _ (fun t _ => Lin3.flushed3_eq V c t) Lin3.cover3

end Cert.KernelIdeal.Reg

end
-- ==== Proof.KV10.lean ====
/- The idealized kernel program's result buffer, read back through the program's segments: the second hop's linear map and aggregate. -/
import proofs.«155323_j59115929862451_1_alg».proof.Proof.KV8
import proofs.«155323_j59115929862451_1_alg».proof.Proof.Region3

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-! ## Boundary 10: region 3's exit -/
set_option maxHeartbeats 1000000 in
theorem K10_v77 : W10 m ρ c (no_index (Proc.devRef .tc main_v77)) = (kargs m c).hl2 := by
  refine (W10_arr m ρ c 2).trans ?_
  rw [final3_2 (V9 m ρ) c]
  show Cert.ReferenceIdeal.T.lin (U9 m ρ c (Proc.devRef .tc main_v72)) (U9 m ρ c (Proc.devRef .tc main_v74)) = _
  rw [K9_v72 m ρ c, K9_v74 m ρ c]
  rfl
theorem K10_v4_0 : W10 m ρ c (no_index (Proc.devRef .tc main_v4_0)) = (kargs m c).h := (W10_pass m ρ c main_v4_0 (by decide)).trans (K9_v4_0 m ρ c)
theorem K10_v53 : W10 m ρ c (no_index (Proc.devRef .tc main_v53)) = (kargs m c).nrm := (W10_pass m ρ c main_v53 (by decide)).trans (K9_v53 m ρ c)
theorem K10_v1 : W10 m ρ c (no_index (Proc.devRef .tc main_v1)) = (kargs m c).row := (W10_pass m ρ c main_v1 (by decide)).trans (K9_v1 m ρ c)
theorem K10_v3 : W10 m ρ c (no_index (Proc.devRef .tc main_v3)) = (kargs m c).col := (W10_pass m ρ c main_v3 (by decide)).trans (K9_v3 m ρ c)
theorem K10_v37 : W10 m ρ c (no_index (Proc.devRef .tc main_v37)) = (kargs m c).d2 := (W10_pass m ρ c main_v37 (by decide)).trans (K9_v37 m ρ c)
theorem K10_v76 : W10 m ρ c (no_index (Proc.devRef .tc main_v76)) = Cert.ReferenceIdeal.T.hopB1 (kargs m c).bc := (W10_pass m ρ c main_v76 (by decide)).trans (K9_v76 m ρ c)
theorem K10_arg10 : W10 m ρ c (no_index (Proc.devRef .tc main_arg10)) = (kargs m c).Wo := (W10_pass m ρ c main_arg10 (by decide)).trans (K9_arg10 m ρ c)
theorem K10_arg11 : W10 m ρ c (no_index (Proc.devRef .tc main_arg11)) = (kargs m c).bo := (W10_pass m ρ c main_arg11 (by decide)).trans (K9_arg11 m ρ c)
theorem K10_v72 : W10 m ρ c (no_index (Proc.devRef .tc main_v72)) = (kargs m c).c1 :=
  ((W10_arr m ρ c 0).trans (((dat3 (V9 m ρ) c).arrAt_in 0 rfl _).trans (A_eq3 (V9 m ρ) c 0))).trans (K9_v72 m ρ c)

/-! ## Boundary 11: after the host stretch hostOps4 -/
set_option maxHeartbeats 1000000 in
theorem K11_v90 : U11 m ρ c (no_index (Proc.devRef .tc main_v90)) = (kargs m c).agg2 := by
  show StableHlo.after hostOps4 (W10 m ρ c) _ = _
  hread hostOps4 with [K10_v53, K10_v77, K10_v1, K10_v3]
  try rfl
theorem K11_v77 : U11 m ρ c (no_index (Proc.devRef .tc main_v77)) = (kargs m c).hl2 := by
  show StableHlo.after hostOps4 (W10 m ρ c) _ = _
  hread hostOps4 with [K10_v77]
theorem K11_v37 : U11 m ρ c (no_index (Proc.devRef .tc main_v37)) = (kargs m c).d2 := by
  show StableHlo.after hostOps4 (W10 m ρ c) _ = _
  hread hostOps4 with [K10_v37]
theorem K11_v76 : U11 m ρ c (no_index (Proc.devRef .tc main_v76)) = Cert.ReferenceIdeal.T.hopB1 (kargs m c).bc := by
  show StableHlo.after hostOps4 (W10 m ρ c) _ = _
  hread hostOps4 with [K10_v76]
theorem K11_v72 : U11 m ρ c (no_index (Proc.devRef .tc main_v72)) = (kargs m c).c1 := by
  show StableHlo.after hostOps4 (W10 m ρ c) _ = _
  hread hostOps4 with [K10_v72]
theorem K11_v4_0 : U11 m ρ c (no_index (Proc.devRef .tc main_v4_0)) = (kargs m c).h := by
  show StableHlo.after hostOps4 (W10 m ρ c) _ = _
  hread hostOps4 with [K10_v4_0]
theorem K11_arg10 : U11 m ρ c (no_index (Proc.devRef .tc main_arg10)) = (kargs m c).Wo := by
  show StableHlo.after hostOps4 (W10 m ρ c) _ = _
  hread hostOps4 with [K10_arg10]
theorem K11_arg11 : U11 m ρ c (no_index (Proc.devRef .tc main_arg11)) = (kargs m c).bo := by
  show StableHlo.after hostOps4 (W10 m ρ c) _ = _
  hread hostOps4 with [K10_arg11]

end Cert.KernelIdeal.KV

end
-- ==== Proof.Region4.lean ====
/- One hop's combination, block by block. The 50000 x 128 arrays (the aggregate and the linear image of the current
   features) and the 50000 x 1 column of self-loop weights are cut into ten blocks of 5000 consecutive rows; grid point t
   works on block t of each, and the bias vector of 128 entries is seen whole at every point. Entry (p, q) of the block
   the body stores is max(agg(p, q) + d(p, 0) * hl(p, q) + b(q), 0): the casts keep the shape, the column repeated along
   the 128 columns reads its row's entry, the bias viewed as one row and repeated down the rows reads its column's
   entry, and the splat of zero reads zero. The host's expression at (r, q) is max(agg(r, q) + d(r, 0) * hl(r, q) + b(q), 0)
   by the same readings of its broadcasts. Row p of block t is row 5000 * t + p of each array, so the stored entry is the
   host's entry (5000 * t + p, q). The ten blocks are written back at the ten points and between them cover every row
   (row r lies in block r / 5000), so after the last point the output array is the host's combination everywhere. -/
import proofs.«155323_j59115929862451_1_alg».proof.Proof.Gen.KernelIdeal.Frame
import proofs.«155323_j59115929862451_1_alg».proof.Proof.Gen.ReferenceIdeal
import proofs.«155323_j59115929862451_1_alg».proof.Proof.RefTerms
import proofs.«155323_j59115929862451_1_alg».proof.Proof.IdxLaws
import Idealize.ShloMosaic.PureOps.Ideal.Laws
import Idealize.ShloMosaic.Lib.ValueIdx
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat Cfg Window)
open Idealize.ShloMosaic.ValueIdx (ix1 ix2)

/-! The auxiliary lemmas of this region live in a namespace of their own; the region's result is stated after it. -/
namespace Comb4

/-! ## A column repeated along the columns, read at an index -/

/-- A column [m, 1] repeated along n columns reads its entry at the row. -/
theorem colTo4_apply {m n : Nat} (x : (⟨2, ![m, 1]⟩ : Shape).Idx → Ideal .f32)
    (h : (⟨2, ![m, 1]⟩ : Shape).Broadcasts ⟨2, ![m, n]⟩) (p : Fin m) (q : Fin n) :
    broadcastTo ⟨2, ![m, n]⟩ x h (ix2 p q) = x (ix2 p (0 : Fin 1)) :=
  broadcastTo_apply x h (ix2 p q) (ix2 p (0 : Fin 1)) (fun a => by
    match a with
    | ⟨0, _⟩ =>
      show p.val = if m = 1 then 0 else p.val
      split_ifs with hm
      · have := p.isLt; omega
      · rfl
    | ⟨1, _⟩ => rfl)

/-- The host's form of the same: a column [m, 1] placed on axes (0, 1) of [m, n]. -/
theorem colIn4_apply {m n : Nat} (x : (⟨2, ![m, 1]⟩ : Shape).Idx → Ideal .f32)
    (h : (⟨2, ![m, 1]⟩ : Shape).BroadcastsInDim ⟨2, ![m, n]⟩ ![0, 1]) (p : Fin m) (q : Fin n) :
    broadcastInDim ⟨2, ![m, n]⟩ ![0, 1] h x (ix2 p q) = x (ix2 p (0 : Fin 1)) :=
  broadcastInDim_apply ![0, 1] h x (ix2 p q) (ix2 p (0 : Fin 1)) (fun a => by
    match a with
    | ⟨0, _⟩ =>
      show p.val = if m = 1 then 0 else p.val
      split_ifs with hm
      · have := p.isLt; omega
      · rfl
    | ⟨1, _⟩ => rfl)

/-! ## Both sides at an index: the same expression of the same entries -/

/-- The body's stored value at (p, q). -/
theorem pay4_apply (x0 x1 : Vec Ideal S5000x128 .f32) (x2 : Vec Ideal S5000x1 .f32) (x3 : Vec Ideal S128 .f32)
    (p : Fin 5000) (q : Fin 128) :
    k4_pay1 x0 x1 x2 x3 (ix2 p q)
      = max (x0 (ix2 p q) + x2 (ix2 p (0 : Fin 1)) * x1 (ix2 p q) + x3 (ix1 q)) (Ideal.ofBits .f32 0x00000000#32) := by
  unfold k4_pay1
  rw [ValueIdx.maximumf_apply, ValueIdx.addf_apply, ValueIdx.addf_apply, ValueIdx.mulf_apply, ValueIdx.broadcast_apply,
    shapeCast_self, shapeCast_self, shapeCast_self, shapeCast_self, Cert.IdxLaws.bcast_row_apply, colTo4_apply]
  rfl

/-- The host's combination at (r, q). -/
theorem combine4_apply (agg hl : Cert.ReferenceIdeal.T.Arr Ideal Cert.ReferenceIdeal.S50000x128 .f32)
    (d2 : Cert.ReferenceIdeal.T.Arr Ideal Cert.ReferenceIdeal.S50000x1 .f32)
    (b : Cert.ReferenceIdeal.T.Arr Ideal Cert.ReferenceIdeal.S128 .f32) (r : Fin 50000) (q : Fin 128) :
    Cert.ReferenceIdeal.T.combine agg d2 hl b (ix2 r q)
      = max (agg (ix2 r q) + d2 (ix2 r (0 : Fin 1)) * hl (ix2 r q) + b (ix1 q)) (Ideal.ofBits .f32 0x00000000#32) := by
  unfold Cert.ReferenceIdeal.T.combine
  rw [ValueIdx.maximumf_apply, ValueIdx.addf_apply, ValueIdx.addf_apply, ValueIdx.mulf_apply,
    Cert.IdxLaws.bid_scalar_apply, Cert.IdxLaws.bid_row_apply, colIn4_apply]
  rfl

/-! ## From the blocks to the array -/

theorem zeroOffsets4 : (![0, 0] : Fin 2 → Nat) = fun _ => 0 := funext fun a => by fin_cases a <;> rfl
theorem zeroOffset4 : (![0] : Fin 1 → Nat) = fun _ => 0 := funext fun a => by fin_cases a; rfl

/-- The block indices over the grid: the three row-blocked inputs move with the output block down the rows and stay in
    column block 0; the bias vector's block is 0 throughout; the output's row block is at most 9. -/
theorem blockIdx4 : ∀ t : Fin cfg4.N, win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = win4_4.index t (0 : Fin 2)
    ∧ win4_2.index t (1 : Fin 2) = 0
    ∧ win4_3.index t (0 : Fin 1) = 0
    ∧ win4_4.index t (0 : Fin 2) ≤ 9
    ∧ win4_4.index t (1 : Fin 2) = 0 :=
  (by decide +kernel : ∀ t : Fin grid4.N, _)

/-- Every one of the ten row blocks is some point's. -/
theorem blockOnto4 : ∀ (q0 : Fin 10), ∃ t : Fin cfg4.N, win4_4.index t = ![q0.val, 0] :=
  (by decide +kernel : ∀ (q0 : Fin 10), ∃ t : Fin grid4.N, win4_4.index t = ![q0.val, 0])

variable (V : (c : Dev nD) → (b : Ref sig .tc) → Buf (Elt Ideal) ((c : Thread nD τ).loc b)) (c : Dev nD)

/-- What point t writes back is block t of the host's combination. -/
theorem flushed4_eq (t : Fin cfg4.N) :
    (dat4 (F := Ideal) V c).flushed 4 t
      = ((cfg4.win 4).blk t).view.read (Elt Ideal)
          (Cert.ReferenceIdeal.T.combine (V c main_v90) (V c main_v37) (V c main_v77) (V c main_v76)) := by
  show (cfg4.win 4).cut (grid4.coords t) ((dat4 V c).after 4 t) = _
  rw [after4_4]
  unfold out4_4
  rw [View.canon_unit_zero zeroOffsets4]
  simp only [View.ld_unit_zero (S := S5000x128) zeroOffsets4, View.ld_unit_zero (S := S5000x1) zeroOffsets4,
    View.ld_unit_zero (S := S128) zeroOffset4]
  obtain ⟨e0, e1, e2, e3, e4, e5, e6, e7, e8⟩ := blockIdx4 t
  funext j
  obtain ⟨p, q, rfl⟩ : ∃ (p : Fin 5000) (q : Fin 128), j = ix2 p q := ⟨j 0, j 1, ValueIdx.eq_ix2 j⟩
  have hi : ((cfg4.win 4).blk t).view.emb (ix2 p q)
      = ix2 (⟨win4_4.index t (0 : Fin 2) * 5000 + p.val, by have := p.isLt; omega⟩ : Fin 50000) q := by
    funext a; apply Fin.ext
    match a with
    | ⟨0, _⟩ => show win4_4.index t (0 : Fin 2) * 5000 + 1 * p.val = win4_4.index t (0 : Fin 2) * 5000 + p.val; omega
    | ⟨1, _⟩ => show win4_4.index t (1 : Fin 2) * 128 + 1 * q.val = q.val; omega
  show k4_pay1 (iblk4 V c 0 t) (iblk4 V c 1 t) (iblk4 V c 2 t) (iblk4 V c 3 t) (ix2 p q)
      = Cert.ReferenceIdeal.T.combine (V c main_v90) (V c main_v37) (V c main_v77) (V c main_v76) (((cfg4.win 4).blk t).view.emb (ix2 p q))
  rw [hi]
  refine (pay4_apply _ _ _ _ p q).trans ((combine4_apply _ _ _ _ _ q).trans ?_).symm
  have h0 : ((cfg4.win 0).blk t).view.emb (ix2 p q)
      = ix2 (⟨win4_4.index t (0 : Fin 2) * 5000 + p.val, by have := p.isLt; omega⟩ : Fin 50000) q := by
    funext a; apply Fin.ext
    match a with
    | ⟨0, _⟩ => show win4_0.index t (0 : Fin 2) * 5000 + 1 * p.val = win4_4.index t (0 : Fin 2) * 5000 + p.val; omega
    | ⟨1, _⟩ => show win4_0.index t (1 : Fin 2) * 128 + 1 * q.val = q.val; omega
  have h1 : ((cfg4.win 1).blk t).view.emb (ix2 p q)
      = ix2 (⟨win4_4.index t (0 : Fin 2) * 5000 + p.val, by have := p.isLt; omega⟩ : Fin 50000) q := by
    funext a; apply Fin.ext
    match a with
    | ⟨0, _⟩ => show win4_1.index t (0 : Fin 2) * 5000 + 1 * p.val = win4_4.index t (0 : Fin 2) * 5000 + p.val; omega
    | ⟨1, _⟩ => show win4_1.index t (1 : Fin 2) * 128 + 1 * q.val = q.val; omega
  have h2 : ((cfg4.win 2).blk t).view.emb (ix2 p (0 : Fin 1))
      = ix2 (⟨win4_4.index t (0 : Fin 2) * 5000 + p.val, by have := p.isLt; omega⟩ : Fin 50000) (0 : Fin 1) := by
    funext a; apply Fin.ext
    match a with
    | ⟨0, _⟩ => show win4_2.index t (0 : Fin 2) * 5000 + 1 * p.val = win4_4.index t (0 : Fin 2) * 5000 + p.val; omega
    | ⟨1, _⟩ => show win4_2.index t (1 : Fin 2) * 1 + 1 * 0 = 0; omega
  have h3 : ((cfg4.win 3).blk t).view.emb (ix1 q) = ix1 q := by
    funext a; apply Fin.ext
    match a with
    | ⟨0, _⟩ => show win4_3.index t (0 : Fin 1) * 128 + 1 * q.val = q.val; omega
  have a0 : iblk4 V c 0 t (ix2 p q) = (V c main_v90 : S50000x128.Idx → Elt Ideal .f32)
      (ix2 (⟨win4_4.index t (0 : Fin 2) * 5000 + p.val, by have := p.isLt; omega⟩ : Fin 50000) q) := by
    show (V c main_v90 : S50000x128.Idx → Elt Ideal .f32) (((cfg4.win 0).blk t).view.emb (ix2 p q)) = _
    rw [h0]
  have a1 : iblk4 V c 1 t (ix2 p q) = (V c main_v77 : S50000x128.Idx → Elt Ideal .f32)
      (ix2 (⟨win4_4.index t (0 : Fin 2) * 5000 + p.val, by have := p.isLt; omega⟩ : Fin 50000) q) := by
    show (V c main_v77 : S50000x128.Idx → Elt Ideal .f32) (((cfg4.win 1).blk t).view.emb (ix2 p q)) = _
    rw [h1]
  have a2 : iblk4 V c 2 t (ix2 p (0 : Fin 1)) = (V c main_v37 : S50000x1.Idx → Elt Ideal .f32)
      (ix2 (⟨win4_4.index t (0 : Fin 2) * 5000 + p.val, by have := p.isLt; omega⟩ : Fin 50000) (0 : Fin 1)) := by
    show (V c main_v37 : S50000x1.Idx → Elt Ideal .f32) (((cfg4.win 2).blk t).view.emb (ix2 p (0 : Fin 1))) = _
    rw [h2]
  have a3 : iblk4 V c 3 t (ix1 q) = (V c main_v76 : S128.Idx → Elt Ideal .f32) (ix1 q) := by
    show (V c main_v76 : S128.Idx → Elt Ideal .f32) (((cfg4.win 3).blk t).view.emb (ix1 q)) = _
    rw [h3]
  rw [a0, a1, a2, a3]

/-- An index of the array is in point t's block iff each coordinate is in the block's range on its axis. -/
theorem memBlock4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v91).slice (win4_4.rect t)).set ↔ _
  rw [View.set_slice_whole, Rect.mem_set_unit]
  exact Iff.rfl

/-- Every index of the array is in some point's block: row r is in block r / 5000. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ := blockOnto4 ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [memBlock4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

end Comb4

variable (V : (c : Dev nD) → (b : Ref sig .tc) → Buf (Elt Ideal) ((c : Thread nD τ).loc b)) (c : Dev nD)

/-- The output array after the ten write-backs is the host's combination. -/
theorem final4_4 : (dat4 (F := Ideal) V c).arrAt 4 cfg4.N
    = Cert.ReferenceIdeal.T.combine (V c main_v90) (V c main_v37) (V c main_v77) (V c main_v76) :=
  (dat4 V c).arrAt_eq_of_cover 4 _ (fun t _ => Comb4.flushed4_eq V c t) Comb4.cover4

end Cert.KernelIdeal.Reg

end
-- ==== Proof.Region5.lean ====
/- The last region: the read-out, block by block.

   The grid has ten points. At point t the region reads rows 5000·t … 5000·t + 4999 of the three feature arrays h, c₁, c₂
   (5000 × 128 blocks), the whole of the three 128 × 1 pieces of the output weights and of the output bias, and writes
   back rows 5000·t … 5000·t + 4999 of the result column. Entry r of the column is written at the one point t = r / 5000,
   from row r of the three arrays.

   The block's entry p is (Σ_k h(r, k) · w₀(k) + Σ_k c₁(r, k) · w₁(k)) + Σ_k c₂(r, k) · w₂(k) + b, each product accumulated
   into zero. The reference lays the three arrays side by side into 384 columns and takes one dot product with the 384
   output weights: column 128·i + k of the side-by-side array is column k of the i-th array, and a sum over 384 terms is
   the sum of its three runs of 128. With the three pieces being rows 0–127, 128–255 and 256–383 of the output weights,
   the two sides are the same three sums, grouped the same way, plus the same bias. The ten blocks tile the 50000 rows. -/
import proofs.«155323_j59115929862451_1_alg».proof.Proof.Gen.KernelIdeal.Frame
import proofs.«155323_j59115929862451_1_alg».proof.Proof.Gen.ReferenceIdeal
import proofs.«155323_j59115929862451_1_alg».proof.Proof.RefTerms
import proofs.«155323_j59115929862451_1_alg».proof.Proof.IdxLaws
import Idealize.ShloMosaic.PureOps.Ideal.Laws
import Idealize.ShloMosaic.Lib.ValueIdx
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.IdxLaws
open scoped BigOperators

variable (V : (c : Dev nD) → (b : Ref sig .tc) → Buf (Elt Ideal) ((c : Thread nD τ).loc b)) (c : Dev nD)

theorem hz2' : (![0, 0] : Fin 2 → Nat) = fun _ => 0 := funext fun a => by fin_cases a <;> rfl
theorem hz1' : (![0] : Fin 1 → Nat) = fun _ => 0 := funext fun a => by fin_cases a <;> rfl

set_option maxHeartbeats 400000 in
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_7.index t (0 : Fin 2) = t.val ∧ win5_7.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 1) = 0 :=
  (by decide +kernel : ∀ t : Fin grid5.N, _)

/-- A sum over 384 terms is the sum of its three runs of 128. -/
theorem sum_fin384 {M : Type*} [AddCommMonoid M] (f : Fin 384 → M) :
    ∑ k, f k = (∑ k : Fin 128, f ⟨k.val, by omega⟩ + ∑ k : Fin 128, f ⟨128 + k.val, by omega⟩) + ∑ k : Fin 128, f ⟨256 + k.val, by omega⟩ := by
  have e1 := Fin.sum_univ_add (a := 256) (b := 128) (fun i : Fin (256 + 128) => f i)
  have e2 := Fin.sum_univ_add (a := 128) (b := 128) (fun i : Fin (128 + 128) => f (Fin.castAdd 128 i : Fin (256 + 128)))
  refine e1.trans ?_
  rw [e2]
  rfl

set_option maxHeartbeats 400000 in
theorem pay5_apply (x0 x1 x2 : Vec Ideal S5000x128 .f32) (w0 w1 w2 : Vec Ideal S128x1 .f32) (b : Vec Ideal S1 .f32) (p : Fin 5000) (z : Fin 1) :
    k5_pay1 x0 x1 x2 w0 w1 w2 b (ix2 p z)
      = ((∑ k : Fin 128, x0 (ix2 p k) * w0 (ix2 k z)) + (∑ k : Fin 128, x1 (ix2 p k) * w1 (ix2 k z))
          + (∑ k : Fin 128, x2 (ix2 p k) * w2 (ix2 k z))) + b (ix1 z) := by
  unfold k5_pay1
  simp only [shapeCast_self]
  rw [addf_apply, addf_apply, addf_apply]
  refine congrArg₂ (· + ·) (congrArg₂ (· + ·) (congrArg₂ (· + ·) ?_ ?_) ?_) ?_
  · exact matmul_zero_ix2 _ none _ _ p z
  · exact matmul_zero_ix2 _ none _ _ p z
  · exact matmul_zero_ix2 _ none _ _ p z
  · exact bcast_row_apply b _ _ p z

open Cert.ReferenceIdeal.Facts₀ Cert.ReferenceIdeal.Facts in
set_option maxHeartbeats 400000 in
/-- The three arrays side by side, read in a column of the k-th run of 128: the k-th array at that column less 128·k. -/
theorem concat3_apply (x0 x1 x2 : Cert.ReferenceIdeal.T.Arr Ideal Cert.ReferenceIdeal.S50000x128 .f32)
    (hc : Shape.Concatenates [Cert.ReferenceIdeal.S50000x128, Cert.ReferenceIdeal.S50000x128, Cert.ReferenceIdeal.S50000x128] Cert.ReferenceIdeal.S50000x384 1)
    (r : Fin 50000) (k : Fin 128) :
    concatenate Cert.ReferenceIdeal.S50000x384 1 [⟨Cert.ReferenceIdeal.S50000x128, x0⟩, ⟨Cert.ReferenceIdeal.S50000x128, x1⟩, ⟨Cert.ReferenceIdeal.S50000x128, x2⟩] hc
        (ix2 r (⟨k.val, by omega⟩ : Fin 384)) = x0 (ix2 r k)
    ∧ concatenate Cert.ReferenceIdeal.S50000x384 1 [⟨Cert.ReferenceIdeal.S50000x128, x0⟩, ⟨Cert.ReferenceIdeal.S50000x128, x1⟩, ⟨Cert.ReferenceIdeal.S50000x128, x2⟩] hc
        (ix2 r (⟨128 + k.val, by omega⟩ : Fin 384)) = x1 (ix2 r k)
    ∧ concatenate Cert.ReferenceIdeal.S50000x384 1 [⟨Cert.ReferenceIdeal.S50000x128, x0⟩, ⟨Cert.ReferenceIdeal.S50000x128, x1⟩, ⟨Cert.ReferenceIdeal.S50000x128, x2⟩] hc
        (ix2 r (⟨256 + k.val, by omega⟩ : Fin 384)) = x2 (ix2 r k) := by
  have hi : ∀ (kk : Fin 384) (b : Fin Cert.ReferenceIdeal.S50000x128.rank), b.cast (rfl : Cert.ReferenceIdeal.S50000x128.rank = Cert.ReferenceIdeal.S50000x384.rank) ≠ (1 : Fin 2) →
      ((ix2 r k : Cert.ReferenceIdeal.S50000x128.Idx) b).val = ((ix2 r kk : Cert.ReferenceIdeal.S50000x384.Idx) (b.cast rfl)).val := fun kk b => by
    match b with
    | ⟨0, _⟩ => exact fun _ => rfl
    | ⟨1, _⟩ => exact fun hb => absurd rfl hb
  refine ⟨?_, ?_, ?_⟩
  · exact concatenate_apply_piece (α := Ideal .f32) (t := Cert.ReferenceIdeal.S50000x384) (1 : Fin 2)
      [⟨Cert.ReferenceIdeal.S50000x128, x0⟩, ⟨Cert.ReferenceIdeal.S50000x128, x1⟩, ⟨Cert.ReferenceIdeal.S50000x128, x2⟩] hc
      (ix2 r (⟨k.val, by omega⟩ : Fin 384)) 0 (by show 0 < 3; omega) Cert.ReferenceIdeal.S50000x128 x0 rfl rfl 0 (by rfl) (ix2 r k) (hi _) (by show 0 + k.val = k.val; omega)
  · exact concatenate_apply_piece (α := Ideal .f32) (t := Cert.ReferenceIdeal.S50000x384) (1 : Fin 2)
      [⟨Cert.ReferenceIdeal.S50000x128, x0⟩, ⟨Cert.ReferenceIdeal.S50000x128, x1⟩, ⟨Cert.ReferenceIdeal.S50000x128, x2⟩] hc
      (ix2 r (⟨128 + k.val, by omega⟩ : Fin 384)) 1 (by show 1 < 3; omega) Cert.ReferenceIdeal.S50000x128 x1 rfl rfl 128 (by rfl) (ix2 r k) (hi _) (by show 128 + k.val = 128 + k.val; rfl)
  · exact concatenate_apply_piece (α := Ideal .f32) (t := Cert.ReferenceIdeal.S50000x384) (1 : Fin 2)
      [⟨Cert.ReferenceIdeal.S50000x128, x0⟩, ⟨Cert.ReferenceIdeal.S50000x128, x1⟩, ⟨Cert.ReferenceIdeal.S50000x128, x2⟩] hc
      (ix2 r (⟨256 + k.val, by omega⟩ : Fin 384)) 2 (by show 2 < 3; omega) Cert.ReferenceIdeal.S50000x128 x2 rfl rfl 256 (by rfl) (ix2 r k) (hi _) (by show 256 + k.val = 256 + k.val; rfl)

set_option maxHeartbeats 400000 in
theorem readout_apply (h c1 c2 : Cert.ReferenceIdeal.T.Arr Ideal Cert.ReferenceIdeal.S50000x128 .f32)
    (Wo : Cert.ReferenceIdeal.T.Arr Ideal Cert.ReferenceIdeal.S384x1 .f32) (bo : Cert.ReferenceIdeal.T.Arr Ideal Cert.ReferenceIdeal.S1 .f32)
    (r : Fin 50000) (z : Fin 1) :
    Cert.ReferenceIdeal.T.readout h c1 c2 Wo bo (ix2 r z)
      = ((∑ k : Fin 128, h (ix2 r k) * Wo (ix2 (⟨k.val, by omega⟩ : Fin 384) z))
          + (∑ k : Fin 128, c1 (ix2 r k) * Wo (ix2 (⟨128 + k.val, by omega⟩ : Fin 384) z))
          + (∑ k : Fin 128, c2 (ix2 r k) * Wo (ix2 (⟨256 + k.val, by omega⟩ : Fin 384) z))) + bo (ix1 z) := by
  unfold Cert.ReferenceIdeal.T.readout
  rw [addf_apply]
  refine congrArg₂ (· + ·) ?_ (bid_row_apply bo _ _ r z)
  refine (dotGeneral_ix2 _ none _ Wo r z).trans ?_
  rw [sum_fin384]
  refine congrArg₂ (· + ·) (congrArg₂ (· + ·) (Finset.sum_congr rfl fun k _ => ?_) (Finset.sum_congr rfl fun k _ => ?_)) (Finset.sum_congr rfl fun k _ => ?_)
  · exact congrArg (· * _) (concat3_apply h c1 c2 _ r k).1
  · exact congrArg (· * _) (concat3_apply h c1 c2 _ r k).2.1
  · exact congrArg (· * _) (concat3_apply h c1 c2 _ r k).2.2

set_option maxHeartbeats 400000 in
theorem blk5_0 (t : Fin cfg5.N) (p : Fin 5000) (k : Fin 128) (r : Fin 50000) (hr : r.val = t.val * 5000 + p.val) :
    (iblk5 V c 0 t : Vec Ideal S5000x128 .f32) (ix2 p k) = (V c main_v4_0 : S50000x128.Idx → Ideal .f32) (ix2 r k) := by
  obtain ⟨e0, e1, _⟩ := idx_facts5 t
  unfold iblk5
  rw [View.read_apply]
  show V c main_v4_0 _ = V c main_v4_0 _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 128 + 1 * k.val = k.val; rw [e1]; omega

set_option maxHeartbeats 400000 in
theorem blk5_1 (t : Fin cfg5.N) (p : Fin 5000) (k : Fin 128) (r : Fin 50000) (hr : r.val = t.val * 5000 + p.val) :
    (iblk5 V c 1 t : Vec Ideal S5000x128 .f32) (ix2 p k) = (V c main_v72 : S50000x128.Idx → Ideal .f32) (ix2 r k) := by
  obtain ⟨_, _, e0, e1, _⟩ := idx_facts5 t
  unfold iblk5
  rw [View.read_apply]
  show V c main_v72 _ = V c main_v72 _
  refine congrArg _ (funext fun a => Fin.ext ?_)
  match a with
  | ⟨0, _⟩ => show win5_1.index t (0 : Fin 2) * 5000 + 1 * p.val = r.val; rw [e0, hr]; omega
  | ⟨1, _⟩ => show win5_1.index t (1 : Fin 2) * 128 + 1 * k.val = k.val; rw [e1]; omega

set_option maxHeartbeats 400000 in
theorem blk5_2 (t : Fin cfg5.N) (p : Fin 5000) (k : Fin 128) (r : Fin 50000) (hr : r.val = t.val * 5000 + p.val) :
    (iblk5 V c 2 t : Vec Ideal S5000x128 .f32) (ix2 p k) = (V c main_v91 : S50000x128.Idx → Ideal .f32) (ix2 r k) := by
  obtain ⟨_, _, _, _, e0, e1, _⟩ := idx_facts5 t
  unfold iblk5
  rw [View.read_apply]
  show V c main_v91 _ = V c main_v91 _
  refine congrArg _ (funext fun a => Fin.ext ?_)
  match a with
  | ⟨0, _⟩ => show win5_2.index t (0 : Fin 2) * 5000 + 1 * p.val = r.val; rw [e0, hr]; omega
  | ⟨1, _⟩ => show win5_2.index t (1 : Fin 2) * 128 + 1 * k.val = k.val; rw [e1]; omega

set_option maxHeartbeats 400000 in
theorem blk5_3 (t : Fin cfg5.N) (k : Fin 128) (z : Fin 1) :
    (iblk5 V c 3 t : Vec Ideal S128x1 .f32) (ix2 k z) = (V c main_v92 : S128x1.Idx → Ideal .f32) (ix2 k z) := by
  obtain ⟨_, _, _, _, _, _, _, _, e0, e1, _⟩ := idx_facts5 t
  unfold iblk5
  rw [View.read_apply]
  show V c main_v92 _ = V c main_v92 _
  refine congrArg _ (funext fun a => Fin.ext ?_)
  match a with
  | ⟨0, _⟩ => show win5_3.index t (0 : Fin 2) * 128 + 1 * k.val = k.val; rw [e0]; omega
  | ⟨1, _⟩ => show win5_3.index t (1 : Fin 2) * 1 + 1 * z.val = z.val; rw [e1]; omega

set_option maxHeartbeats 400000 in
theorem blk5_4 (t : Fin cfg5.N) (k : Fin 128) (z : Fin 1) :
    (iblk5 V c 4 t : Vec Ideal S128x1 .f32) (ix2 k z) = (V c main_v93 : S128x1.Idx → Ideal .f32) (ix2 k z) := by
  obtain ⟨_, _, _, _, _, _, _, _, _, _, e0, e1, _⟩ := idx_facts5 t
  unfold iblk5
  rw [View.read_apply]
  show V c main_v93 _ = V c main_v93 _
  refine congrArg _ (funext fun a => Fin.ext ?_)
  match a with
  | ⟨0, _⟩ => show win5_4.index t (0 : Fin 2) * 128 + 1 * k.val = k.val; rw [e0]; omega
  | ⟨1, _⟩ => show win5_4.index t (1 : Fin 2) * 1 + 1 * z.val = z.val; rw [e1]; omega

set_option maxHeartbeats 400000 in
theorem blk5_5 (t : Fin cfg5.N) (k : Fin 128) (z : Fin 1) :
    (iblk5 V c 5 t : Vec Ideal S128x1 .f32) (ix2 k z) = (V c main_v94 : S128x1.Idx → Ideal .f32) (ix2 k z) := by
  obtain ⟨_, _, _, _, _, _, _, _, _, _, _, _, e0, e1, _⟩ := idx_facts5 t
  unfold iblk5
  rw [View.read_apply]
  show V c main_v94 _ = V c main_v94 _
  refine congrArg _ (funext fun a => Fin.ext ?_)
  match a with
  | ⟨0, _⟩ => show win5_5.index t (0 : Fin 2) * 128 + 1 * k.val = k.val; rw [e0]; omega
  | ⟨1, _⟩ => show win5_5.index t (1 : Fin 2) * 1 + 1 * z.val = z.val; rw [e1]; omega

set_option maxHeartbeats 400000 in
theorem blk5_6 (t : Fin cfg5.N) (z : Fin 1) :
    (iblk5 V c 6 t : Vec Ideal S1 .f32) (ix1 z) = (V c main_arg11 : S1.Idx → Ideal .f32) (ix1 z) := by
  obtain ⟨_, _, _, _, _, _, _, _, _, _, _, _, _, _, e0⟩ := idx_facts5 t
  unfold iblk5
  rw [View.read_apply]
  show V c main_arg11 _ = V c main_arg11 _
  refine congrArg _ (funext fun a => Fin.ext ?_)
  match a with
  | ⟨0, _⟩ => show win5_6.index t (0 : Fin 1) * 1 + 1 * z.val = z.val; rw [e0]; omega

set_option maxHeartbeats 400000 in
theorem flushed5_7 (Wo : Cert.ReferenceIdeal.T.Arr Ideal Cert.ReferenceIdeal.S384x1 .f32)
    (h0 : ∀ k : Fin 128, V c main_v92 (ValueIdx.ix2 k (0 : Fin 1)) = Wo (ValueIdx.ix2 (⟨k.val, by omega⟩ : Fin 384) (0 : Fin 1)))
    (h1 : ∀ k : Fin 128, V c main_v93 (ValueIdx.ix2 k (0 : Fin 1)) = Wo (ValueIdx.ix2 (⟨128 + k.val, by omega⟩ : Fin 384) (0 : Fin 1)))
    (h2 : ∀ k : Fin 128, V c main_v94 (ValueIdx.ix2 k (0 : Fin 1)) = Wo (ValueIdx.ix2 (⟨256 + k.val, by omega⟩ : Fin 384) (0 : Fin 1)))
    (t : Fin cfg5.N) :
    (dat5 (F := Ideal) V c).flushed 7 t = ((cfg5.win 7).blk t).view.read (Elt Ideal)
      (Cert.ReferenceIdeal.T.readout (V c main_v4_0) (V c main_v72) (V c main_v91) Wo (V c main_arg11)) := by
  show (cfg5.win 7).cut (grid5.coords t) ((dat5 (F := Ideal) V c).after 7 t) = _
  rw [after5_7]
  unfold out5_7
  rw [View.canon_unit_zero hz2']
  simp only [View.ld_unit_zero (S := S5000x128) hz2', View.ld_unit_zero (S := S128x1) hz2', View.ld_unit_zero (S := S1) hz1']
  funext j
  obtain ⟨p, z, rfl⟩ : ∃ (p : Fin 5000) (z : Fin 1), j = ix2 p z := ⟨j 0, j 1, eq_ix2 j⟩
  obtain rfl : z = 0 := Fin.eq_zero z
  have ht : t.val < 10 := t.isLt
  let r : Fin 50000 := ⟨t.val * 5000 + p.val, by omega⟩
  obtain ⟨_, _, _, _, _, _, e0, e1, _⟩ := idx_facts5 t
  have hemb : ((cfg5.win 7).blk t).view.emb (ix2 p (0 : Fin 1)) = (ix2 r (0 : Fin 1) : S50000x1.Idx) := by
    funext a; apply Fin.ext
    match a with
    | ⟨0, _⟩ => show win5_7.index t (0 : Fin 2) * 5000 + 1 * p.val = t.val * 5000 + p.val; rw [e0]; omega
    | ⟨1, _⟩ => show win5_7.index t (1 : Fin 2) * 1 + 1 * 0 = 0; rw [e1]
  refine (pay5_apply _ _ _ _ _ _ _ p 0).trans ?_
  rw [View.read_apply, hemb]
  refine Eq.trans ?_ (readout_apply _ _ _ _ _ r 0).symm
  refine congrArg₂ (· + ·) (congrArg₂ (· + ·) (congrArg₂ (· + ·) (Finset.sum_congr rfl fun k _ => ?_) (Finset.sum_congr rfl fun k _ => ?_)) (Finset.sum_congr rfl fun k _ => ?_)) ?_
  · rw [blk5_0 V c t p k r rfl, blk5_3 V c t k 0, ← h0 k]
  · rw [blk5_1 V c t p k r rfl, blk5_4 V c t k 0, ← h1 k]
  · rw [blk5_2 V c t p k r rfl, blk5_5 V c t k 0, ← h2 k]
  · exact blk5_6 V c t 0

theorem mem_blk5_7 (t : Fin cfg5.N) (i : S50000x1.Idx) :
    i ∈ ((cfg5.win 7).blk t).view.set ↔ ∀ a : Fin 2, win5_7.index t a * S5000x1.size a ≤ (i a).val ∧ (i a).val < win5_7.index t a * S5000x1.size a + S5000x1.size a := by
  show i ∈ ((View.whole main_v95).slice (win5_7.rect t)).set ↔ _
  rw [View.set_slice_whole, Rect.mem_set_unit]
  exact Iff.rfl

set_option maxHeartbeats 400000 in
theorem cover5_7' (i : S50000x1.Idx) :
    ∃ t : Fin cfg5.N, (cfg5.win 7).flush t = true ∧ i ∈ ((cfg5.win 7).blk t).view.set := by
  have hi0 : (i 0).val < 50000 := (i 0).isLt
  have hi1 : (i 1).val < 1 := (i 1).isLt
  let t : Fin cfg5.N := ⟨(i 0).val / 5000, by show _ < 10; omega⟩
  have htv : t.val = (i 0).val / 5000 := rfl
  obtain ⟨_, _, _, _, _, _, e0, e1, _⟩ := idx_facts5 t
  refine ⟨t, flush5_7 t, ?_⟩
  rw [mem_blk5_7]
  intro a
  match a with
  | ⟨0, _⟩ => show win5_7.index t (0 : Fin 2) * 5000 ≤ (i 0).val ∧ (i 0).val < win5_7.index t (0 : Fin 2) * 5000 + 5000; rw [e0]; omega
  | ⟨1, _⟩ => show win5_7.index t (1 : Fin 2) * 1 ≤ (i 1).val ∧ (i 1).val < win5_7.index t (1 : Fin 2) * 1 + 1; rw [e1]; omega

theorem final5_7 (Wo : Cert.ReferenceIdeal.T.Arr Ideal Cert.ReferenceIdeal.S384x1 .f32)
    (h0 : ∀ k : Fin 128, V c main_v92 (ValueIdx.ix2 k (0 : Fin 1)) = Wo (ValueIdx.ix2 (⟨k.val, by omega⟩ : Fin 384) (0 : Fin 1)))
    (h1 : ∀ k : Fin 128, V c main_v93 (ValueIdx.ix2 k (0 : Fin 1)) = Wo (ValueIdx.ix2 (⟨128 + k.val, by omega⟩ : Fin 384) (0 : Fin 1)))
    (h2 : ∀ k : Fin 128, V c main_v94 (ValueIdx.ix2 k (0 : Fin 1)) = Wo (ValueIdx.ix2 (⟨256 + k.val, by omega⟩ : Fin 384) (0 : Fin 1))) :
    (dat5 (F := Ideal) V c).arrAt 7 cfg5.N = Cert.ReferenceIdeal.T.readout (V c main_v4_0) (V c main_v72) (V c main_v91) Wo (V c main_arg11) :=
  (dat5 (F := Ideal) V c).arrAt_eq_of_cover 7 _ (fun t _ => flushed5_7 V c Wo h0 h1 h2 t) (cover5_7')

end Cert.KernelIdeal.Reg

end
-- ==== Proof.KSlices.lean ====
/- The three pieces of the output weights the host code cuts for the last region, read at an index.

   The 384 output weights form a 384 × 1 column. Piece i (i = 0, 1, 2) is the unit-stride slice of 128 rows starting at
   row 128·i, so its entry k is entry 128·i + k of the column. -/
import proofs.«155323_j59115929862451_1_alg».proof.Proof.Gen.KernelIdeal
import Idealize.ShloMosaic.PureOps.Ideal
import Idealize.ShloMosaic.Lib.ValueIdx
import Idealize.ShloMosaic.Lib.Pipeline.Value

noncomputable section

namespace Cert.KernelIdeal.KSl

open Cert.KernelIdeal Cert.KernelIdeal.Facts₀ Idealize.ShloMosaic

theorem piece0 (Wo : (⟨S384x1, .f32⟩ : BufTy).Contents (Elt Ideal)) (k : Fin 128) :
    extractStridedSlice S128x1 ![0, 0] Wo slices_S384x1_S128x1_0_0 (ValueIdx.ix2 k (0 : Fin 1))
      = Wo (ValueIdx.ix2 (⟨k.val, by omega⟩ : Fin 384) (0 : Fin 1)) :=
  extractStridedSlice_apply ![0, 0] Wo slices_S384x1_S128x1_0_0 (ValueIdx.ix2 k (0 : Fin 1)) (ValueIdx.ix2 (⟨k.val, by omega⟩ : Fin 384) (0 : Fin 1))
    (fun a => by
      match a with
      | ⟨0, _⟩ => show k.val = 0 + k.val; omega
      | ⟨1, _⟩ => rfl)

theorem piece1 (Wo : (⟨S384x1, .f32⟩ : BufTy).Contents (Elt Ideal)) (k : Fin 128) :
    extractStridedSlice S128x1 ![128, 0] Wo slices_S384x1_S128x1_128_0 (ValueIdx.ix2 k (0 : Fin 1))
      = Wo (ValueIdx.ix2 (⟨128 + k.val, by omega⟩ : Fin 384) (0 : Fin 1)) :=
  extractStridedSlice_apply ![128, 0] Wo slices_S384x1_S128x1_128_0 (ValueIdx.ix2 k (0 : Fin 1)) (ValueIdx.ix2 (⟨128 + k.val, by omega⟩ : Fin 384) (0 : Fin 1))
    (fun a => by
      match a with
      | ⟨0, _⟩ => show 128 + k.val = 128 + k.val; rfl
      | ⟨1, _⟩ => rfl)

theorem piece2 (Wo : (⟨S384x1, .f32⟩ : BufTy).Contents (Elt Ideal)) (k : Fin 128) :
    extractStridedSlice S128x1 ![256, 0] Wo slices_S384x1_S128x1_256_0 (ValueIdx.ix2 k (0 : Fin 1))
      = Wo (ValueIdx.ix2 (⟨256 + k.val, by omega⟩ : Fin 384) (0 : Fin 1)) :=
  extractStridedSlice_apply ![256, 0] Wo slices_S384x1_S128x1_256_0 (ValueIdx.ix2 k (0 : Fin 1)) (ValueIdx.ix2 (⟨256 + k.val, by omega⟩ : Fin 384) (0 : Fin 1))
    (fun a => by
      match a with
      | ⟨0, _⟩ => show 256 + k.val = 256 + k.val; rfl
      | ⟨1, _⟩ => rfl)

end Cert.KernelIdeal.KSl

end
-- ==== Proof.KV12.lean ====
/- The idealized kernel program's result buffer, read back through the program's segments: the second hop's combination c₂, the three
   pieces of W_out, the read-out column [h, c₁, c₂]·W_out + b_out and the result vector. -/
import proofs.«155323_j59115929862451_1_alg».proof.Proof.KV10
import proofs.«155323_j59115929862451_1_alg».proof.Proof.Region4
import proofs.«155323_j59115929862451_1_alg».proof.Proof.Region5
import proofs.«155323_j59115929862451_1_alg».proof.Proof.KSlices

noncomputable section

namespace Cert.KernelIdeal.KV

open Cert.KernelIdeal Cert.KernelIdeal.Gen Cert.KernelIdeal.Reg Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

set_option maxRecDepth 65536

/-! ## Boundary 12: region 4's exit -/
set_option maxHeartbeats 1000000 in
theorem K12_v91 : W12 m ρ c (no_index (Proc.devRef .tc main_v91)) = (kargs m c).c2 := by
  refine (W12_arr m ρ c 4).trans ?_
  rw [final4_4 (V11 m ρ) c]
  show Cert.ReferenceIdeal.T.combine (U11 m ρ c (Proc.devRef .tc main_v90)) (U11 m ρ c (Proc.devRef .tc main_v37)) (U11 m ρ c (Proc.devRef .tc main_v77)) (U11 m ρ c (Proc.devRef .tc main_v76)) = _
  rw [K11_v90 m ρ c, K11_v37 m ρ c, K11_v77 m ρ c, K11_v76 m ρ c]
  rfl
theorem K12_v72 : W12 m ρ c (no_index (Proc.devRef .tc main_v72)) = (kargs m c).c1 := (W12_pass m ρ c main_v72 (by decide)).trans (K11_v72 m ρ c)
theorem K12_v4_0 : W12 m ρ c (no_index (Proc.devRef .tc main_v4_0)) = (kargs m c).h := (W12_pass m ρ c main_v4_0 (by decide)).trans (K11_v4_0 m ρ c)
theorem K12_arg10 : W12 m ρ c (no_index (Proc.devRef .tc main_arg10)) = (kargs m c).Wo := (W12_pass m ρ c main_arg10 (by decide)).trans (K11_arg10 m ρ c)
theorem K12_arg11 : W12 m ρ c (no_index (Proc.devRef .tc main_arg11)) = (kargs m c).bo := (W12_pass m ρ c main_arg11 (by decide)).trans (K11_arg11 m ρ c)

/-! ## Boundary 13: after the host stretch hostOps5 -/
theorem K13_v4_0 : U13 m ρ c (no_index (Proc.devRef .tc main_v4_0)) = (kargs m c).h := by
  show StableHlo.after hostOps5 (W12 m ρ c) _ = _
  hread hostOps5 with [K12_v4_0]
theorem K13_v72 : U13 m ρ c (no_index (Proc.devRef .tc main_v72)) = (kargs m c).c1 := by
  show StableHlo.after hostOps5 (W12 m ρ c) _ = _
  hread hostOps5 with [K12_v72]
theorem K13_v91 : U13 m ρ c (no_index (Proc.devRef .tc main_v91)) = (kargs m c).c2 := by
  show StableHlo.after hostOps5 (W12 m ρ c) _ = _
  hread hostOps5 with [K12_v91]
theorem K13_arg10 : U13 m ρ c (no_index (Proc.devRef .tc main_arg10)) = (kargs m c).Wo := by
  show StableHlo.after hostOps5 (W12 m ρ c) _ = _
  hread hostOps5 with [K12_arg10]
theorem K13_arg11 : U13 m ρ c (no_index (Proc.devRef .tc main_arg11)) = (kargs m c).bo := by
  show StableHlo.after hostOps5 (W12 m ρ c) _ = _
  hread hostOps5 with [K12_arg11]

/-! ## The three pieces of W_out the last region reads, at an index -/
theorem K13_v92 (k : Fin 128) : V13 m ρ c main_v92 (ValueIdx.ix2 k (0 : Fin 1)) = (kargs m c).Wo (ValueIdx.ix2 (⟨k.val, by omega⟩ : Fin 384) (0 : Fin 1)) := by
  have e : V13 m ρ c main_v92 = extractStridedSlice S128x1 ![0, 0] ((kargs m c).Wo) Facts₀.slices_S384x1_S128x1_0_0 := by
    show StableHlo.after hostOps5 (W12 m ρ c) _ = _
    hread hostOps5 with [K12_arg10]
  rw [e]; exact Cert.KernelIdeal.KSl.piece0 _ k
theorem K13_v93 (k : Fin 128) : V13 m ρ c main_v93 (ValueIdx.ix2 k (0 : Fin 1)) = (kargs m c).Wo (ValueIdx.ix2 (⟨128 + k.val, by omega⟩ : Fin 384) (0 : Fin 1)) := by
  have e : V13 m ρ c main_v93 = extractStridedSlice S128x1 ![128, 0] ((kargs m c).Wo) Facts₀.slices_S384x1_S128x1_128_0 := by
    show StableHlo.after hostOps5 (W12 m ρ c) _ = _
    hread hostOps5 with [K12_arg10]
  rw [e]; exact Cert.KernelIdeal.KSl.piece1 _ k
theorem K13_v94 (k : Fin 128) : V13 m ρ c main_v94 (ValueIdx.ix2 k (0 : Fin 1)) = (kargs m c).Wo (ValueIdx.ix2 (⟨256 + k.val, by omega⟩ : Fin 384) (0 : Fin 1)) := by
  have e : V13 m ρ c main_v94 = extractStridedSlice S128x1 ![256, 0] ((kargs m c).Wo) Facts₀.slices_S384x1_S128x1_256_0 := by
    show StableHlo.after hostOps5 (W12 m ρ c) _ = _
    hread hostOps5 with [K12_arg10]
  rw [e]; exact Cert.KernelIdeal.KSl.piece2 _ k

/-! ## Boundary 14: the last region's exit; boundary 15: the result -/
set_option maxHeartbeats 1000000 in
theorem K14_v95 : W14 m ρ c (no_index (Proc.devRef .tc main_v95)) = (kargs m c).outCol := by
  refine (W14_arr m ρ c 7).trans ?_
  rw [final5_7 (V13 m ρ) c (kargs m c).Wo (K13_v92 m ρ c) (K13_v93 m ρ c) (K13_v94 m ρ c)]
  show Cert.ReferenceIdeal.T.readout (U13 m ρ c (Proc.devRef .tc main_v4_0)) (U13 m ρ c (Proc.devRef .tc main_v72)) (U13 m ρ c (Proc.devRef .tc main_v91)) (kargs m c).Wo (U13 m ρ c (Proc.devRef .tc main_arg11)) = _
  rw [K13_v4_0 m ρ c, K13_v72 m ρ c, K13_v91 m ρ c, K13_arg11 m ρ c]
  rfl
/-- THE KERNEL PROGRAM'S RESULT: the last boundary's contents of the result buffer is the reference's composition of stages. -/
theorem result : W15 m ρ c (Proc.devRef .tc main_v96) = (kargs m c).out := by
  show StableHlo.after hostOps6 (W14 m ρ c) _ = _
  hread hostOps6 with [K14_v95]
  try rfl

end Cert.KernelIdeal.KV

end
-- ==== Proof.RefOps.lean ====
/- The reference program's @main as the list of its host operations, in order, each outlined function's body inlined at its
   call over that call's buffers, in the four windows the program is printed in; and that every operation names only
   TensorCore buffers. -/
import proofs.«155323_j59115929862451_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Statements of window 0 of @main (84 operations). -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg3 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v7) main_call0.v0 main_call0.v1 maximumf,
    StableHlo.binary main_v8 main_arg4 main_v9 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S50000x64 ![0, 1] bcast_S1x64_S50000x64_0_1 : (⟨S1x64, .f32⟩ : BufTy).Contents (Elt F) → (⟨S50000x64, .f32⟩ : BufTy).Contents (Elt F)),
    StableHlo.binary main_v9 main_v11 main_v12 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v12) main_call1.v0 main_call1.v1 maximumf,
    StableHlo.binary main_v13 main_arg6 main_v14 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg7 main_v15 (broadcastInDim S1x1 ![1] bcast_S1_S1x1_1 : (⟨S1, .f32⟩ : BufTy).Contents (Elt F) → (⟨S1x1, .f32⟩ : BufTy).Contents (Elt F)),
    StableHlo.unary main_v15 main_v16 (broadcastInDim S50000x1 ![0, 1] bcast_S1x1_S50000x1_0_1 : (⟨S1x1, .f32⟩ : BufTy).Contents (Elt F) → (⟨S50000x1, .f32⟩ : BufTy).Contents (Elt F)),
    StableHlo.binary main_v14 main_v16 main_v17 (addf : (⟨S50000x1, .f32⟩ : BufTy).Contents (Elt F) → (⟨S50000x1, .f32⟩ : BufTy).Contents (Elt F) → (⟨S50000x1, .f32⟩ : BufTy).Contents (Elt F)),
    StableHlo.unary main_v17 main_v18 (Host.negf : (⟨S50000x1, .f32⟩ : BufTy).Contents (Elt F) → (⟨S50000x1, .f32⟩ : BufTy).Contents (Elt F)),
    StableHlo.unary main_v18 main_v19 (Host.exp : (⟨S50000x1, .f32⟩ : BufTy).Contents (Elt F) → (⟨S50000x1, .f32⟩ : BufTy).Contents (Elt F)),
    StableHlo.nullary main_cst (constant S_ .f32 0x3F800000#32),
    StableHlo.unary main_cst main_v20 (broadcastInDim S50000x1 ![] bcast_S_S50000x1 : (⟨S_, .f32⟩ : BufTy).Contents (Elt F) → (⟨S50000x1, .f32⟩ : BufTy).Contents (Elt F)),
    StableHlo.binary main_v20 main_v19 main_v21 (addf : (⟨S50000x1, .f32⟩ : BufTy).Contents (Elt F) → (⟨S50000x1, .f32⟩ : BufTy).Contents (Elt F) → (⟨S50000x1, .f32⟩ : BufTy).Contents (Elt F)),
    StableHlo.nullary main_cst_0 (constant S_ .f32 0x3F800000#32),
    StableHlo.unary main_cst_0 main_v22 (broadcastInDim S50000x1 ![] bcast_S_S50000x1 : (⟨S_, .f32⟩ : BufTy).Contents (Elt F) → (⟨S50000x1, .f32⟩ : BufTy).Contents (Elt F)),
    StableHlo.binary main_v22 main_v21 main_v23 (Host.divf : (⟨S50000x1, .f32⟩ : BufTy).Contents (Elt F) → (⟨S50000x1, .f32⟩ : BufTy).Contents (Elt F) → (⟨S50000x1, .f32⟩ : BufTy).Contents (Elt F)),
    StableHlo.reshape main_v23 main_v24 rfl shapeCasts_S50000x1_S50000,
    StableHlo.nullary main_c (constantI S_ 32 0#32),
    StableHlo.unary main_c main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 50000#32),
    StableHlo.unary main_c_1 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_2 (constantI S_ 32 0#32),
    StableHlo.unary main_c_2 main_v32 (broadcastInDim S1600000 ![] bcast_S_S1600000 : (⟨S_, .i32⟩ : BufTy).Contents (Elt F) → (⟨S1600000, .i32⟩ : BufTy).Contents (Elt F)),
    StableHlo.binary main_v3 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 50000#32),
    StableHlo.unary main_c_3 main_v34 (broadcastInDim S1600000 ![] bcast_S_S1600000 : (⟨S_, .i32⟩ : BufTy).Contents (Elt F) → (⟨S1600000, .i32⟩ : BufTy).Contents (Elt F)),
    StableHlo.binary main_v3 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_v3 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v24 main_v37 main_v38 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v31 main_v38 main_v39 (addf : (⟨S1600000, .f32⟩ : BufTy).Contents (Elt F) → (⟨S1600000, .f32⟩ : BufTy).Contents (Elt F) → (⟨S1600000, .f32⟩ : BufTy).Contents (Elt F)),
    StableHlo.nullary main_cst_4 (constant S_ .f32 0x3F000000#32),
    StableHlo.unary main_cst_4 main_v40 (broadcastInDim S1600000 ![] bcast_S_S1600000 : (⟨S_, .f32⟩ : BufTy).Contents (Elt F) → (⟨S1600000, .f32⟩ : BufTy).Contents (Elt F)),
    StableHlo.binary main_v39 main_v40 main_v41 (mulf : (⟨S1600000, .f32⟩ : BufTy).Contents (Elt F) → (⟨S1600000, .f32⟩ : BufTy).Contents (Elt F) → (⟨S1600000, .f32⟩ : BufTy).Contents (Elt F)),
    StableHlo.nullary main_cst_5 (constant S_ .f32 0x00000000#32),
    StableHlo.binary main_v41 main_cst_5 main_v42 ((fun x v => Host.reduceAdd x v reducesTo_S1600000_S_d0 h_S_) : (⟨S1600000, .f32⟩ : BufTy).Contents (Elt F) → (⟨S_, .f32⟩ : BufTy).Contents (Elt F) → (⟨S_, .f32⟩ : BufTy).Contents (Elt F)),
    StableHlo.nullary main_cst_6 (constant S_ .f32 0x49C35000#32),
    StableHlo.binary main_v42 main_cst_6 main_v43 (Host.divf : (⟨S_, .f32⟩ : BufTy).Contents (Elt F) → (⟨S_, .f32⟩ : BufTy).Contents (Elt F) → (⟨S_, .f32⟩ : BufTy).Contents (Elt F)),
    StableHlo.nullary main_c_7 (constantI S_ 32 1#32),
    StableHlo.TRef.nullary main_call2.call0.cst (constant S_ .f32 0x00000000#32),
    StableHlo.TRef.binary (.of main_v41) main_call2.call0.cst main_call2.call0.v0 (fun x v => Host.reduceAdd x v reducesTo_S1600000_S_d0 h_S_),
    StableHlo.TRef.unary main_call2.call0.v0 main_call2.call0.v1 (broadcastInDim S1 ![] bcast_S_S1),
    StableHlo.TRef.nullary main_call2.call0.cst_0 (constant S_ .f32 0x49C35000#32),
    StableHlo.TRef.unary main_call2.call0.cst_0 main_call2.call0.v2 (broadcastInDim S1 ![] bcast_S_S1),
    StableHlo.TRef.binary main_call2.call0.v1 main_call2.call0.v2 main_call2.call0.v3 Host.divf,
    StableHlo.TRef.unary main_call2.call0.v3 main_call2.call0.v4 (broadcastInDim S1600000 ![0] bcast_S1_S1600000_0),
    StableHlo.TRef.binary (.of main_v41) main_call2.call0.v4 main_call2.call0.v5 subf,
    StableHlo.TRef.binary main_call2.call0.v5 main_call2.call0.v5 main_call2.call0.v6 mulf,
    StableHlo.TRef.unary (.of main_c_7) main_call2.call0.v7 (sitofp .f32),
    StableHlo.TRef.nullary main_call2.call0.cst_1 (constant S_ .f32 0x49C35000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S1600000_S_d0 h_S_),
    StableHlo.TRef.binary main_call2.call0.v9 main_call2.call0.v8 main_call2.call0.v10 Host.divf,
    StableHlo.TRef.nullary main_call2.call0.cst_3 (constant S_ .f32 0x00000000#32),
    StableHlo.TRef.binary main_call2.call0.v8 main_call2.call0.cst_3 main_call2.call0.v11 (cmpf .ogt),
    StableHlo.TRef.nullary main_call2.call0.cst_4 (constant S_ .f32 0x7FC00000#32),
    StableHlo.TRef.unary main_call2.call0.cst_4 main_call2.call0.call0.v0 id,
    StableHlo.TRef.ternary main_call2.call0.v11 main_call2.call0.v10 main_call2.call0.call0.v0 main_call2.call0.call0.v1 select,
    StableHlo.TRef.unary main_call2.call0.call0.v1 main_call2.v1 Host.sqrt,
    StableHlo.binary main_v43 main_v44 main_v45 (addf : (⟨S_, .f32⟩ : BufTy).Contents (Elt F) → (⟨S_, .f32⟩ : BufTy).Contents (Elt F) → (⟨S_, .f32⟩ : BufTy).Contents (Elt F)),
    StableHlo.unary main_v45 main_v46 (broadcastInDim S1600000 ![] bcast_S_S1600000 : (⟨S_, .f32⟩ : BufTy).Contents (Elt F) → (⟨S1600000, .f32⟩ : BufTy).Contents (Elt F)),
    StableHlo.binary main_v41 main_v46 main_v47 (cmpf .ogt : (⟨S1600000, .f32⟩ : BufTy).Contents (Elt F) → (⟨S1600000, .f32⟩ : BufTy).Contents (Elt F) → (⟨S1600000, .i1⟩ : BufTy).Contents (Elt F)),
    StableHlo.unary main_v47 main_v48 (uitofp .f32 : (⟨S1600000, .i1⟩ : BufTy).Contents (Elt F) → (⟨S1600000, .f32⟩ : BufTy).Contents (Elt F)),
    StableHlo.unary main_arg8 main_v49 ((extractStridedSlice S1x128x128 ![0, 0, 0] · slices_S2x128x128_S1x128x128_0_0_0) : (⟨S2x128x128, .f32⟩ : BufTy).Contents (Elt F) → (⟨S1x128x128, .f32⟩ : BufTy).Contents (Elt F)) ]

/-- Statements of window 1 of @main (62 operations). -/
abbrev ops1 : List (HloOp τ sig (Elt F)) :=
  [ StableHlo.reshape main_v49 main_v50 rfl shapeCasts_S1x128x128_S128x128,
    StableHlo.unary main_arg9 main_v51 ((extractStridedSlice S1x128 ![0, 0] · slices_S2x128_S1x128_0_0) : (⟨S2x128, .f32⟩ : BufTy).Contents (Elt F) → (⟨S1x128, .f32⟩ : BufTy).Contents (Elt F)),
    StableHlo.reshape main_v51 main_v52 rfl shapeCasts_S1x128_S128,
    StableHlo.binary main_v8 main_v50 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_8 (constant S_ .f32 0x00000000#32),
    StableHlo.unary main_cst_8 main_v54 (broadcastInDim S50000 ![] bcast_S_S50000 : (⟨S_, .f32⟩ : BufTy).Contents (Elt F) → (⟨S50000, .f32⟩ : BufTy).Contents (Elt F)),
    StableHlo.unary main_v3 main_v55 (broadcastInDim S1600000x1 ![0] bcast_S1600000_S1600000x1_0 : (⟨S1600000, .i32⟩ : BufTy).Contents (Elt F) → (⟨S1600000x1, .i32⟩ : BufTy).Contents (Elt F)),
    StableHlo.ternary main_v54 main_v55 main_v48 main_v56 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_9 (constant S_ .f32 0x3F800000#32),
    StableHlo.unary main_cst_9 main_v57 (broadcastInDim S50000 ![] bcast_S_S50000 : (⟨S_, .f32⟩ : BufTy).Contents (Elt F) → (⟨S50000, .f32⟩ : BufTy).Contents (Elt F)),
    StableHlo.binary main_v56 main_v57 main_v58 (addf : (⟨S50000, .f32⟩ : BufTy).Contents (Elt F) → (⟨S50000, .f32⟩ : BufTy).Contents (Elt F) → (⟨S50000, .f32⟩ : BufTy).Contents (Elt F)),
    StableHlo.unary main_v58 main_v59 (Host.rsqrt : (⟨S50000, .f32⟩ : BufTy).Contents (Elt F) → (⟨S50000, .f32⟩ : BufTy).Contents (Elt F)),
    StableHlo.nullary main_c_10 (constantI S_ 32 0#32),
    StableHlo.unary main_c_10 main_v60 (broadcastInDim S1600000 ![] bcast_S_S1600000 : (⟨S_, .i32⟩ : BufTy).Contents (Elt F) → (⟨S1600000, .i32⟩ : BufTy).Contents (Elt F)),
    StableHlo.binary main_v1 main_v60 main_v61 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 50000#32),
    StableHlo.unary main_c_11 main_v62 (broadcastInDim S1600000 ![] bcast_S_S1600000 : (⟨S_, .i32⟩ : BufTy).Contents (Elt F) → (⟨S1600000, .i32⟩ : BufTy).Contents (Elt F)),
    StableHlo.binary main_v1 main_v62 main_v63 (addi : (⟨S1600000, .i32⟩ : BufTy).Contents (Elt F) → (⟨S1600000, .i32⟩ : BufTy).Contents (Elt F) → (⟨S1600000, .i32⟩ : BufTy).Contents (Elt F)),
    StableHlo.ternary main_v61 main_v63 main_v1 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v64 main_v65 (broadcastInDim S1600000x1 ![0] bcast_S1600000_S1600000x1_0 : (⟨S1600000, .i32⟩ : BufTy).Contents (Elt F) → (⟨S1600000x1, .i32⟩ : BufTy).Contents (Elt F)),
    StableHlo.binary main_v59 main_v65 main_v66 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_12 (constantI S_ 32 0#32),
    StableHlo.unary main_c_12 main_v67 (broadcastInDim S1600000 ![] bcast_S_S1600000 : (⟨S_, .i32⟩ : BufTy).Contents (Elt F) → (⟨S1600000, .i32⟩ : BufTy).Contents (Elt F)),
    StableHlo.binary main_v3 main_v67 main_v68 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 50000#32),
    StableHlo.unary main_c_13 main_v69 (broadcastInDim S1600000 ![] bcast_S_S1600000 : (⟨S_, .i32⟩ : BufTy).Contents (Elt F) → (⟨S1600000, .i32⟩ : BufTy).Contents (Elt F)),
    StableHlo.binary main_v3 main_v69 main_v70 (addi : (⟨S1600000, .i32⟩ : BufTy).Contents (Elt F) → (⟨S1600000, .i32⟩ : BufTy).Contents (Elt F) → (⟨S1600000, .i32⟩ : BufTy).Contents (Elt F)),
    StableHlo.ternary main_v68 main_v70 main_v3 main_v71 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v71 main_v72 (broadcastInDim S1600000x1 ![0] bcast_S1600000_S1600000x1_0 : (⟨S1600000, .i32⟩ : BufTy).Contents (Elt F) → (⟨S1600000x1, .i32⟩ : BufTy).Contents (Elt F)),
    StableHlo.binary main_v59 main_v72 main_v73 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v66 main_v73 main_v74 (mulf : (⟨S1600000, .f32⟩ : BufTy).Contents (Elt F) → (⟨S1600000, .f32⟩ : BufTy).Contents (Elt F) → (⟨S1600000, .f32⟩ : BufTy).Contents (Elt F)),
    StableHlo.binary main_v74 main_v48 main_v75 (mulf : (⟨S1600000, .f32⟩ : BufTy).Contents (Elt F) → (⟨S1600000, .f32⟩ : BufTy).Contents (Elt F) → (⟨S1600000, .f32⟩ : BufTy).Contents (Elt F)),
    StableHlo.unary main_v75 main_v76 (broadcastInDim S1600000x1 ![0] bcast_S1600000_S1600000x1_0 : (⟨S1600000, .f32⟩ : BufTy).Contents (Elt F) → (⟨S1600000x1, .f32⟩ : BufTy).Contents (Elt F)),
    StableHlo.nullary main_c_14 (constantI S_ 32 0#32),
    StableHlo.unary main_c_14 main_v77 (broadcastInDim S1600000 ![] bcast_S_S1600000 : (⟨S_, .i32⟩ : BufTy).Contents (Elt F) → (⟨S1600000, .i32⟩ : BufTy).Contents (Elt F)),
    StableHlo.binary main_v1 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v79 (broadcastInDim S1600000 ![] bcast_S_S1600000 : (⟨S_, .i32⟩ : BufTy).Contents (Elt F) → (⟨S1600000, .i32⟩ : BufTy).Contents (Elt F)),
    StableHlo.binary main_v1 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_v53 main_v82 main_v83 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v76 main_v84 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v84 main_v83 main_v85 (mulf : (⟨S1600000x128, .f32⟩ : BufTy).Contents (Elt F) → (⟨S1600000x128, .f32⟩ : BufTy).Contents (Elt F) → (⟨S1600000x128, .f32⟩ : BufTy).Contents (Elt F)),
    StableHlo.nullary main_cst_16 (constant S_ .f32 0x00000000#32),
    StableHlo.unary main_cst_16 main_v86 (broadcastInDim S50000x128 ![] bcast_S_S50000x128 : (⟨S_, .f32⟩ : BufTy).Contents (Elt F) → (⟨S50000x128, .f32⟩ : BufTy).Contents (Elt F)),
    StableHlo.unary main_v3 main_v87 (broadcastInDim S1600000x1 ![0] bcast_S1600000_S1600000x1_0 : (⟨S1600000, .i32⟩ : BufTy).Contents (Elt F) → (⟨S1600000x1, .i32⟩ : BufTy).Contents (Elt F)),
    StableHlo.ternary main_v86 main_v87 main_v85 main_v88 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.binary main_v59 main_v59 main_v89 (mulf : (⟨S50000, .f32⟩ : BufTy).Contents (Elt F) → (⟨S50000, .f32⟩ : BufTy).Contents (Elt F) → (⟨S50000, .f32⟩ : BufTy).Contents (Elt F)),
    StableHlo.unary main_v89 main_v90 (broadcastInDim S50000x1 ![0] bcast_S50000_S50000x1_0 : (⟨S50000, .f32⟩ : BufTy).Contents (Elt F) → (⟨S50000x1, .f32⟩ : BufTy).Contents (Elt F)),
    StableHlo.unary main_v90 main_v91 (broadcastInDim S50000x128 ![0, 1] bcast_S50000x1_S50000x128_0_1 : (⟨S50000x1, .f32⟩ : BufTy).Contents (Elt F) → (⟨S50000x128, .f32⟩ : BufTy).Contents (Elt F)),
    StableHlo.binary main_v91 main_v53 main_v92 (mulf : (⟨S50000x128, .f32⟩ : BufTy).Contents (Elt F) → (⟨S50000x128, .f32⟩ : BufTy).Contents (Elt F) → (⟨S50000x128, .f32⟩ : BufTy).Contents (Elt F)),
    StableHlo.binary main_v88 main_v92 main_v93 (addf : (⟨S50000x128, .f32⟩ : BufTy).Contents (Elt F) → (⟨S50000x128, .f32⟩ : BufTy).Contents (Elt F) → (⟨S50000x128, .f32⟩ : BufTy).Contents (Elt F)),
    StableHlo.unary main_v52 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v96) main_call3.v0 main_call3.v1 maximumf,
    StableHlo.unary main_arg8 main_v98 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v98 main_v99 rfl shapeCasts_S1x128x128_S128x128,
    StableHlo.unary main_arg9 main_v100 ((extractStridedSlice S1x128 ![1, 0] · slices_S2x128_S1x128_1_0) : (⟨S2x128, .f32⟩ : BufTy).Contents (Elt F) → (⟨S1x128, .f32⟩ : BufTy).Contents (Elt F)) ]

/-- Statements of window 2 of @main (62 operations). -/
abbrev ops2 : List (HloOp τ sig (Elt F)) :=
  [ StableHlo.reshape main_v100 main_v101 rfl shapeCasts_S1x128_S128,
    StableHlo.binary main_v97 main_v99 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_17 (constant S_ .f32 0x00000000#32),
    StableHlo.unary main_cst_17 main_v103 (broadcastInDim S50000 ![] bcast_S_S50000 : (⟨S_, .f32⟩ : BufTy).Contents (Elt F) → (⟨S50000, .f32⟩ : BufTy).Contents (Elt F)),
    StableHlo.unary main_v3 main_v104 (broadcastInDim S1600000x1 ![0] bcast_S1600000_S1600000x1_0 : (⟨S1600000, .i32⟩ : BufTy).Contents (Elt F) → (⟨S1600000x1, .i32⟩ : BufTy).Contents (Elt F)),
    StableHlo.ternary main_v103 main_v104 main_v48 main_v105 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_18 (constant S_ .f32 0x3F800000#32),
    StableHlo.unary main_cst_18 main_v106 (broadcastInDim S50000 ![] bcast_S_S50000 : (⟨S_, .f32⟩ : BufTy).Contents (Elt F) → (⟨S50000, .f32⟩ : BufTy).Contents (Elt F)),
    StableHlo.binary main_v105 main_v106 main_v107 (addf : (⟨S50000, .f32⟩ : BufTy).Contents (Elt F) → (⟨S50000, .f32⟩ : BufTy).Contents (Elt F) → (⟨S50000, .f32⟩ : BufTy).Contents (Elt F)),
    StableHlo.unary main_v107 main_v108 (Host.rsqrt : (⟨S50000, .f32⟩ : BufTy).Contents (Elt F) → (⟨S50000, .f32⟩ : BufTy).Contents (Elt F)),
    StableHlo.nullary main_c_19 (constantI S_ 32 0#32),
    StableHlo.unary main_c_19 main_v109 (broadcastInDim S1600000 ![] bcast_S_S1600000 : (⟨S_, .i32⟩ : BufTy).Contents (Elt F) → (⟨S1600000, .i32⟩ : BufTy).Contents (Elt F)),
    StableHlo.binary main_v1 main_v109 main_v110 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 50000#32),
    StableHlo.unary main_c_20 main_v111 (broadcastInDim S1600000 ![] bcast_S_S1600000 : (⟨S_, .i32⟩ : BufTy).Contents (Elt F) → (⟨S1600000, .i32⟩ : BufTy).Contents (Elt F)),
    StableHlo.binary main_v1 main_v111 main_v112 (addi : (⟨S1600000, .i32⟩ : BufTy).Contents (Elt F) → (⟨S1600000, .i32⟩ : BufTy).Contents (Elt F) → (⟨S1600000, .i32⟩ : BufTy).Contents (Elt F)),
    StableHlo.ternary main_v110 main_v112 main_v1 main_v113 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v113 main_v114 (broadcastInDim S1600000x1 ![0] bcast_S1600000_S1600000x1_0 : (⟨S1600000, .i32⟩ : BufTy).Contents (Elt F) → (⟨S1600000x1, .i32⟩ : BufTy).Contents (Elt F)),
    StableHlo.binary main_v108 main_v114 main_v115 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_21 (constantI S_ 32 0#32),
    StableHlo.unary main_c_21 main_v116 (broadcastInDim S1600000 ![] bcast_S_S1600000 : (⟨S_, .i32⟩ : BufTy).Contents (Elt F) → (⟨S1600000, .i32⟩ : BufTy).Contents (Elt F)),
    StableHlo.binary main_v3 main_v116 main_v117 (cmpi .slt : (⟨S1600000, .i32⟩ : BufTy).Contents (Elt F) → (⟨S1600000, .i32⟩ : BufTy).Contents (Elt F) → (⟨S1600000, .i1⟩ : BufTy).Contents (Elt F)),
    StableHlo.nullary main_c_22 (constantI S_ 32 50000#32),
    StableHlo.unary main_c_22 main_v118 (broadcastInDim S1600000 ![] bcast_S_S1600000 : (⟨S_, .i32⟩ : BufTy).Contents (Elt F) → (⟨S1600000, .i32⟩ : BufTy).Contents (Elt F)),
    StableHlo.binary main_v3 main_v118 main_v119 (addi : (⟨S1600000, .i32⟩ : BufTy).Contents (Elt F) → (⟨S1600000, .i32⟩ : BufTy).Contents (Elt F) → (⟨S1600000, .i32⟩ : BufTy).Contents (Elt F)),
    StableHlo.ternary main_v117 main_v119 main_v3 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v120 main_v121 (broadcastInDim S1600000x1 ![0] bcast_S1600000_S1600000x1_0 : (⟨S1600000, .i32⟩ : BufTy).Contents (Elt F) → (⟨S1600000x1, .i32⟩ : BufTy).Contents (Elt F)),
    StableHlo.binary main_v108 main_v121 main_v122 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v115 main_v122 main_v123 (mulf : (⟨S1600000, .f32⟩ : BufTy).Contents (Elt F) → (⟨S1600000, .f32⟩ : BufTy).Contents (Elt F) → (⟨S1600000, .f32⟩ : BufTy).Contents (Elt F)),
    StableHlo.binary main_v123 main_v48 main_v124 (mulf : (⟨S1600000, .f32⟩ : BufTy).Contents (Elt F) → (⟨S1600000, .f32⟩ : BufTy).Contents (Elt F) → (⟨S1600000, .f32⟩ : BufTy).Contents (Elt F)),
    StableHlo.unary main_v124 main_v125 (broadcastInDim S1600000x1 ![0] bcast_S1600000_S1600000x1_0 : (⟨S1600000, .f32⟩ : BufTy).Contents (Elt F) → (⟨S1600000x1, .f32⟩ : BufTy).Contents (Elt F)),
    StableHlo.nullary main_c_23 (constantI S_ 32 0#32),
    StableHlo.unary main_c_23 main_v126 (broadcastInDim S1600000 ![] bcast_S_S1600000 : (⟨S_, .i32⟩ : BufTy).Contents (Elt F) → (⟨S1600000, .i32⟩ : BufTy).Contents (Elt F)),
    StableHlo.binary main_v1 main_v126 main_v127 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 50000#32),
    StableHlo.unary main_c_24 main_v128 (broadcastInDim S1600000 ![] bcast_S_S1600000 : (⟨S_, .i32⟩ : BufTy).Contents (Elt F) → (⟨S1600000, .i32⟩ : BufTy).Contents (Elt F)),
    StableHlo.binary main_v1 main_v128 main_v129 (addi : (⟨S1600000, .i32⟩ : BufTy).Contents (Elt F) → (⟨S1600000, .i32⟩ : BufTy).Contents (Elt F) → (⟨S1600000, .i32⟩ : BufTy).Contents (Elt F)),
    StableHlo.ternary main_v127 main_v129 main_v1 main_v130 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v130 main_v131 (broadcastInDim S1600000x1 ![0] bcast_S1600000_S1600000x1_0 : (⟨S1600000, .i32⟩ : BufTy).Contents (Elt F) → (⟨S1600000x1, .i32⟩ : BufTy).Contents (Elt F)),
    StableHlo.binary main_v102 main_v131 main_v132 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v125 main_v133 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v133 main_v132 main_v134 (mulf : (⟨S1600000x128, .f32⟩ : BufTy).Contents (Elt F) → (⟨S1600000x128, .f32⟩ : BufTy).Contents (Elt F) → (⟨S1600000x128, .f32⟩ : BufTy).Contents (Elt F)),
    StableHlo.nullary main_cst_25 (constant S_ .f32 0x00000000#32),
    StableHlo.unary main_cst_25 main_v135 (broadcastInDim S50000x128 ![] bcast_S_S50000x128 : (⟨S_, .f32⟩ : BufTy).Contents (Elt F) → (⟨S50000x128, .f32⟩ : BufTy).Contents (Elt F)),
    StableHlo.unary main_v3 main_v136 (broadcastInDim S1600000x1 ![0] bcast_S1600000_S1600000x1_0 : (⟨S1600000, .i32⟩ : BufTy).Contents (Elt F) → (⟨S1600000x1, .i32⟩ : BufTy).Contents (Elt F)),
    StableHlo.ternary main_v135 main_v136 main_v134 main_v137 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.binary main_v108 main_v108 main_v138 (mulf : (⟨S50000, .f32⟩ : BufTy).Contents (Elt F) → (⟨S50000, .f32⟩ : BufTy).Contents (Elt F) → (⟨S50000, .f32⟩ : BufTy).Contents (Elt F)),
    StableHlo.unary main_v138 main_v139 (broadcastInDim S50000x1 ![0] bcast_S50000_S50000x1_0 : (⟨S50000, .f32⟩ : BufTy).Contents (Elt F) → (⟨S50000x1, .f32⟩ : BufTy).Contents (Elt F)),
    StableHlo.unary main_v139 main_v140 (broadcastInDim S50000x128 ![0, 1] bcast_S50000x1_S50000x128_0_1 : (⟨S50000x1, .f32⟩ : BufTy).Contents (Elt F) → (⟨S50000x128, .f32⟩ : BufTy).Contents (Elt F)),
    StableHlo.binary main_v140 main_v102 main_v141 (mulf : (⟨S50000x128, .f32⟩ : BufTy).Contents (Elt F) → (⟨S50000x128, .f32⟩ : BufTy).Contents (Elt F) → (⟨S50000x128, .f32⟩ : BufTy).Contents (Elt F)),
    StableHlo.binary main_v137 main_v141 main_v142 (addf : (⟨S50000x128, .f32⟩ : BufTy).Contents (Elt F) → (⟨S50000x128, .f32⟩ : BufTy).Contents (Elt F) → (⟨S50000x128, .f32⟩ : BufTy).Contents (Elt F)),
    StableHlo.unary main_v101 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v144 main_v145 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v145) main_call4.v0 main_call4.v1 maximumf,
    StableHlo.nary ![main_v8, main_v97, main_v146] main_v147 (fun u => concatenate S50000x384 1 [⟨S50000x128, u 0⟩, ⟨S50000x128, u 1⟩, ⟨S50000x128, u 2⟩] concatenates_S50000x128_S50000x128_S50000x128_S50000x384_d1),
    StableHlo.binary main_v147 main_arg10 main_v148 ((fun l r => Host.dotGeneral dot_S50000x384_S384x1_S50000x1_1_0_0_1_n_n none l r) : (⟨S50000x384, .f32⟩ : BufTy).Contents (Elt F) → (⟨S384x1, .f32⟩ : BufTy).Contents (Elt F) → (⟨S50000x1, .f32⟩ : BufTy).Contents (Elt F)),
    StableHlo.unary main_arg11 main_v149 (broadcastInDim S1x1 ![1] bcast_S1_S1x1_1 : (⟨S1, .f32⟩ : BufTy).Contents (Elt F) → (⟨S1x1, .f32⟩ : BufTy).Contents (Elt F)),
    StableHlo.unary main_v149 main_v150 (broadcastInDim S50000x1 ![0, 1] bcast_S1x1_S50000x1_0_1 : (⟨S1x1, .f32⟩ : BufTy).Contents (Elt F) → (⟨S50000x1, .f32⟩ : BufTy).Contents (Elt F)),
    StableHlo.binary main_v148 main_v150 main_v151 (addf : (⟨S50000x1, .f32⟩ : BufTy).Contents (Elt F) → (⟨S50000x1, .f32⟩ : BufTy).Contents (Elt F) → (⟨S50000x1, .f32⟩ : BufTy).Contents (Elt F)) ]

/-- Statements of window 3 of @main (1 operations). -/
abbrev ops3 : List (HloOp τ sig (Elt F)) :=
  [ StableHlo.reshape main_v151 main_v152 rfl shapeCasts_S50000x1_S50000 ]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., binary_bufs_sub .., unary_bufs_sub .., binary_bufs_sub .., unary_bufs_sub .., unary_bufs_sub ..⟩

theorem ops1_sub : (ops1 : List (HloOp τ sig (Elt F))).Forall fun op => op.bufs ⊆ tcRefs τ sig :=
  ⟨reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub ..⟩

theorem ops2_sub : (ops2 : List (HloOp τ sig (Elt F))).Forall fun op => op.bufs ⊆ tcRefs τ sig :=
  ⟨reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nary_bufs_sub .., binary_bufs_sub .., unary_bufs_sub .., unary_bufs_sub .., binary_bufs_sub ..⟩

theorem ops3_sub : (ops3 : List (HloOp τ sig (Elt F))).Forall fun op => op.bufs ⊆ tcRefs τ sig :=
  reshape_bufs_sub ..

/-- Stretch A of @main (83 operations). -/
def segA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg3 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v7) main_call0.v0 main_call0.v1 maximumf,
    StableHlo.binary main_v8 main_arg4 main_v9 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S50000x64 ![0, 1] bcast_S1x64_S50000x64_0_1 : (⟨S1x64, .f32⟩ : BufTy).Contents (Elt F) → (⟨S50000x64, .f32⟩ : BufTy).Contents (Elt F)),
    StableHlo.binary main_v9 main_v11 main_v12 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v12) main_call1.v0 main_call1.v1 maximumf,
    StableHlo.binary main_v13 main_arg6 main_v14 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg7 main_v15 (broadcastInDim S1x1 ![1] bcast_S1_S1x1_1 : (⟨S1, .f32⟩ : BufTy).Contents (Elt F) → (⟨S1x1, .f32⟩ : BufTy).Contents (Elt F)),
    StableHlo.unary main_v15 main_v16 (broadcastInDim S50000x1 ![0, 1] bcast_S1x1_S50000x1_0_1 : (⟨S1x1, .f32⟩ : BufTy).Contents (Elt F) → (⟨S50000x1, .f32⟩ : BufTy).Contents (Elt F)),
    StableHlo.binary main_v14 main_v16 main_v17 (addf : (⟨S50000x1, .f32⟩ : BufTy).Contents (Elt F) → (⟨S50000x1, .f32⟩ : BufTy).Contents (Elt F) → (⟨S50000x1, .f32⟩ : BufTy).Contents (Elt F)),
    StableHlo.unary main_v17 main_v18 (Host.negf : (⟨S50000x1, .f32⟩ : BufTy).Contents (Elt F) → (⟨S50000x1, .f32⟩ : BufTy).Contents (Elt F)),
    StableHlo.unary main_v18 main_v19 (Host.exp : (⟨S50000x1, .f32⟩ : BufTy).Contents (Elt F) → (⟨S50000x1, .f32⟩ : BufTy).Contents (Elt F)),
    StableHlo.nullary main_cst (constant S_ .f32 0x3F800000#32),
    StableHlo.unary main_cst main_v20 (broadcastInDim S50000x1 ![] bcast_S_S50000x1 : (⟨S_, .f32⟩ : BufTy).Contents (Elt F) → (⟨S50000x1, .f32⟩ : BufTy).Contents (Elt F)),
    StableHlo.binary main_v20 main_v19 main_v21 (addf : (⟨S50000x1, .f32⟩ : BufTy).Contents (Elt F) → (⟨S50000x1, .f32⟩ : BufTy).Contents (Elt F) → (⟨S50000x1, .f32⟩ : BufTy).Contents (Elt F)),
    StableHlo.nullary main_cst_0 (constant S_ .f32 0x3F800000#32),
    StableHlo.unary main_cst_0 main_v22 (broadcastInDim S50000x1 ![] bcast_S_S50000x1 : (⟨S_, .f32⟩ : BufTy).Contents (Elt F) → (⟨S50000x1, .f32⟩ : BufTy).Contents (Elt F)),
    StableHlo.binary main_v22 main_v21 main_v23 (Host.divf : (⟨S50000x1, .f32⟩ : BufTy).Contents (Elt F) → (⟨S50000x1, .f32⟩ : BufTy).Contents (Elt F) → (⟨S50000x1, .f32⟩ : BufTy).Contents (Elt F)),
    StableHlo.reshape main_v23 main_v24 rfl shapeCasts_S50000x1_S50000,
    StableHlo.nullary main_c (constantI S_ 32 0#32),
    StableHlo.unary main_c main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 50000#32),
    StableHlo.unary main_c_1 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_2 (constantI S_ 32 0#32),
    StableHlo.unary main_c_2 main_v32 (broadcastInDim S1600000 ![] bcast_S_S1600000 : (⟨S_, .i32⟩ : BufTy).Contents (Elt F) → (⟨S1600000, .i32⟩ : BufTy).Contents (Elt F)),
    StableHlo.binary main_v3 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 50000#32),
    StableHlo.unary main_c_3 main_v34 (broadcastInDim S1600000 ![] bcast_S_S1600000 : (⟨S_, .i32⟩ : BufTy).Contents (Elt F) → (⟨S1600000, .i32⟩ : BufTy).Contents (Elt F)),
    StableHlo.binary main_v3 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_v3 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v24 main_v37 main_v38 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v31 main_v38 main_v39 (addf : (⟨S1600000, .f32⟩ : BufTy).Contents (Elt F) → (⟨S1600000, .f32⟩ : BufTy).Contents (Elt F) → (⟨S1600000, .f32⟩ : BufTy).Contents (Elt F)),
    StableHlo.nullary main_cst_4 (constant S_ .f32 0x3F000000#32),
    StableHlo.unary main_cst_4 main_v40 (broadcastInDim S1600000 ![] bcast_S_S1600000 : (⟨S_, .f32⟩ : BufTy).Contents (Elt F) → (⟨S1600000, .f32⟩ : BufTy).Contents (Elt F)),
    StableHlo.binary main_v39 main_v40 main_v41 (mulf : (⟨S1600000, .f32⟩ : BufTy).Contents (Elt F) → (⟨S1600000, .f32⟩ : BufTy).Contents (Elt F) → (⟨S1600000, .f32⟩ : BufTy).Contents (Elt F)),
    StableHlo.nullary main_cst_5 (constant S_ .f32 0x00000000#32),
    StableHlo.binary main_v41 main_cst_5 main_v42 ((fun x v => Host.reduceAdd x v reducesTo_S1600000_S_d0 h_S_) : (⟨S1600000, .f32⟩ : BufTy).Contents (Elt F) → (⟨S_, .f32⟩ : BufTy).Contents (Elt F) → (⟨S_, .f32⟩ : BufTy).Contents (Elt F)),
    StableHlo.nullary main_cst_6 (constant S_ .f32 0x49C35000#32),
    StableHlo.binary main_v42 main_cst_6 main_v43 (Host.divf : (⟨S_, .f32⟩ : BufTy).Contents (Elt F) → (⟨S_, .f32⟩ : BufTy).Contents (Elt F) → (⟨S_, .f32⟩ : BufTy).Contents (Elt F)),
    StableHlo.nullary main_c_7 (constantI S_ 32 1#32),
    StableHlo.TRef.nullary main_call2.call0.cst (constant S_ .f32 0x00000000#32),
    StableHlo.TRef.binary (.of main_v41) main_call2.call0.cst main_call2.call0.v0 (fun x v => Host.reduceAdd x v reducesTo_S1600000_S_d0 h_S_),
    StableHlo.TRef.unary main_call2.call0.v0 main_call2.call0.v1 (broadcastInDim S1 ![] bcast_S_S1),
    StableHlo.TRef.nullary main_call2.call0.cst_0 (constant S_ .f32 0x49C35000#32),
    StableHlo.TRef.unary main_call2.call0.cst_0 main_call2.call0.v2 (broadcastInDim S1 ![] bcast_S_S1),
    StableHlo.TRef.binary main_call2.call0.v1 main_call2.call0.v2 main_call2.call0.v3 Host.divf,
    StableHlo.TRef.unary main_call2.call0.v3 main_call2.call0.v4 (broadcastInDim S1600000 ![0] bcast_S1_S1600000_0),
    StableHlo.TRef.binary (.of main_v41) main_call2.call0.v4 main_call2.call0.v5 subf,
    StableHlo.TRef.binary main_call2.call0.v5 main_call2.call0.v5 main_call2.call0.v6 mulf,
    StableHlo.TRef.unary (.of main_c_7) main_call2.call0.v7 (sitofp .f32),
    StableHlo.TRef.nullary main_call2.call0.cst_1 (constant S_ .f32 0x49C35000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S1600000_S_d0 h_S_),
    StableHlo.TRef.binary main_call2.call0.v9 main_call2.call0.v8 main_call2.call0.v10 Host.divf,
    StableHlo.TRef.nullary main_call2.call0.cst_3 (constant S_ .f32 0x00000000#32),
    StableHlo.TRef.binary main_call2.call0.v8 main_call2.call0.cst_3 main_call2.call0.v11 (cmpf .ogt),
    StableHlo.TRef.nullary main_call2.call0.cst_4 (constant S_ .f32 0x7FC00000#32),
    StableHlo.TRef.unary main_call2.call0.cst_4 main_call2.call0.call0.v0 id,
    StableHlo.TRef.ternary main_call2.call0.v11 main_call2.call0.v10 main_call2.call0.call0.v0 main_call2.call0.call0.v1 select,
    StableHlo.TRef.unary main_call2.call0.call0.v1 main_call2.v1 Host.sqrt,
    StableHlo.binary main_v43 main_v44 main_v45 (addf : (⟨S_, .f32⟩ : BufTy).Contents (Elt F) → (⟨S_, .f32⟩ : BufTy).Contents (Elt F) → (⟨S_, .f32⟩ : BufTy).Contents (Elt F)),
    StableHlo.unary main_v45 main_v46 (broadcastInDim S1600000 ![] bcast_S_S1600000 : (⟨S_, .f32⟩ : BufTy).Contents (Elt F) → (⟨S1600000, .f32⟩ : BufTy).Contents (Elt F)),
    StableHlo.binary main_v41 main_v46 main_v47 (cmpf .ogt : (⟨S1600000, .f32⟩ : BufTy).Contents (Elt F) → (⟨S1600000, .f32⟩ : BufTy).Contents (Elt F) → (⟨S1600000, .i1⟩ : BufTy).Contents (Elt F)),
    StableHlo.unary main_v47 main_v48 (uitofp .f32 : (⟨S1600000, .i1⟩ : BufTy).Contents (Elt F) → (⟨S1600000, .f32⟩ : BufTy).Contents (Elt F)) ]

/-- Stretch B of @main (60 operations). -/
def segB : List (HloOp τ sig (Elt F)) :=
  [ StableHlo.unary main_arg8 main_v49 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v49 main_v50 rfl shapeCasts_S1x128x128_S128x128,
    StableHlo.unary main_arg9 main_v51 ((extractStridedSlice S1x128 ![0, 0] · slices_S2x128_S1x128_0_0) : (⟨S2x128, .f32⟩ : BufTy).Contents (Elt F) → (⟨S1x128, .f32⟩ : BufTy).Contents (Elt F)),
    StableHlo.reshape main_v51 main_v52 rfl shapeCasts_S1x128_S128,
    StableHlo.binary main_v8 main_v50 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_8 (constant S_ .f32 0x00000000#32),
    StableHlo.unary main_cst_8 main_v54 (broadcastInDim S50000 ![] bcast_S_S50000 : (⟨S_, .f32⟩ : BufTy).Contents (Elt F) → (⟨S50000, .f32⟩ : BufTy).Contents (Elt F)),
    StableHlo.unary main_v3 main_v55 (broadcastInDim S1600000x1 ![0] bcast_S1600000_S1600000x1_0 : (⟨S1600000, .i32⟩ : BufTy).Contents (Elt F) → (⟨S1600000x1, .i32⟩ : BufTy).Contents (Elt F)),
    StableHlo.ternary main_v54 main_v55 main_v48 main_v56 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_9 (constant S_ .f32 0x3F800000#32),
    StableHlo.unary main_cst_9 main_v57 (broadcastInDim S50000 ![] bcast_S_S50000 : (⟨S_, .f32⟩ : BufTy).Contents (Elt F) → (⟨S50000, .f32⟩ : BufTy).Contents (Elt F)),
    StableHlo.binary main_v56 main_v57 main_v58 (addf : (⟨S50000, .f32⟩ : BufTy).Contents (Elt F) → (⟨S50000, .f32⟩ : BufTy).Contents (Elt F) → (⟨S50000, .f32⟩ : BufTy).Contents (Elt F)),
    StableHlo.unary main_v58 main_v59 (Host.rsqrt : (⟨S50000, .f32⟩ : BufTy).Contents (Elt F) → (⟨S50000, .f32⟩ : BufTy).Contents (Elt F)),
    StableHlo.nullary main_c_10 (constantI S_ 32 0#32),
    StableHlo.unary main_c_10 main_v60 (broadcastInDim S1600000 ![] bcast_S_S1600000 : (⟨S_, .i32⟩ : BufTy).Contents (Elt F) → (⟨S1600000, .i32⟩ : BufTy).Contents (Elt F)),
    StableHlo.binary main_v1 main_v60 main_v61 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 50000#32),
    StableHlo.unary main_c_11 main_v62 (broadcastInDim S1600000 ![] bcast_S_S1600000 : (⟨S_, .i32⟩ : BufTy).Contents (Elt F) → (⟨S1600000, .i32⟩ : BufTy).Contents (Elt F)),
    StableHlo.binary main_v1 main_v62 main_v63 (addi : (⟨S1600000, .i32⟩ : BufTy).Contents (Elt F) → (⟨S1600000, .i32⟩ : BufTy).Contents (Elt F) → (⟨S1600000, .i32⟩ : BufTy).Contents (Elt F)),
    StableHlo.ternary main_v61 main_v63 main_v1 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v64 main_v65 (broadcastInDim S1600000x1 ![0] bcast_S1600000_S1600000x1_0 : (⟨S1600000, .i32⟩ : BufTy).Contents (Elt F) → (⟨S1600000x1, .i32⟩ : BufTy).Contents (Elt F)),
    StableHlo.binary main_v59 main_v65 main_v66 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_12 (constantI S_ 32 0#32),
    StableHlo.unary main_c_12 main_v67 (broadcastInDim S1600000 ![] bcast_S_S1600000 : (⟨S_, .i32⟩ : BufTy).Contents (Elt F) → (⟨S1600000, .i32⟩ : BufTy).Contents (Elt F)),
    StableHlo.binary main_v3 main_v67 main_v68 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 50000#32),
    StableHlo.unary main_c_13 main_v69 (broadcastInDim S1600000 ![] bcast_S_S1600000 : (⟨S_, .i32⟩ : BufTy).Contents (Elt F) → (⟨S1600000, .i32⟩ : BufTy).Contents (Elt F)),
    StableHlo.binary main_v3 main_v69 main_v70 (addi : (⟨S1600000, .i32⟩ : BufTy).Contents (Elt F) → (⟨S1600000, .i32⟩ : BufTy).Contents (Elt F) → (⟨S1600000, .i32⟩ : BufTy).Contents (Elt F)),
    StableHlo.ternary main_v68 main_v70 main_v3 main_v71 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v71 main_v72 (broadcastInDim S1600000x1 ![0] bcast_S1600000_S1600000x1_0 : (⟨S1600000, .i32⟩ : BufTy).Contents (Elt F) → (⟨S1600000x1, .i32⟩ : BufTy).Contents (Elt F)),
    StableHlo.binary main_v59 main_v72 main_v73 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v66 main_v73 main_v74 (mulf : (⟨S1600000, .f32⟩ : BufTy).Contents (Elt F) → (⟨S1600000, .f32⟩ : BufTy).Contents (Elt F) → (⟨S1600000, .f32⟩ : BufTy).Contents (Elt F)),
    StableHlo.binary main_v74 main_v48 main_v75 (mulf : (⟨S1600000, .f32⟩ : BufTy).Contents (Elt F) → (⟨S1600000, .f32⟩ : BufTy).Contents (Elt F) → (⟨S1600000, .f32⟩ : BufTy).Contents (Elt F)),
    StableHlo.unary main_v75 main_v76 (broadcastInDim S1600000x1 ![0] bcast_S1600000_S1600000x1_0 : (⟨S1600000, .f32⟩ : BufTy).Contents (Elt F) → (⟨S1600000x1, .f32⟩ : BufTy).Contents (Elt F)),
    StableHlo.nullary main_c_14 (constantI S_ 32 0#32),
    StableHlo.unary main_c_14 main_v77 (broadcastInDim S1600000 ![] bcast_S_S1600000 : (⟨S_, .i32⟩ : BufTy).Contents (Elt F) → (⟨S1600000, .i32⟩ : BufTy).Contents (Elt F)),
    StableHlo.binary main_v1 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v79 (broadcastInDim S1600000 ![] bcast_S_S1600000 : (⟨S_, .i32⟩ : BufTy).Contents (Elt F) → (⟨S1600000, .i32⟩ : BufTy).Contents (Elt F)),
    StableHlo.binary main_v1 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_v53 main_v82 main_v83 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v76 main_v84 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v84 main_v83 main_v85 (mulf : (⟨S1600000x128, .f32⟩ : BufTy).Contents (Elt F) → (⟨S1600000x128, .f32⟩ : BufTy).Contents (Elt F) → (⟨S1600000x128, .f32⟩ : BufTy).Contents (Elt F)),
    StableHlo.nullary main_cst_16 (constant S_ .f32 0x00000000#32),
    StableHlo.unary main_cst_16 main_v86 (broadcastInDim S50000x128 ![] bcast_S_S50000x128 : (⟨S_, .f32⟩ : BufTy).Contents (Elt F) → (⟨S50000x128, .f32⟩ : BufTy).Contents (Elt F)),
    StableHlo.unary main_v3 main_v87 (broadcastInDim S1600000x1 ![0] bcast_S1600000_S1600000x1_0 : (⟨S1600000, .i32⟩ : BufTy).Contents (Elt F) → (⟨S1600000x1, .i32⟩ : BufTy).Contents (Elt F)),
    StableHlo.ternary main_v86 main_v87 main_v85 main_v88 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.binary main_v59 main_v59 main_v89 (mulf : (⟨S50000, .f32⟩ : BufTy).Contents (Elt F) → (⟨S50000, .f32⟩ : BufTy).Contents (Elt F) → (⟨S50000, .f32⟩ : BufTy).Contents (Elt F)),
    StableHlo.unary main_v89 main_v90 (broadcastInDim S50000x1 ![0] bcast_S50000_S50000x1_0 : (⟨S50000, .f32⟩ : BufTy).Contents (Elt F) → (⟨S50000x1, .f32⟩ : BufTy).Contents (Elt F)),
    StableHlo.unary main_v90 main_v91 (broadcastInDim S50000x128 ![0, 1] bcast_S50000x1_S50000x128_0_1 : (⟨S50000x1, .f32⟩ : BufTy).Contents (Elt F) → (⟨S50000x128, .f32⟩ : BufTy).Contents (Elt F)),
    StableHlo.binary main_v91 main_v53 main_v92 (mulf : (⟨S50000x128, .f32⟩ : BufTy).Contents (Elt F) → (⟨S50000x128, .f32⟩ : BufTy).Contents (Elt F) → (⟨S50000x128, .f32⟩ : BufTy).Contents (Elt F)),
    StableHlo.binary main_v88 main_v92 main_v93 (addf : (⟨S50000x128, .f32⟩ : BufTy).Contents (Elt F) → (⟨S50000x128, .f32⟩ : BufTy).Contents (Elt F) → (⟨S50000x128, .f32⟩ : BufTy).Contents (Elt F)),
    StableHlo.unary main_v52 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v96) main_call3.v0 main_call3.v1 maximumf ]

/-- Stretch C of @main (60 operations). -/
def segC : List (HloOp τ sig (Elt F)) :=
  [ StableHlo.unary main_arg8 main_v98 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v98 main_v99 rfl shapeCasts_S1x128x128_S128x128,
    StableHlo.unary main_arg9 main_v100 ((extractStridedSlice S1x128 ![1, 0] · slices_S2x128_S1x128_1_0) : (⟨S2x128, .f32⟩ : BufTy).Contents (Elt F) → (⟨S1x128, .f32⟩ : BufTy).Contents (Elt F)),
    StableHlo.reshape main_v100 main_v101 rfl shapeCasts_S1x128_S128,
    StableHlo.binary main_v97 main_v99 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_17 (constant S_ .f32 0x00000000#32),
    StableHlo.unary main_cst_17 main_v103 (broadcastInDim S50000 ![] bcast_S_S50000 : (⟨S_, .f32⟩ : BufTy).Contents (Elt F) → (⟨S50000, .f32⟩ : BufTy).Contents (Elt F)),
    StableHlo.unary main_v3 main_v104 (broadcastInDim S1600000x1 ![0] bcast_S1600000_S1600000x1_0 : (⟨S1600000, .i32⟩ : BufTy).Contents (Elt F) → (⟨S1600000x1, .i32⟩ : BufTy).Contents (Elt F)),
    StableHlo.ternary main_v103 main_v104 main_v48 main_v105 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_18 (constant S_ .f32 0x3F800000#32),
    StableHlo.unary main_cst_18 main_v106 (broadcastInDim S50000 ![] bcast_S_S50000 : (⟨S_, .f32⟩ : BufTy).Contents (Elt F) → (⟨S50000, .f32⟩ : BufTy).Contents (Elt F)),
    StableHlo.binary main_v105 main_v106 main_v107 (addf : (⟨S50000, .f32⟩ : BufTy).Contents (Elt F) → (⟨S50000, .f32⟩ : BufTy).Contents (Elt F) → (⟨S50000, .f32⟩ : BufTy).Contents (Elt F)),
    StableHlo.unary main_v107 main_v108 (Host.rsqrt : (⟨S50000, .f32⟩ : BufTy).Contents (Elt F) → (⟨S50000, .f32⟩ : BufTy).Contents (Elt F)),
    StableHlo.nullary main_c_19 (constantI S_ 32 0#32),
    StableHlo.unary main_c_19 main_v109 (broadcastInDim S1600000 ![] bcast_S_S1600000 : (⟨S_, .i32⟩ : BufTy).Contents (Elt F) → (⟨S1600000, .i32⟩ : BufTy).Contents (Elt F)),
    StableHlo.binary main_v1 main_v109 main_v110 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 50000#32),
    StableHlo.unary main_c_20 main_v111 (broadcastInDim S1600000 ![] bcast_S_S1600000 : (⟨S_, .i32⟩ : BufTy).Contents (Elt F) → (⟨S1600000, .i32⟩ : BufTy).Contents (Elt F)),
    StableHlo.binary main_v1 main_v111 main_v112 (addi : (⟨S1600000, .i32⟩ : BufTy).Contents (Elt F) → (⟨S1600000, .i32⟩ : BufTy).Contents (Elt F) → (⟨S1600000, .i32⟩ : BufTy).Contents (Elt F)),
    StableHlo.ternary main_v110 main_v112 main_v1 main_v113 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v113 main_v114 (broadcastInDim S1600000x1 ![0] bcast_S1600000_S1600000x1_0 : (⟨S1600000, .i32⟩ : BufTy).Contents (Elt F) → (⟨S1600000x1, .i32⟩ : BufTy).Contents (Elt F)),
    StableHlo.binary main_v108 main_v114 main_v115 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_21 (constantI S_ 32 0#32),
    StableHlo.unary main_c_21 main_v116 (broadcastInDim S1600000 ![] bcast_S_S1600000 : (⟨S_, .i32⟩ : BufTy).Contents (Elt F) → (⟨S1600000, .i32⟩ : BufTy).Contents (Elt F)),
    StableHlo.binary main_v3 main_v116 main_v117 (cmpi .slt : (⟨S1600000, .i32⟩ : BufTy).Contents (Elt F) → (⟨S1600000, .i32⟩ : BufTy).Contents (Elt F) → (⟨S1600000, .i1⟩ : BufTy).Contents (Elt F)),
    StableHlo.nullary main_c_22 (constantI S_ 32 50000#32),
    StableHlo.unary main_c_22 main_v118 (broadcastInDim S1600000 ![] bcast_S_S1600000 : (⟨S_, .i32⟩ : BufTy).Contents (Elt F) → (⟨S1600000, .i32⟩ : BufTy).Contents (Elt F)),
    StableHlo.binary main_v3 main_v118 main_v119 (addi : (⟨S1600000, .i32⟩ : BufTy).Contents (Elt F) → (⟨S1600000, .i32⟩ : BufTy).Contents (Elt F) → (⟨S1600000, .i32⟩ : BufTy).Contents (Elt F)),
    StableHlo.ternary main_v117 main_v119 main_v3 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v120 main_v121 (broadcastInDim S1600000x1 ![0] bcast_S1600000_S1600000x1_0 : (⟨S1600000, .i32⟩ : BufTy).Contents (Elt F) → (⟨S1600000x1, .i32⟩ : BufTy).Contents (Elt F)),
    StableHlo.binary main_v108 main_v121 main_v122 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v115 main_v122 main_v123 (mulf : (⟨S1600000, .f32⟩ : BufTy).Contents (Elt F) → (⟨S1600000, .f32⟩ : BufTy).Contents (Elt F) → (⟨S1600000, .f32⟩ : BufTy).Contents (Elt F)),
    StableHlo.binary main_v123 main_v48 main_v124 (mulf : (⟨S1600000, .f32⟩ : BufTy).Contents (Elt F) → (⟨S1600000, .f32⟩ : BufTy).Contents (Elt F) → (⟨S1600000, .f32⟩ : BufTy).Contents (Elt F)),
    StableHlo.unary main_v124 main_v125 (broadcastInDim S1600000x1 ![0] bcast_S1600000_S1600000x1_0 : (⟨S1600000, .f32⟩ : BufTy).Contents (Elt F) → (⟨S1600000x1, .f32⟩ : BufTy).Contents (Elt F)),
    StableHlo.nullary main_c_23 (constantI S_ 32 0#32),
    StableHlo.unary main_c_23 main_v126 (broadcastInDim S1600000 ![] bcast_S_S1600000 : (⟨S_, .i32⟩ : BufTy).Contents (Elt F) → (⟨S1600000, .i32⟩ : BufTy).Contents (Elt F)),
    StableHlo.binary main_v1 main_v126 main_v127 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 50000#32),
    StableHlo.unary main_c_24 main_v128 (broadcastInDim S1600000 ![] bcast_S_S1600000 : (⟨S_, .i32⟩ : BufTy).Contents (Elt F) → (⟨S1600000, .i32⟩ : BufTy).Contents (Elt F)),
    StableHlo.binary main_v1 main_v128 main_v129 (addi : (⟨S1600000, .i32⟩ : BufTy).Contents (Elt F) → (⟨S1600000, .i32⟩ : BufTy).Contents (Elt F) → (⟨S1600000, .i32⟩ : BufTy).Contents (Elt F)),
    StableHlo.ternary main_v127 main_v129 main_v1 main_v130 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v130 main_v131 (broadcastInDim S1600000x1 ![0] bcast_S1600000_S1600000x1_0 : (⟨S1600000, .i32⟩ : BufTy).Contents (Elt F) → (⟨S1600000x1, .i32⟩ : BufTy).Contents (Elt F)),
    StableHlo.binary main_v102 main_v131 main_v132 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v125 main_v133 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v133 main_v132 main_v134 (mulf : (⟨S1600000x128, .f32⟩ : BufTy).Contents (Elt F) → (⟨S1600000x128, .f32⟩ : BufTy).Contents (Elt F) → (⟨S1600000x128, .f32⟩ : BufTy).Contents (Elt F)),
    StableHlo.nullary main_cst_25 (constant S_ .f32 0x00000000#32),
    StableHlo.unary main_cst_25 main_v135 (broadcastInDim S50000x128 ![] bcast_S_S50000x128 : (⟨S_, .f32⟩ : BufTy).Contents (Elt F) → (⟨S50000x128, .f32⟩ : BufTy).Contents (Elt F)),
    StableHlo.unary main_v3 main_v136 (broadcastInDim S1600000x1 ![0] bcast_S1600000_S1600000x1_0 : (⟨S1600000, .i32⟩ : BufTy).Contents (Elt F) → (⟨S1600000x1, .i32⟩ : BufTy).Contents (Elt F)),
    StableHlo.ternary main_v135 main_v136 main_v134 main_v137 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.binary main_v108 main_v108 main_v138 (mulf : (⟨S50000, .f32⟩ : BufTy).Contents (Elt F) → (⟨S50000, .f32⟩ : BufTy).Contents (Elt F) → (⟨S50000, .f32⟩ : BufTy).Contents (Elt F)),
    StableHlo.unary main_v138 main_v139 (broadcastInDim S50000x1 ![0] bcast_S50000_S50000x1_0 : (⟨S50000, .f32⟩ : BufTy).Contents (Elt F) → (⟨S50000x1, .f32⟩ : BufTy).Contents (Elt F)),
    StableHlo.unary main_v139 main_v140 (broadcastInDim S50000x128 ![0, 1] bcast_S50000x1_S50000x128_0_1 : (⟨S50000x1, .f32⟩ : BufTy).Contents (Elt F) → (⟨S50000x128, .f32⟩ : BufTy).Contents (Elt F)),
    StableHlo.binary main_v140 main_v102 main_v141 (mulf : (⟨S50000x128, .f32⟩ : BufTy).Contents (Elt F) → (⟨S50000x128, .f32⟩ : BufTy).Contents (Elt F) → (⟨S50000x128, .f32⟩ : BufTy).Contents (Elt F)),
    StableHlo.binary main_v137 main_v141 main_v142 (addf : (⟨S50000x128, .f32⟩ : BufTy).Contents (Elt F) → (⟨S50000x128, .f32⟩ : BufTy).Contents (Elt F) → (⟨S50000x128, .f32⟩ : BufTy).Contents (Elt F)),
    StableHlo.unary main_v101 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v144 main_v145 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v145) main_call4.v0 main_call4.v1 maximumf ]

/-- Stretch D of @main (6 operations). -/
def segD : List (HloOp τ sig (Elt F)) :=
  [ StableHlo.nary ![main_v8, main_v97, main_v146] main_v147 (fun u => concatenate S50000x384 1 [⟨S50000x128, u 0⟩, ⟨S50000x128, u 1⟩, ⟨S50000x128, u 2⟩] concatenates_S50000x128_S50000x128_S50000x128_S50000x384_d1),
    StableHlo.binary main_v147 main_arg10 main_v148 ((fun l r => Host.dotGeneral dot_S50000x384_S384x1_S50000x1_1_0_0_1_n_n none l r) : (⟨S50000x384, .f32⟩ : BufTy).Contents (Elt F) → (⟨S384x1, .f32⟩ : BufTy).Contents (Elt F) → (⟨S50000x1, .f32⟩ : BufTy).Contents (Elt F)),
    StableHlo.unary main_arg11 main_v149 (broadcastInDim S1x1 ![1] bcast_S1_S1x1_1 : (⟨S1, .f32⟩ : BufTy).Contents (Elt F) → (⟨S1x1, .f32⟩ : BufTy).Contents (Elt F)),
    StableHlo.unary main_v149 main_v150 (broadcastInDim S50000x1 ![0, 1] bcast_S1x1_S50000x1_0_1 : (⟨S1x1, .f32⟩ : BufTy).Contents (Elt F) → (⟨S50000x1, .f32⟩ : BufTy).Contents (Elt F)),
    StableHlo.binary main_v148 main_v150 main_v151 (addf : (⟨S50000x1, .f32⟩ : BufTy).Contents (Elt F) → (⟨S50000x1, .f32⟩ : BufTy).Contents (Elt F) → (⟨S50000x1, .f32⟩ : BufTy).Contents (Elt F)),
    StableHlo.reshape main_v151 main_v152 rfl shapeCasts_S50000x1_S50000 ]

/-- The four windows one after the other are the four stretches one after the other: the same operations, cut elsewhere. -/
theorem windows_eq_stretches : (ops0 ++ (ops1 ++ (ops2 ++ ops3)) : List (HloOp τ sig (Elt F))) = segA ++ (segB ++ (segC ++ segD)) := rfl

end Cert.ReferenceIdeal.Ops

end
-- ==== Proof.RefRun.lean ====
/- The reference program runs as the straight line of its host operations: @main is that line (its four windows one after
   the other, each outlined function unfolded at its call), so every weakly fair execution terminates, without a fault, with
   every buffer at the fold of the operations over the launch contents. -/
import proofs.«155323_j59115929862451_1_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The whole of @main's operations: the four windows in order. -/
abbrev ops : List (HloOp τ sig (Elt F)) := ops0 ++ (ops1 ++ (ops2 ++ ops3))

/-- The fold over a concatenation is the fold over the second line from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The type of a host program of this module's signature. -/
abbrev PR (F : FTy → Type) [FloatOps F] : Type 1 :=
  Prog (TpuEff nD τ sig (Elt F) (Pipeline.Sig Λ₀ (Fin 0) fun p => (pcfgs (F := F) p).Adm) .tc) PUnit

set_option maxRecDepth 16384 in
theorem part0_eq (d : Dev nD) (k : PR F) : (main_part0 (F := F) d >>= fun _ => k) = (seq ops0 >>= fun _ => k) := by
  simp only [main_part0, fn_relu.body, fn_relu_0.body, fn_where.body, fn_var.body, fn_std.body, seq, bind_assoc, pure_bind]
  try rfl

set_option maxRecDepth 16384 in
theorem part1_eq (d : Dev nD) (k : PR F) : (main_part1 (F := F) d >>= fun _ => k) = (seq ops1 >>= fun _ => k) := by
  simp only [main_part1, fn_relu.body, fn_relu_0.body, fn_where.body, fn_var.body, fn_std.body, seq, bind_assoc, pure_bind]
  try rfl

set_option maxRecDepth 16384 in
theorem part2_eq (d : Dev nD) (k : PR F) : (main_part2 (F := F) d >>= fun _ => k) = (seq ops2 >>= fun _ => k) := by
  simp only [main_part2, fn_relu.body, fn_relu_0.body, fn_where.body, fn_var.body, fn_std.body, seq, bind_assoc, pure_bind]
  try rfl

set_option maxRecDepth 16384 in
theorem part3_eq (d : Dev nD) : main_part3 (F := F) d = seq ops3 := by
  simp only [main_part3, seq, bind_assoc, pure_bind]
  try rfl

theorem main_eq (d : Dev nD) : main (F := F) d = seq ops := by
  rw [seq_append, seq_append, seq_append]
  show (main_part0 d >>= fun _ => main_part1 d >>= fun _ => main_part2 d >>= fun _ => main_part3 d) = _
  rw [part0_eq, part1_eq, part2_eq, part3_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    · exact List.forall_iff_forall_mem.mp ops3_sub op h

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor

theorem ops_fresh : ∀ op ∈ (ops : List (HloOp τ sig (Elt F))), op.fresh = ∅ := fun op h => by
  rcases List.mem_append.mp h with h | h
  · exact List.forall_iff_forall_mem.mp ops0_fresh op h
  rcases List.mem_append.mp h with h | h
  · exact List.forall_iff_forall_mem.mp ops1_fresh op h
  rcases List.mem_append.mp h with h | h
  · exact List.forall_iff_forall_mem.mp ops2_fresh op h
  · exact List.forall_iff_forall_mem.mp ops3_fresh op h

/-- On every device, for any float values, from any memory with zero counters: every weakly fair execution of @main
    terminates, without a fault, with every buffer at the fold of the operations over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Ops

end
-- ==== Proof.RefValue.lean ====
/- The reference program's result, read off its run. Its operations are cut into four stretches where the values that many
   later operations share are complete — the edge endpoints, the input projection and the keep-mask; the first hop's
   features; the second hop's features; the read-out — and each stretch's values are read from the contents the stretch
   starts from, so that no shared value is ever expanded more than once per stretch. The fold of all the operations at
   the result buffer is then the named composition of stages of the launch contents of the twelve arguments. -/
import proofs.«155323_j59115929862451_1_alg».proof.Proof.RefRun
import proofs.«155323_j59115929862451_1_alg».proof.Proof.RefTerms

noncomputable section

namespace Cert.ReferenceIdeal.Ops

open Cert.ReferenceIdeal Cert.ReferenceIdeal.Gen Idealize.ShloMosaic Idealize.ShloMosaic.TcCoe Idealize.SL.Sem Idealize.ShloMosaic.StableHlo
open Cert.ReferenceIdeal.T

variable {F : FTy → Type} [FloatOps F]

/-- The twelve argument arrays as a valuation holds them. -/
def argsOf (V : Valuation τ sig (Elt F)) : Args F where
  x := V (main_arg0 : DevRef τ sig)
  e := V (main_arg1 : DevRef τ sig)
  Win := V (main_arg2 : DevRef τ sig)
  bin := V (main_arg3 : DevRef τ sig)
  W1 := V (main_arg4 : DevRef τ sig)
  b1 := V (main_arg5 : DevRef τ sig)
  W2 := V (main_arg6 : DevRef τ sig)
  b2 := V (main_arg7 : DevRef τ sig)
  Wc := V (main_arg8 : DevRef τ sig)
  bc := V (main_arg9 : DevRef τ sig)
  Wo := V (main_arg10 : DevRef τ sig)
  bo := V (main_arg11 : DevRef τ sig)

/-- The contents after each stretch. -/
def RA (V : Valuation τ sig (Elt F)) : Valuation τ sig (Elt F) := after segA V
def RB (V : Valuation τ sig (Elt F)) : Valuation τ sig (Elt F) := after segB (RA V)
def RC (V : Valuation τ sig (Elt F)) : Valuation τ sig (Elt F) := after segC (RB V)
def RD (V : Valuation τ sig (Elt F)) : Valuation τ sig (Elt F) := after segD (RC V)

theorem after_ops (V : Valuation τ sig (Elt F)) : after ops V = RD V := by
  unfold ops; rw [windows_eq_stretches, after_append, after_append, after_append]; rfl

/-- Reads a buffer after a stretch from the contents the stretch starts from. -/
macro "read_stretch" R:ident s:ident : tactic =>
  `(tactic| (unfold $R $s; simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

section A
variable (V : Valuation τ sig (Elt F))
set_option maxRecDepth 65536
theorem RA_row : RA V (no_index ((main_v1 : DevRef τ sig))) = (argsOf V).row := by read_stretch RA segA; rfl
theorem RA_col : RA V (no_index ((main_v3 : DevRef τ sig))) = (argsOf V).col := by read_stretch RA segA; rfl
theorem RA_h : RA V (no_index ((main_v8 : DevRef τ sig))) = (argsOf V).h := by read_stretch RA segA; rfl
theorem RA_em : RA V (no_index ((main_v48 : DevRef τ sig))) = (argsOf V).em := by read_stretch RA segA; rfl
theorem RA_arg8 : RA V (no_index ((main_arg8 : DevRef τ sig))) = (argsOf V).Wc := by read_stretch RA segA; rfl
theorem RA_arg9 : RA V (no_index ((main_arg9 : DevRef τ sig))) = (argsOf V).bc := by read_stretch RA segA; rfl
theorem RA_arg10 : RA V (no_index ((main_arg10 : DevRef τ sig))) = (argsOf V).Wo := by read_stretch RA segA; rfl
theorem RA_arg11 : RA V (no_index ((main_arg11 : DevRef τ sig))) = (argsOf V).bo := by read_stretch RA segA; rfl
end A

/-- Reads a buffer after a stretch from the contents the stretch starts from, and those at the named values they hold. -/
macro "read_stretch" R:ident s:ident "with" "[" ls:Lean.Parser.Tactic.simpLemma,* "]" : tactic =>
  `(tactic| (unfold $R $s; simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ls,*]))

section B
variable (V : Valuation τ sig (Elt F))
set_option maxRecDepth 65536
set_option maxHeartbeats 2000000 in
theorem RB_c1 : RB V (no_index ((main_v97 : DevRef τ sig))) = (argsOf V).c1 := by
  read_stretch RB segB with [RA_h, RA_em, RA_row, RA_col, RA_arg8, RA_arg9]; rfl
theorem RB_row : RB V (no_index ((main_v1 : DevRef τ sig))) = (argsOf V).row := by read_stretch RB segB with [RA_row]
theorem RB_col : RB V (no_index ((main_v3 : DevRef τ sig))) = (argsOf V).col := by read_stretch RB segB with [RA_col]
theorem RB_h : RB V (no_index ((main_v8 : DevRef τ sig))) = (argsOf V).h := by read_stretch RB segB with [RA_h]
theorem RB_em : RB V (no_index ((main_v48 : DevRef τ sig))) = (argsOf V).em := by read_stretch RB segB with [RA_em]
theorem RB_arg8 : RB V (no_index ((main_arg8 : DevRef τ sig))) = (argsOf V).Wc := by read_stretch RB segB with [RA_arg8]
theorem RB_arg9 : RB V (no_index ((main_arg9 : DevRef τ sig))) = (argsOf V).bc := by read_stretch RB segB with [RA_arg9]
theorem RB_arg10 : RB V (no_index ((main_arg10 : DevRef τ sig))) = (argsOf V).Wo := by read_stretch RB segB with [RA_arg10]
theorem RB_arg11 : RB V (no_index ((main_arg11 : DevRef τ sig))) = (argsOf V).bo := by read_stretch RB segB with [RA_arg11]
end B

section C
variable (V : Valuation τ sig (Elt F))
set_option maxRecDepth 65536
set_option maxHeartbeats 2000000 in
theorem RC_c2 : RC V (no_index ((main_v146 : DevRef τ sig))) = (argsOf V).c2 := by
  read_stretch RC segC with [RB_c1, RB_em, RB_row, RB_col, RB_arg8, RB_arg9]; rfl
theorem RC_h : RC V (no_index ((main_v8 : DevRef τ sig))) = (argsOf V).h := by read_stretch RC segC with [RB_h]
theorem RC_c1 : RC V (no_index ((main_v97 : DevRef τ sig))) = (argsOf V).c1 := by read_stretch RC segC with [RB_c1]
theorem RC_arg10 : RC V (no_index ((main_arg10 : DevRef τ sig))) = (argsOf V).Wo := by read_stretch RC segC with [RB_arg10]
theorem RC_arg11 : RC V (no_index ((main_arg11 : DevRef τ sig))) = (argsOf V).bo := by read_stretch RC segC with [RB_arg11]
end C

section D
variable (V : Valuation τ sig (Elt F))
set_option maxRecDepth 65536
theorem RD_out : RD V (no_index ((main_v152 : DevRef τ sig))) = (argsOf V).out := by
  read_stretch RD segD with []
  rw [show RC V (Proc.devRef .tc ((![main_v8, main_v97, main_v146] : Fin 3 → Ref sig .tc) 0)) = (argsOf V).h from RC_h V,
    show RC V (Proc.devRef .tc ((![main_v8, main_v97, main_v146] : Fin 3 → Ref sig .tc) 1)) = (argsOf V).c1 from RC_c1 V,
    show RC V (Proc.devRef .tc ((![main_v8, main_v97, main_v146] : Fin 3 → Ref sig .tc) 2)) = (argsOf V).c2 from RC_c2 V,
    RC_arg10 V, RC_arg11 V]
  rfl
end D

/-- THE REFERENCE'S RESULT: the fold of all its operations at the result buffer is the composition of the named stages. -/
theorem out_value (V : Valuation τ sig (Elt F)) : after ops V (main_v152 : DevRef τ sig) = (argsOf V).out := by
  rw [after_ops]; exact RD_out V

end Cert.ReferenceIdeal.Ops

end
-- ==== Proof.RefArgs.lean ====
/- No operation of the reference program writes an argument's buffer: the fold of its operations leaves each of the twelve
   argument arrays as launched. -/
import proofs.«155323_j59115929862451_1_alg».proof.Proof.RefValue

noncomputable section

namespace Cert.ReferenceIdeal.Ops

open Cert.ReferenceIdeal Cert.ReferenceIdeal.Gen Idealize.ShloMosaic Idealize.ShloMosaic.TcCoe Idealize.SL.Sem Idealize.ShloMosaic.StableHlo
open Cert.ReferenceIdeal.T

variable {F : FTy → Type} [FloatOps F] (V : Valuation τ sig (Elt F))

/-- Walks the fold back through every operation's "writes another buffer". -/
macro "walk_back" : tactic =>
  `(tactic| (rw [after_ops]; unfold RD RC RB RA segA segB segC segD; simp (disch := decide) only [after_cons, after_nil,
      nullary_result_ne', unary_result_ne', binary_result_ne', ternary_result_ne', quaternary_result_ne', reshape_result_ne',
      nary_result_ne', unaryIndexed_result_ne', binaryIndexed_result_ne']))

set_option maxRecDepth 65536
theorem keep_arg0 : after ops V (main_arg0 : DevRef τ sig) = V (main_arg0 : DevRef τ sig) := by walk_back
theorem keep_arg1 : after ops V (main_arg1 : DevRef τ sig) = V (main_arg1 : DevRef τ sig) := by walk_back
theorem keep_arg2 : after ops V (main_arg2 : DevRef τ sig) = V (main_arg2 : DevRef τ sig) := by walk_back
theorem keep_arg3 : after ops V (main_arg3 : DevRef τ sig) = V (main_arg3 : DevRef τ sig) := by walk_back
theorem keep_arg4 : after ops V (main_arg4 : DevRef τ sig) = V (main_arg4 : DevRef τ sig) := by walk_back
theorem keep_arg5 : after ops V (main_arg5 : DevRef τ sig) = V (main_arg5 : DevRef τ sig) := by walk_back
theorem keep_arg6 : after ops V (main_arg6 : DevRef τ sig) = V (main_arg6 : DevRef τ sig) := by walk_back
theorem keep_arg7 : after ops V (main_arg7 : DevRef τ sig) = V (main_arg7 : DevRef τ sig) := by walk_back
theorem keep_arg8 : after ops V (main_arg8 : DevRef τ sig) = V (main_arg8 : DevRef τ sig) := by walk_back
theorem keep_arg9 : after ops V (main_arg9 : DevRef τ sig) = V (main_arg9 : DevRef τ sig) := by walk_back
theorem keep_arg10 : after ops V (main_arg10 : DevRef τ sig) = V (main_arg10 : DevRef τ sig) := by walk_back
theorem keep_arg11 : after ops V (main_arg11 : DevRef τ sig) = V (main_arg11 : DevRef τ sig) := by walk_back

end Cert.ReferenceIdeal.Ops

end
-- ==== Proof.RefSide.lean ====
/- The reference's side of the claims, read off its run.

   The reference program is a straight line of host operations, so every weakly fair execution terminates without a fault
   and leaves each buffer at the fold of the operations over what the buffer held at launch. At the result buffer that
   fold is the named composition of the reference's stages applied to the twelve argument arrays as launched; at each
   argument buffer it is the launch contents themselves, because no operation writes an argument. Dropping the result's
   conjunct leaves the frame claim: the program runs and its arguments end unchanged. -/
import proofs.«155323_j59115929862451_1_alg».proof.Defs
import proofs.«155323_j59115929862451_1_alg».proof.Proof.RefValue
import proofs.«155323_j59115929862451_1_alg».proof.Proof.RefArgs
import proofs.«155323_j59115929862451_1_alg».proof.Proof.Gen.Pre_finite_inputs

noncomputable section

namespace Cert.Proof.RefSide

open Idealize.ShloMosaic Idealize.SL.Sem Idealize.ShloMosaic.TcCoe Idealize.ShloMosaic.StableHlo

/-- The reference's run: the result is the composition of the stages of the launched arguments, and the arguments end as
    launched. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v152) = (Cert.ReferenceIdeal.Ops.argsOf (StableHlo.launchContents m' c)).out
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run _ _ _).mono (fun r h c => ⟨(h c Cert.ReferenceIdeal.main_v152).trans (Cert.ReferenceIdeal.Ops.out_value _),
      (h c Cert.ReferenceIdeal.main_arg0).trans (Cert.ReferenceIdeal.Ops.keep_arg0 _),
      (h c Cert.ReferenceIdeal.main_arg1).trans (Cert.ReferenceIdeal.Ops.keep_arg1 _),
      (h c Cert.ReferenceIdeal.main_arg2).trans (Cert.ReferenceIdeal.Ops.keep_arg2 _),
      (h c Cert.ReferenceIdeal.main_arg3).trans (Cert.ReferenceIdeal.Ops.keep_arg3 _),
      (h c Cert.ReferenceIdeal.main_arg4).trans (Cert.ReferenceIdeal.Ops.keep_arg4 _),
      (h c Cert.ReferenceIdeal.main_arg5).trans (Cert.ReferenceIdeal.Ops.keep_arg5 _),
      (h c Cert.ReferenceIdeal.main_arg6).trans (Cert.ReferenceIdeal.Ops.keep_arg6 _),
      (h c Cert.ReferenceIdeal.main_arg7).trans (Cert.ReferenceIdeal.Ops.keep_arg7 _),
      (h c Cert.ReferenceIdeal.main_arg8).trans (Cert.ReferenceIdeal.Ops.keep_arg8 _),
      (h c Cert.ReferenceIdeal.main_arg9).trans (Cert.ReferenceIdeal.Ops.keep_arg9 _),
      (h c Cert.ReferenceIdeal.main_arg10).trans (Cert.ReferenceIdeal.Ops.keep_arg10 _),
      (h c Cert.ReferenceIdeal.main_arg11).trans (Cert.ReferenceIdeal.Ops.keep_arg11 _)⟩)
    (Cert.ReferenceIdeal.Ops.run_main m' ρ')

/-- The reference runs and its argument arrays end unchanged. -/
theorem frame_ri : Cert.frame_ReferenceIdeal := fun m ρ _ =>
  (θ_run _ _ _).mono (fun r h c => (h c).2) (ref_run m ρ)

end Cert.Proof.RefSide

end
-- ==== Proof.Alg.lean ====
/- The assembly of the algebraic claim. Both programs run to the end without a fault and leave their twelve argument
   arrays as launched. The kernel program's result buffer ends holding the last boundary's contents there, which is the
   reference's composition of stages (projection, importance, edge weights, mask, degrees, two hops, read-out) of the
   twelve arrays the kernel was launched with; the reference program's result buffer ends holding the same composition
   of the twelve arrays the reference was launched with. The two launches agree on the twelve arrays, so the two
   records of arguments are equal field by field, the two compositions are equal, and that common value is the witness. -/
import proofs.«155323_j59115929862451_1_alg».proof.Defs
import proofs.«155323_j59115929862451_1_alg».proof.Proof.Gen.KernelIdeal
import proofs.«155323_j59115929862451_1_alg».proof.Proof.Gen.ReferenceIdeal
import proofs.«155323_j59115929862451_1_alg».proof.Proof.Gen.Pre_finite_inputs
import proofs.«155323_j59115929862451_1_alg».proof.Proof.KRun
import proofs.«155323_j59115929862451_1_alg».proof.Proof.KV0
import proofs.«155323_j59115929862451_1_alg».proof.Proof.RefValue
import proofs.«155323_j59115929862451_1_alg».proof.Proof.RefTerms

noncomputable section

namespace Cert.Proof.Alg

open Idealize.ShloMosaic Idealize.ShloMosaic.TcCoe Idealize.SL.Sem

/-- Two records of the twelve argument arrays with equal fields are equal. -/
theorem args_ext {A B : Cert.ReferenceIdeal.T.Args Ideal} (h0 : A.x = B.x) (h1 : A.e = B.e) (h2 : A.Win = B.Win) (h3 : A.bin = B.bin)
    (h4 : A.W1 = B.W1) (h5 : A.b1 = B.b1) (h6 : A.W2 = B.W2) (h7 : A.b2 = B.b2) (h8 : A.Wc = B.Wc) (h9 : A.bc = B.bc)
    (h10 : A.Wo = B.Wo) (h11 : A.bo = B.bo) : A = B := by
  cases A; cases B
  simp only [Cert.ReferenceIdeal.T.Args.mk.injEq]
  exact ⟨h0, h1, h2, h3, h4, h5, h6, h7, h8, h9, h10, h11⟩

/-- The algebraic claim from the two runs with their results named: the kernel program's result buffer ends holding the
    reference's composition of stages of the kernel's launched arguments, the reference program's result buffer ends holding
    the same composition of its own launched arguments, and the two launches agree on the twelve arguments. -/
theorem algebraic_of
    (hK : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W15 m ρ c (Proc.devRef .tc Cert.KernelIdeal.main_v96) = (Cert.KernelIdeal.KV.kargs m c).out)
    (href : ∀ (m' : (ℓ : Loc Cert.ReferenceIdeal.nD Cert.ReferenceIdeal.τ Cert.ReferenceIdeal.sig) → Buf (Elt Ideal) ℓ)
      (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩
        (fun r => ∀ c : Dev Cert.ReferenceIdeal.nD,
          r.2.mem ((c.tc : Thread Cert.ReferenceIdeal.nD Cert.ReferenceIdeal.τ).loc Cert.ReferenceIdeal.main_v152)
            = (Cert.ReferenceIdeal.Ops.argsOf (StableHlo.launchContents m' c)).out
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))) :
    Cert.algebraic_KernelIdeal_ReferenceIdeal := by
  intro m ρ m' ρ' _ hagree
  refine ⟨fun c => (Cert.KernelIdeal.KV.kargs m c).out, ?_, ?_⟩
  · exact (θ_run _ _ _).mono (fun r h c => ⟨(h c).1.trans (hK m ρ c), (h c).2⟩) (Cert.KernelIdeal.KRun.run m ρ)
  · refine (θ_run _ _ _).mono (fun r h c => ⟨(h c).1.trans ?_, (h c).2⟩) (href m' ρ')
    obtain ⟨a0, a1, a2, a3, a4, a5, a6, a7, a8, a9, a10, a11⟩ := hagree c
    exact congrArg Cert.ReferenceIdeal.T.Args.out
      (args_ext (A := Cert.ReferenceIdeal.Ops.argsOf (StableHlo.launchContents m' c)) (B := Cert.KernelIdeal.KV.kargs m c)
        a0 a1 a2 a3 a4 a5 a6 a7 a8 a9 a10 a11)

end Cert.Proof.Alg

end
-- ==== Proof.lean ====
/- The certificate of a two-hop graph convolution network with learned edge pruning: the Pallas program (six pipelined
   regions — the input projection with the node-importance head, and per hop a linear map and a combination, then the
   read-out — among host operations that gather, threshold and scatter along the edges) against its jnp reference, as
   extended reals. Both programs compute, from the same twelve arrays, the same composition of stages: h = relu(x·W_in + b_in);
   the importance sigmoid(relu(h·W₁ + b₁)·W₂ + b₂); edge weights, their mean and unbiased standard deviation, the keep-mask;
   the degrees' inverse square roots and the edge normalisation; twice relu(scatter(norm·(cur·W)[row] → col) + dinv²·(cur·W) + b);
   and [h, c₁, c₂]·W_out + b_out. The host stages are the same operations in both programs. Each region's output array is its
   stage of the region's input arrays because a block of rows of a matrix product, or of a pointwise combination with row- and
   column-broadcasts, depends only on the same rows of the operands, so the ten row blocks written back tile the whole-array
   value; the read-out's three products over 128 columns sum to the one product over the 384 concatenated columns by
   regrouping a finite sum (addition of extended reals is commutative and associative; no finiteness is used). The kernel's
   sigmoid and the reference's 1/(1 + exp(−t)) are one function of an extended real. The frames of the two kernel programs are
   the generated ones; the reference runs as the straight line of its host operations. -/
import proofs.«155323_j59115929862451_1_alg».proof.Defs
import proofs.«155323_j59115929862451_1_alg».proof.Proof.Gen.Kernel
import proofs.«155323_j59115929862451_1_alg».proof.Proof.Gen.Kernel.Frame
import proofs.«155323_j59115929862451_1_alg».proof.Proof.Gen.KernelIdeal
import proofs.«155323_j59115929862451_1_alg».proof.Proof.Gen.KernelIdeal.Frame
import proofs.«155323_j59115929862451_1_alg».proof.Proof.Gen.ReferenceIdeal
import proofs.«155323_j59115929862451_1_alg».proof.Proof.Gen.Pre_finite_inputs
import proofs.«155323_j59115929862451_1_alg».proof.Proof.KRun
import proofs.«155323_j59115929862451_1_alg».proof.Proof.KV12
import proofs.«155323_j59115929862451_1_alg».proof.Proof.Region0
import proofs.«155323_j59115929862451_1_alg».proof.Proof.Region0b
import proofs.«155323_j59115929862451_1_alg».proof.Proof.Region1
import proofs.«155323_j59115929862451_1_alg».proof.Proof.Region2
import proofs.«155323_j59115929862451_1_alg».proof.Proof.Region3
import proofs.«155323_j59115929862451_1_alg».proof.Proof.Region4
import proofs.«155323_j59115929862451_1_alg».proof.Proof.Region5
import proofs.«155323_j59115929862451_1_alg».proof.Proof.RefSide
import proofs.«155323_j59115929862451_1_alg».proof.Proof.Alg
import Idealize.ShloMosaic.Adequacy
import Idealize.ShloMosaic.Init

noncomputable section

namespace Cert.Proof

open Idealize.ShloMosaic Idealize.SL.Sem

/-- The kernel program's result buffer ends at the reference's composition of stages of the launched arguments (the
    boundary-by-boundary reading). -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W15 m ρ c (Proc.devRef .tc Cert.KernelIdeal.main_v96) = (Cert.KernelIdeal.KV.kargs m c).out :=
  Cert.KernelIdeal.KV.result m ρ c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.RefSide.frame_ri,
  trivial,
  Cert.Proof.Alg.algebraic_of kernel_result Cert.Proof.RefSide.ref_run⟩

end Cert.Proof

end
